-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x17 : Shape := ⟨2, ![50000, 17]⟩
abbrev S128x128 : Shape := ⟨2, ![128, 128]⟩
abbrev S128x64 : Shape := ⟨2, ![128, 64]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x17 : S_.BroadcastsInDim S50000x17 (![] : Fin 0 → Fin S50000x17.rank)
  reducesTo_S50000x17_S_d0_1 : S50000x17.ReducesTo [0, 1] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg16 : FVec F S128x128 .f32) (main_arg17 : FVec F S128x128 .f32) (main_arg18 : FVec F S128 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg13 : FVec F S128 .f32) (main_arg14 : FVec F S128x128 .f32) (main_arg15 : FVec F S128x128 .f32) (main_arg16 : FVec F S128x128 .f32) (main_arg17 : FVec F S128x128 .f32) (main_arg18 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_v63 main_v67

def fn_part2 {F : FTy → Type} [FloatOps F] (main_arg9 : FVec F S128x128 .f32) (main_arg10 : FVec F S128x128 .f32) (main_arg11 : FVec F S128x128 .f32) (main_arg12 : FVec F S128x128 .f32) (main_arg13 : FVec F S128 .f32) (main_arg14 : FVec F S128x128 .f32) (main_arg15 : FVec F S128x128 .f32) (main_arg16 : FVec F S128x128 .f32) (main_arg17 : FVec F S128x128 .f32) (main_arg18 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_v48 main_v49 main_v50

def fn_part1 {F : FTy → Type} [FloatOps F] (main_arg6 : FVec F S50000x17 .f32) (main_arg7 : FVec F S128x128 .f32) (main_arg8 : FVec F S128x64 .f32) (main_arg9 : FVec F S128x128 .f32) (main_arg10 : FVec F S128x128 .f32) (main_arg11 : FVec F S128x128 .f32) (main_arg12 : FVec F S128x128 .f32) (main_arg13 : FVec F S128 .f32) (main_arg14 : FVec F S128x128 .f32) (main_arg15 : FVec F S128x128 .f32) (main_arg16 : FVec F S128x128 .f32) (main_arg17 : FVec F S128x128 .f32) (main_arg18 : FVec F S128 .f32) (main_v13 : IVec S_ 1) (main_v16 : IVec S50000x17 1) : IVec S_ 1 :=
  let main_c_5 : IVec S_ 1 := constantI S_ 1 1#1
  let main_v17 : IVec S_ 1 := (fun x v => Host.reduce IntOp.andi x v reducesTo_S50000x17_S_d0_1 h_S_) main_v16 main_c_5
  let main_v18 : IVec S_ 1 := andi main_v13 main_v17
  let main_v19 : FVec F S50000x17 .f32 := Host.absf main_arg6
  let main_cst_6 : FVec F S_ .f32 := constant S_ .f32 0x7F800000#32
  let main_v20 : FVec F S50000x17 .f32 := broadcastInDim S50000x17 ![] bcast_S_S50000x17 main_cst_6
  let main_v21 : IVec S50000x17 1 := cmpf .olt main_v19 main_v20
  let main_c_7 : IVec S_ 1 := constantI S_ 1 1#1
  let main_v22 : IVec S_ 1 := (fun x v => Host.reduce IntOp.andi x v reducesTo_S50000x17_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x128 .f32) (main_arg1 : IVec S50000x17 32) (main_arg2 : FVec F S50000x17 .f32) (main_arg3 : FVec F S50000x17 .f32) (main_arg4 : IVec S50000x17 32) (main_arg5 : FVec F S50000x17 .f32) (main_arg6 : FVec F S50000x17 .f32) (main_arg7 : FVec F S128x128 .f32) (main_arg8 : FVec F S128x64 .f32) (main_arg9 : FVec F S128x128 .f32) (main_arg10 : FVec F S128x128 .f32) (main_arg11 : FVec F S128x128 .f32) (main_arg12 : FVec F S128x128 .f32) (main_arg13 : FVec F S128 .f32) (main_arg14 : FVec F S128x128 .f32) (main_arg15 : FVec F S128x128 .f32) (main_arg16 : FVec F S128x128 .f32) (main_arg17 : FVec F S128x128 .f32) (main_arg18 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x17 .f32 := Host.absf main_arg2
  let main_cst_0 : FVec F S_ .f32 := constant S_ .f32 0x7F800000#32
  let main_v5 : FVec F S50000x17 .f32 := broadcastInDim S50000x17 ![] bcast_S_S50000x17 main_cst_0
  let main_v6 : IVec S50000x17 1 := cmpf .olt main_v4 main_v5
  let main_c_1 : IVec S_ 1 := constantI S_ 1 1#1
  let main_v7 : IVec S_ 1 := (fun x v => Host.reduce IntOp.andi x v reducesTo_S50000x17_S_d0_1 h_S_) main_v6 main_c_1
  let main_v8 : IVec S_ 1 := andi main_v3 main_v7
  let main_v9 : FVec F S50000x17 .f32 := Host.absf main_arg3
  let main_cst_2 : FVec F S_ .f32 := constant S_ .f32 0x7F800000#32
  let main_v10 : FVec F S50000x17 .f32 := broadcastInDim S50000x17 ![] bcast_S_S50000x17 main_cst_2
  let main_v11 : IVec S50000x17 1 := cmpf .olt main_v9 main_v10
  let main_c_3 : IVec S_ 1 := constantI S_ 1 1#1
  let main_v12 : IVec S_ 1 := (fun x v => Host.reduce IntOp.andi x v reducesTo_S50000x17_S_d0_1 h_S_) main_v11 main_c_3
  let main_v13 : IVec S_ 1 := andi main_v8 main_v12
  let main_v14 : FVec F S50000x17 .f32 := Host.absf main_arg5
  let main_cst_4 : FVec F S_ .f32 := constant S_ .f32 0x7F800000#32
  let main_v15 : FVec F S50000x17 .f32 := broadcastInDim S50000x17 ![] bcast_S_S50000x17 main_cst_4
  let main_v16 : IVec S50000x17 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S50000x17 : Shape := ⟨2, ![50000, 17]⟩
abbrev S128x128 : Shape := ⟨2, ![128, 128]⟩
abbrev S128x64 : Shape := ⟨2, ![128, 64]⟩
abbrev S128 : Shape := ⟨1, ![128]⟩
abbrev S50000x16 : Shape := ⟨2, ![50000, 16]⟩
abbrev S_ : Shape := ⟨0, ![]⟩
abbrev S50000x16x1 : Shape := ⟨3, ![50000, 16, 1]⟩
abbrev S50000x16x128 : Shape := ⟨3, ![50000, 16, 128]⟩
abbrev S1000x16x128 : Shape := ⟨3, ![1000, 16, 128]⟩
abbrev S1000x16 : Shape := ⟨2, ![1000, 16]⟩
abbrev S1000x128 : Shape := ⟨2, ![1000, 128]⟩
abbrev S1000x16x1 : Shape := ⟨3, ![1000, 16, 1]⟩
abbrev S50000x64 : Shape := ⟨2, ![50000, 64]⟩
abbrev S2000x128 : Shape := ⟨2, ![2000, 128]⟩
abbrev S2000x64 : Shape := ⟨2, ![2000, 64]⟩
abbrev S50000x16x64 : Shape := ⟨3, ![50000, 16, 64]⟩
abbrev S1000x16x64 : Shape := ⟨3, ![1000, 16, 64]⟩
abbrev S1000x64 : Shape := ⟨2, ![1000, 64]⟩

abbrev nBuf : Space → Nat
  | .hbm => 47
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S50000x17, .i32⟩
  | .hbm, ⟨2, _⟩ => ⟨S50000x17, .f32⟩
  | .hbm, ⟨3, _⟩ => ⟨S50000x17, .f32⟩
  | .hbm, ⟨4, _⟩ => ⟨S50000x17, .i32⟩
  | .hbm, ⟨5, _⟩ => ⟨S50000x17, .f32⟩
  | .hbm, ⟨6, _⟩ => ⟨S50000x17, .f32⟩
  | .hbm, ⟨7, _⟩ => ⟨S128x128, .f32⟩
  | .hbm, ⟨8, _⟩ => ⟨S128x64, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S128, .f32⟩
  | .hbm, ⟨19, _⟩ => ⟨S50000x16, .i32⟩
  | .hbm, ⟨20, _⟩ => ⟨S50000x16, .f32⟩
  | .hbm, ⟨21, _⟩ => ⟨S50000x128, .bf16⟩
  | .hbm, ⟨22, _⟩ => ⟨S_, .i32⟩
  | .hbm, ⟨23, _⟩ => ⟨S50000x16, .i32⟩
  | .hbm, ⟨24, _⟩ => ⟨S50000x16, .i1⟩
  | .hbm, ⟨25, _⟩ => ⟨S_, .i32⟩
  | .hbm, ⟨26, _⟩ => ⟨S50000x16, .i32⟩
  | .hbm, ⟨27, _⟩ => ⟨S50000x16, .i32⟩
  | .hbm, ⟨28, _⟩ => ⟨S50000x16, .i32⟩
  | .hbm, ⟨29, _⟩ => ⟨S50000x16x1, .i32⟩
  | .hbm, ⟨30, _⟩ => ⟨S50000x16x128, .bf16⟩
  | .hbm, ⟨31, _⟩ => ⟨S128x128, .bf16⟩
  | .hbm, ⟨32, _⟩ => ⟨S50000x128, .f32⟩
  | .hbm, ⟨33, _⟩ => ⟨S128x64, .bf16⟩
  | .hbm, ⟨34, _⟩ => ⟨S50000x64, .bf16⟩
  | .hbm, ⟨35, _⟩ => ⟨S50000x16, .i32⟩
  | .hbm, ⟨36, _⟩ => ⟨S50000x16, .f32⟩
  | .hbm, ⟨37, _⟩ => ⟨S_, .i32⟩
  | .hbm, ⟨38, _⟩ => ⟨S50000x16, .i32⟩
  | .hbm, ⟨39, _⟩ => ⟨S50000x16, .i1⟩
  | .hbm, ⟨40, _⟩ => ⟨S_, .i32⟩
  | .hbm, ⟨41, _⟩ => ⟨S50000x16, .i32⟩
  | .hbm, ⟨42, _⟩ => ⟨S50000x16, .i32⟩
  | .hbm, ⟨43, _⟩ => ⟨S50000x16, .i32⟩
  | .hbm, ⟨44, _⟩ => ⟨S50000x16x1, .i32⟩
  | .hbm, ⟨45, _⟩ => ⟨S50000x16x64, .bf16⟩
  | .hbm, ⟨46, _⟩ => ⟨S50000x64, .f32⟩
  | .local _ .vmem, ⟨0, _⟩ => ⟨S1000x16x128, .bf16⟩
  | .local _ .vmem, ⟨1, _⟩ => ⟨S1000x16x128, .bf16⟩
  | .local _ .vmem, ⟨2, _⟩ => ⟨S1000x16, .f32⟩
  | .local _ .vmem, ⟨3, _⟩ => ⟨S1000x16, .f32⟩
  | .local _ .vmem, ⟨4, _⟩ => ⟨S128x128, .bf16⟩
  | .local _ .vmem, ⟨5, _⟩ => ⟨S1000x128, .f32⟩
  | .local _ .vmem, ⟨6, _⟩ => ⟨S1000x128, .f32⟩
  | .local _ .vmem, ⟨7, _⟩ => ⟨S2000x128, .f32⟩
  | .local _ .vmem, ⟨8, _⟩ => ⟨S2000x128, .f32⟩
  | .local _ .vmem, ⟨9, _⟩ => ⟨S128x64, .bf16⟩
  | .local _ .vmem, ⟨10, _⟩ => ⟨S2000x64, .bf16⟩
  | .local _ .vmem, ⟨11, _⟩ => ⟨S2000x64, .bf16⟩
  | .local _ .vmem, ⟨12, _⟩ => ⟨S1000x16x64, .bf16⟩
  | .local _ .vmem, ⟨13, _⟩ => ⟨S1000x16x64, .bf16⟩
  | .local _ .vmem, ⟨14, _⟩ => ⟨S1000x16, .f32⟩
  | .local _ .vmem, ⟨15, _⟩ => ⟨S1000x16, .f32⟩
  | .local _ .vmem, ⟨16, _⟩ => ⟨S1000x64, .f32⟩
  | .local _ .vmem, ⟨17, _⟩ => ⟨S1000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_c : Ref sig .tc := ⟨.hbm, 22, rfl⟩
abbrev main_v3 : Ref sig .tc := ⟨.hbm, 23, rfl⟩
abbrev main_v4 : Ref sig .tc := ⟨.hbm, 24, rfl⟩
abbrev main_c_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_1 : Ref sig .tc := ⟨.hbm, 37, rfl⟩
abbrev main_v16 : Ref sig .tc := ⟨.hbm, 38, rfl⟩
abbrev main_v17 : Ref sig .tc := ⟨.hbm, 39, rfl⟩
abbrev main_c_2 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x16x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x16x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S50000x17_S50000x16_0_1 : S50000x17.Slices ![0, 1] S50000x16
  bitsLt_bf16_f32 : FTy.bits .bf16 < FTy.bits .f32
  bcast_S_S50000x16 : S_.BroadcastsInDim S50000x16 (![] : Fin 0 → Fin S50000x16.rank)
  bcast_S50000x16_S50000x16x1_0_1 : S50000x16.BroadcastsInDim S50000x16x1 (![0, 1] : Fin 2 → Fin S50000x16x1.rank)
  inb_S1000x16x128_S1000x16x128_0_0_0 : ∀ a, (![0, 0, 0] : Fin 3 → Nat) a + S1000x16x128.size a ≤ S1000x16x128.size a
  h_S1000x16x128 : 0 < S1000x16x128.numel
  shapeCasts_S1000x16x128_S1000x16x128 : S1000x16x128.ShapeCasts S1000x16x128
  inb_S1000x16_S1000x16_0_0 : ∀ a, (![0, 0] : Fin 2 → Nat) a + S1000x16.size a ≤ S1000x16.size a
  h_S1000x16 : 0 < S1000x16.numel
  shapeCasts_S1000x16_S1000x16 : S1000x16.ShapeCasts S1000x16
  shapeCasts_S1000x16_S1000x16x1 : S1000x16.ShapeCasts S1000x16x1
  broadcasts_S1000x16x1_S1000x16x128 : S1000x16x1.Broadcasts S1000x16x128
  reduces_S1000x16x128_S1000x128 : S1000x16x128.Reduces [1] S1000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1000x128_S1000x128_0_0 : ∀ a, (![0, 0] : Fin 2 → Nat) a + S1000x128.size a ≤ S1000x128.size a
  h_S1000x128 : 0 < S1000x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  inb_S1000x16x64_S1000x16x64_0_0_0 : ∀ a, (![0, 0, 0] : Fin 3 → Nat) a + S1000x16x64.size a ≤ S1000x16x64.size a
  h_S1000x16x64 : 0 < S1000x16x64.numel
  shapeCasts_S1000x16x64_S1000x16x64 : S1000x16x64.ShapeCasts S1000x16x64
  broadcasts_S1000x16x1_S1000x16x64 : S1000x16x1.Broadcasts S1000x16x64
  reduces_S1000x16x64_S1000x64 : S1000x16x64.Reduces [1] S1000x64
  inb_S1000x64_S1000x64_0_0 : ∀ a, (![0, 0] : Fin 2 → Nat) a + S1000x64.size a ≤ S1000x64.size a
  h_S1000x64 : 0 < S1000x64.numel
  gather_S50000x128_S50000x16x1_S50000x16x128_2_0_n_n_0_2_1128_wf : GatherDims.WF S50000x128 S50000x16x1 S50000x16x128 [2] [0] [] [0] [] 2 ![1, 128]
  dot_S1000x128_S128x128_S1000x128_1_0_0_1_n_n_wf : DotDims.WF S1000x128 S128x128 S1000x128 [1] [0] [0] [1] [] []
  dot_S2000x128_S128x64_S2000x64_1_0_0_1_n_n_wf : DotDims.WF S2000x128 S128x64 S2000x64 [1] [0] [0] [1] [] []
  gather_S50000x64_S50000x16x1_S50000x16x64_2_0_n_n_0_2_164_wf : GatherDims.WF S50000x64 S50000x16x1 S50000x16x64 [2] [0] [] [0] [] 2 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x16x128.size a ≤ S50000x16x128.size a
  hwx0_0 : ∀ i : grid0.Coords, EltTy.bits .bf16 = 32 ∨ (Rect.block (s := S50000x16x128) S1000x16x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x16.size a ≤ S50000x16.size a
  hwx0_1 : ∀ i : grid0.Coords, EltTy.bits .f32 = 32 ∨ (Rect.block (s := S50000x16) S1000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S50000x128.size a
  hwx0_3 : ∀ i : grid0.Coords, EltTy.bits .f32 = 32 ∨ (Rect.block (s := S50000x128) S1000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .bf16 = 32 ∨ (Rect.block (s := S128x64) S128x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .bf16 = 32 ∨ (Rect.block (s := S50000x64) S2000x64.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x16x64.size a ≤ S50000x16x64.size a
  hwx2_0 : ∀ i : grid2.Coords, EltTy.bits .bf16 = 32 ∨ (Rect.block (s := S50000x16x64) S1000x16x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x16.size a ≤ S50000x16.size a
  hwx2_1 : ∀ i : grid2.Coords, EltTy.bits .f32 = 32 ∨ (Rect.block (s := S50000x16) S1000x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x64.size a ≤ S50000x64.size a
  hwx2_2 : ∀ i : grid2.Coords, EltTy.bits .f32 = 32 ∨ (Rect.block (s := S50000x64) S1000x64.size (cc2_transform_2 i) (hinb2_2 i)).WholeWords (EltTy.packing .f32)

variable [Facts₀]

def gather_S50000x128_S50000x16x1_S50000x16x128_2_0_n_n_0_2_1128 : GatherDims S50000x128 S50000x16x1 S50000x16x128 where
  offsetDims := [2]
  collapsedSliceDims := [0]
  operandBatchingDims := []
  startIndicesBatchingDims := []
  startIndexMap := [0]
  indexVectorDim := 2
  sliceSizes := ![1, 128]
  wf := gather_S50000x128_S50000x16x1_S50000x16x128_2_0_n_n_0_2_1128_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S50000x16x1_S50000x16x64_2_0_n_n_0_2_164 : GatherDims S50000x64 S50000x16x1 S50000x16x64 where
  offsetDims := [2]
  collapsedSliceDims := [0]
  operandBatchingDims := []
  startIndicesBatchingDims := []
  startIndexMap := [0]
  indexVectorDim := 2
  sliceSizes := ![1, 64]
  wf := gather_S50000x64_S50000x16x1_S50000x16x64_2_0_n_n_0_2_164_wf

abbrev win0_0 : Pipeline.Window sig grid0 :=
  Pipeline.Window.ofSpec (Memref.whole main_v9) S1000x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v22) S1000x16x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S1000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S1000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S50000x17 : Shape := ⟨2, ![50000, 17]⟩
abbrev S128x128 : Shape := ⟨2, ![128, 128]⟩
abbrev S128x64 : Shape := ⟨2, ![128, 64]⟩
abbrev S128 : Shape := ⟨1, ![128]⟩
abbrev S50000x16 : Shape := ⟨2, ![50000, 16]⟩
abbrev S_ : Shape := ⟨0, ![]⟩
abbrev S50000x16x1 : Shape := ⟨3, ![50000, 16, 1]⟩
abbrev S50000x16x128 : Shape := ⟨3, ![50000, 16, 128]⟩
abbrev S50000x1x128 : Shape := ⟨3, ![50000, 1, 128]⟩
abbrev S1x1x128 : Shape := ⟨3, ![1, 1, 128]⟩
abbrev S50000x64 : Shape := ⟨2, ![50000, 64]⟩

abbrev nBuf : Space → Nat
  | .hbm => 176
  | .vmem => 0
  | .smem => 0
  | _ => 0

abbrev hbmTy0_0 (i : Nat) : BufTy := match i % 128 with
  | 0 => ⟨S50000x128, .f32⟩
  | 1 => ⟨S50000x17, .i32⟩
  | 2 => ⟨S50000x17, .f32⟩
  | 3 => ⟨S50000x17, .f32⟩
  | 4 => ⟨S50000x17, .i32⟩
  | 5 => ⟨S50000x17, .f32⟩
  | 6 => ⟨S50000x17, .f32⟩
  | 7 => ⟨S128x128, .f32⟩
  | 8 => ⟨S128x64, .f32⟩
  | 9 => ⟨S128x128, .f32⟩
  | 10 => ⟨S128x128, .f32⟩
  | 11 => ⟨S128x128, .f32⟩
  | 12 => ⟨S128x128, .f32⟩
  | 13 => ⟨S128, .f32⟩
  | 14 => ⟨S128x128, .f32⟩
  | 15 => ⟨S128x128, .f32⟩
  | 16 => ⟨S128x128, .f32⟩
  | 17 => ⟨S128x128, .f32⟩
  | 18 => ⟨S128, .f32⟩
  | 19 => ⟨S50000x16, .i32⟩
  | 20 => ⟨S_, .i32⟩
  | 21 => ⟨S50000x16, .i32⟩
  | 22 => ⟨S50000x16, .i1⟩
  | 23 => ⟨S_, .i32⟩
  | 24 => ⟨S50000x16, .i32⟩
  | 25 => ⟨S50000x16, .i32⟩
  | 26 => ⟨S50000x16, .i32⟩
  | 27 => ⟨S50000x16x1, .i32⟩
  | 28 => ⟨S50000x16x128, .f32⟩
  | 29 => ⟨S50000x16, .f32⟩
  | 30 => ⟨S50000x16x1, .f32⟩
  | 31 => ⟨S50000x16x128, .f32⟩
  | 32 => ⟨S50000x16x128, .f32⟩
  | 33 => ⟨S_, .f32⟩
  | 34 => ⟨S50000x128, .f32⟩
  | 35 => ⟨S_, .f32⟩
  | 36 => ⟨S50000x128, .f32⟩
  | 37 => ⟨S50000x128, .f32⟩
  | 38 => ⟨S50000x128, .f32⟩
  | 39 => ⟨S50000x1x128, .f32⟩
  | 40 => ⟨S50000x16x128, .f32⟩
  | 41 => ⟨S50000x16x128, .f32⟩
  | 42 => ⟨S50000x16x128, .f32⟩
  | 43 => ⟨S_, .f32⟩
  | 44 => ⟨S_, .f32⟩
  | 45 => ⟨S50000x16x128, .f32⟩
  | 46 => ⟨S50000x16x128, .i1⟩
  | 47 => ⟨S_, .f32⟩
  | 48 => ⟨S50000x16x128, .f32⟩
  | 49 => ⟨S50000x16x128, .f32⟩
  | 50 => ⟨S50000x16x128, .f32⟩
  | 51 => ⟨S_, .f32⟩
  | 52 => ⟨S50000x16x128, .f32⟩
  | 53 => ⟨S50000x16x128, .f32⟩
  | 54 => ⟨S50000x128, .f32⟩
  | 55 => ⟨S50000x1x128, .f32⟩
  | 56 => ⟨S50000x16x128, .f32⟩
  | 57 => ⟨S50000x16x128, .f32⟩
  | 58 => ⟨S50000x16x128, .f32⟩
  | 59 => ⟨S_, .f32⟩
  | 60 => ⟨S_, .f32⟩
  | 61 => ⟨S50000x16x128, .f32⟩
  | 62 => ⟨S50000x16x128, .i1⟩
  | 63 => ⟨S_, .f32⟩
  | 64 => ⟨S50000x16x128, .f32⟩
  | 65 => ⟨S50000x16x128, .f32⟩
  | 66 => ⟨S50000x16x128, .f32⟩
  | 67 => ⟨S1x1x128, .f32⟩
  | 68 => ⟨S50000x16x128, .f32⟩
  | 69 => ⟨S50000x16x128, .f32⟩
  | 70 => ⟨S50000x16x128, .f32⟩
  | 71 => ⟨S50000x16x128, .f32⟩
  | 72 => ⟨S50000x1x128, .f32⟩
  | 73 => ⟨S50000x16x128, .f32⟩
  | 74 => ⟨S50000x16x128, .f32⟩
  | 75 => ⟨S_, .f32⟩
  | 76 => ⟨S50000x128, .f32⟩
  | 77 => ⟨S_, .f32⟩
  | 78 => ⟨S50000x128, .f32⟩
  | 79 => ⟨S50000x128, .f32⟩
  | 80 => ⟨S50000x16, .f32⟩
  | 81 => ⟨S50000x16x1, .f32⟩
  | 82 => ⟨S50000x16x128, .f32⟩
  | 83 => ⟨S50000x16x128, .f32⟩
  | 84 => ⟨S_, .f32⟩
  | 85 => ⟨S50000x128, .f32⟩
  | 86 => ⟨S_, .f32⟩
  | 87 => ⟨S50000x128, .f32⟩
  | 88 => ⟨S50000x128, .f32⟩
  | 89 => ⟨S50000x128, .f32⟩
  | 90 => ⟨S_, .f32⟩
  | 91 => ⟨S50000x128, .f32⟩
  | 92 => ⟨S50000x128, .i1⟩
  | 93 => ⟨S_, .f32⟩
  | 94 => ⟨S50000x128, .f32⟩
  | 95 => ⟨S50000x128, .i1⟩
  | 96 => ⟨S_, .f32⟩
  | 97 => ⟨S_, .f32⟩
  | 98 => ⟨S50000x128, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S50000x128, .f32⟩
  | 105 => ⟨S50000x16, .i32⟩
  | 106 => ⟨S_, .i32⟩
  | 107 => ⟨S50000x16, .i32⟩
  | 108 => ⟨S50000x16, .i1⟩
  | 109 => ⟨S_, .i32⟩
  | 110 => ⟨S50000x16, .i32⟩
  | 111 => ⟨S50000x16, .i32⟩
  | 112 => ⟨S50000x16, .i32⟩
  | 113 => ⟨S50000x16x1, .i32⟩
  | 114 => ⟨S50000x16x128, .f32⟩
  | 115 => ⟨S50000x16, .f32⟩
  | 116 => ⟨S50000x16x1, .f32⟩
  | 117 => ⟨S50000x16x128, .f32⟩
  | 118 => ⟨S50000x16x128, .f32⟩
  | 119 => ⟨S_, .f32⟩
  | 120 => ⟨S50000x128, .f32⟩
  | 121 => ⟨S_, .f32⟩
  | 122 => ⟨S50000x128, .f32⟩
  | 123 => ⟨S50000x128, .f32⟩
  | 124 => ⟨S50000x128, .f32⟩
  | 125 => ⟨S50000x1x128, .f32⟩
  | 126 => ⟨S50000x16x128, .f32⟩
  | 127 => ⟨S50000x16x128, .f32⟩
  | _ => ⟨S50000x128, .f32⟩

abbrev hbmTy0_1 (i : Nat) : BufTy := match i % 128 with
  | 0 => ⟨S50000x16x128, .f32⟩
  | 1 => ⟨S_, .f32⟩
  | 2 => ⟨S_, .f32⟩
  | 3 => ⟨S50000x16x128, .f32⟩
  | 4 => ⟨S50000x16x128, .i1⟩
  | 5 => ⟨S_, .f32⟩
  | 6 => ⟨S50000x16x128, .f32⟩
  | 7 => ⟨S50000x16x128, .f32⟩
  | 8 => ⟨S50000x16x128, .f32⟩
  | 9 => ⟨S_, .f32⟩
  | 10 => ⟨S50000x16x128, .f32⟩
  | 11 => ⟨S50000x16x128, .f32⟩
  | 12 => ⟨S50000x128, .f32⟩
  | 13 => ⟨S50000x1x128, .f32⟩
  | 14 => ⟨S50000x16x128, .f32⟩
  | 15 => ⟨S50000x16x128, .f32⟩
  | 16 => ⟨S50000x16x128, .f32⟩
  | 17 => ⟨S_, .f32⟩
  | 18 => ⟨S_, .f32⟩
  | 19 => ⟨S50000x16x128, .f32⟩
  | 20 => ⟨S50000x16x128, .i1⟩
  | 21 => ⟨S_, .f32⟩
  | 22 => ⟨S50000x16x128, .f32⟩
  | 23 => ⟨S50000x16x128, .f32⟩
  | 24 => ⟨S50000x16x128, .f32⟩
  | 25 => ⟨S1x1x128, .f32⟩
  | 26 => ⟨S50000x16x128, .f32⟩
  | 27 => ⟨S50000x16x128, .f32⟩
  | 28 => ⟨S50000x16x128, .f32⟩
  | 29 => ⟨S50000x16x128, .f32⟩
  | 30 => ⟨S50000x1x128, .f32⟩
  | 31 => ⟨S50000x16x128, .f32⟩
  | 32 => ⟨S50000x16x128, .f32⟩
  | 33 => ⟨S_, .f32⟩
  | 34 => ⟨S50000x128, .f32⟩
  | 35 => ⟨S_, .f32⟩
  | 36 => ⟨S50000x128, .f32⟩
  | 37 => ⟨S50000x128, .f32⟩
  | 38 => ⟨S50000x16, .f32⟩
  | 39 => ⟨S50000x16x1, .f32⟩
  | 40 => ⟨S50000x16x128, .f32⟩
  | 41 => ⟨S50000x16x128, .f32⟩
  | 42 => ⟨S_, .f32⟩
  | 43 => ⟨S50000x128, .f32⟩
  | 44 => ⟨S_, .f32⟩
  | 45 => ⟨S50000x128, .f32⟩
  | 46 => ⟨S50000x128, .f32⟩
  | 47 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_c : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst : Ref sig .tc := ⟨.hbm, 33, rfl⟩
abbrev main_v12 : Ref sig .tc := ⟨.hbm, 34, rfl⟩
abbrev main_cst_1 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_2 : Ref sig .tc := ⟨.hbm, 43, rfl⟩
abbrev main_call0_cst : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v20 : Ref sig .tc := ⟨.hbm, 50, rfl⟩
abbrev main_cst_3 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst_4 : Ref sig .tc := ⟨.hbm, 59, rfl⟩
abbrev main_call1_cst : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_5 : Ref sig .tc := ⟨.hbm, 75, rfl⟩
abbrev main_v37 : Ref sig .tc := ⟨.hbm, 76, rfl⟩
abbrev main_cst_6 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_cst_7 : Ref sig .tc := ⟨.hbm, 84, rfl⟩
abbrev main_v44 : Ref sig .tc := ⟨.hbm, 85, rfl⟩
abbrev main_cst_8 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_call2_cst : Ref sig .tc := ⟨.hbm, 90, rfl⟩
abbrev main_call2_v0 : Ref sig .tc := ⟨.hbm, 91, rfl⟩
abbrev main_call2_v1 : Ref sig .tc := ⟨.hbm, 92, rfl⟩
abbrev main_call2_cst_0 : Ref sig .tc := ⟨.hbm, 93, rfl⟩
abbrev main_call2_v2 : Ref sig .tc := ⟨.hbm, 94, rfl⟩
abbrev main_call2_v3 : Ref sig .tc := ⟨.hbm, 95, rfl⟩
abbrev main_call2_cst_1 : Ref sig .tc := ⟨.hbm, 96, rfl⟩
abbrev main_call2_call0_v0 : Ref sig .tc := ⟨.hbm, 97, rfl⟩
abbrev main_call2_call0_v1 : Ref sig .tc := ⟨.hbm, 98, rfl⟩
abbrev main_call2_v4 : Ref sig .tc := ⟨.hbm, 99, rfl⟩
abbrev main_call2_v5 : Ref sig .tc := ⟨.hbm, 100, rfl⟩
abbrev main_call2_cst_2 : Ref sig .tc := ⟨.hbm, 101, rfl⟩
abbrev main_call2_v6 : Ref sig .tc := ⟨.hbm, 102, rfl⟩
abbrev main_call2_v7 : Ref sig .tc := ⟨.hbm, 103, rfl⟩
abbrev main_v48 : Ref sig .tc := ⟨.hbm, 104, rfl⟩
abbrev main_v49 : Ref sig .tc := ⟨.hbm, 105, rfl⟩
abbrev main_c_9 : Ref sig .tc := ⟨.hbm, 106, rfl⟩
abbrev main_v50 : Ref sig .tc := ⟨.hbm, 107, rfl⟩
abbrev main_v51 : Ref sig .tc := ⟨.hbm, 108, rfl⟩
abbrev main_c_10 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_cst_11 : Ref sig .tc := ⟨.hbm, 119, rfl⟩
abbrev main_v61 : Ref sig .tc := ⟨.hbm, 120, rfl⟩
abbrev main_cst_12 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_cst_13 : Ref sig .tc := ⟨.hbm, 129, rfl⟩
abbrev main_call3_cst : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_v69 : Ref sig .tc := ⟨.hbm, 136, rfl⟩
abbrev main_cst_14 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_cst_15 : Ref sig .tc := ⟨.hbm, 145, rfl⟩
abbrev main_call4_cst : Ref sig .tc := ⟨.hbm, 146, rfl⟩
abbrev main_call4_v0 : Ref sig .tc := ⟨.hbm, 147, rfl⟩
abbrev main_call4_v1 : Ref sig .tc := ⟨.hbm, 148, rfl⟩
abbrev main_call4_v2 : Ref sig .tc := ⟨.hbm, 149, rfl⟩
abbrev main_call4_v3 : Ref sig .tc := ⟨.hbm, 150, rfl⟩
abbrev main_call4_v4 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_cst_16 : Ref sig .tc := ⟨.hbm, 161, rfl⟩
abbrev main_v86 : Ref sig .tc := ⟨.hbm, 162, rfl⟩
abbrev main_cst_17 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_cst_18 : Ref sig .tc := ⟨.hbm, 170, rfl⟩
abbrev main_v93 : Ref sig .tc := ⟨.hbm, 171, rfl⟩
abbrev main_cst_19 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩

abbrev nD : Nat := 1
abbrev τ : Topo := Topo.v7x

variable {F : FTy → Type} [FloatOps F]

class Facts₀ : Prop where
  slices_S50000x17_S50000x16_0_1 : S50000x17.Slices ![0, 1] S50000x16
  bcast_S_S50000x16 : S_.BroadcastsInDim S50000x16 (![] : Fin 0 → Fin S50000x16.rank)
  bcast_S50000x16_S50000x16x1_0_1 : S50000x16.BroadcastsInDim S50000x16x1 (![0, 1] : Fin 2 → Fin S50000x16x1.rank)
  bcast_S50000x16x1_S50000x16x128_0_1_2 : S50000x16x1.BroadcastsInDim S50000x16x128 (![0, 1, 2] : Fin 3 → Fin S50000x16x128.rank)
  reducesTo_S50000x16x128_S50000x128_d1 : S50000x16x128.ReducesTo [1] S50000x128
  h_S_ : 0 < S_.numel
  bcast_S_S50000x128 : S_.BroadcastsInDim S50000x128 (![] : Fin 0 → Fin S50000x128.rank)
  bcast_S50000x128_S50000x1x128_0_2 : S50000x128.BroadcastsInDim S50000x1x128 (![0, 2] : Fin 2 → Fin S50000x1x128.rank)
  bcast_S50000x1x128_S50000x16x128_0_1_2 : S50000x1x128.BroadcastsInDim S50000x16x128 (![0, 1, 2] : Fin 3 → Fin S50000x16x128.rank)
  bcast_S_S50000x16x128 : S_.BroadcastsInDim S50000x16x128 (![] : Fin 0 → Fin S50000x16x128.rank)
  bcast_S128_S1x1x128_2 : S128.BroadcastsInDim S1x1x128 (![2] : Fin 1 → Fin S1x1x128.rank)
  bcast_S1x1x128_S50000x16x128_0_1_2 : S1x1x128.BroadcastsInDim S50000x16x128 (![0, 1, 2] : Fin 3 → Fin S50000x16x128.rank)
  gather_S50000x128_S50000x16x1_S50000x16x128_2_0_n_n_0_2_1128_wf : GatherDims.WF S50000x128 S50000x16x1 S50000x16x128 [2] [0] [] [0] [] 2 ![1, 128]
  dot_S50000x128_S128x128_S50000x128_1_0_0_1_n_n_wf : DotDims.WF S50000x128 S128x128 S50000x128 [1] [0] [0] [1] [] []
  dot_S50000x16x128_S128x128_S50000x16x128_2_0_01_1_n_n_wf : DotDims.WF S50000x16x128 S128x128 S50000x16x128 [2] [0] [0, 1] [1] [] []
  dot_S50000x128_S128x64_S50000x64_1_0_0_1_n_n_wf : DotDims.WF S50000x128 S128x64 S50000x64 [1] [0] [0] [1] [] []

variable [Facts₀]

def gather_S50000x128_S50000x16x1_S50000x16x128_2_0_n_n_0_2_1128 : GatherDims S50000x128 S50000x16x1 S50000x16x128 where
  offsetDims := [2]
  collapsedSliceDims := [0]
  operandBatchingDims := []
  startIndicesBatchingDims := []
  startIndexMap := [0]
  indexVectorDim := 2
  sliceSizes := ![1, 128]
  wf := gather_S50000x128_S50000x16x1_S50000x16x128_2_0_n_n_0_2_1128_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x16x128_S128x128_S50000x16x128_2_0_01_1_n_n : DotDims S50000x16x128 S128x128 S50000x16x128 where
  lhsContracting := [2]
  rhsContracting := [0]
  lhsNonContracting := [0, 1]
  rhsNonContracting := [1]
  lhsBatch := []
  rhsBatch := []
  wf := dot_S50000x16x128_S128x128_S50000x16x128_2_0_01_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel program's run with EVERY unscoped buffer of the TensorCore named at the end: the program is three
  pipelined regions among stretches of host operations, and the library's theorem for such a chain of segments gives, for
  every weakly fair execution, termination without fault and a final memory that holds, buffer by buffer, the last
  boundary's contents (the fold `W6` of the host stretches' results and the regions' write-backs from the launch memory).
  From it: the result array is the last region's output array after all its write-backs, and the arguments end as launched.
-/
import proofs.«141793_j68109591380388_2_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every unscoped buffer of each core ends
    at the last boundary's contents. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The result array is the last region's output array after its write-backs; the arguments end as launched. -/
theorem run_result : θ_run defs (onTc (τ := τ) (main (F := F))) ⟨m, fun _ => 0, ρ⟩ (fun r => ∀ c : Dev nD,
      r.2.mem ((c.tc : Thread nD τ).loc main_v23) = (dat2 (V5 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun s h c =>
      ⟨(h c _ (mem_uc main_v23 (by decide))).trans (W6_arr m ρ c 2),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c)⟩)
    (run_buffers m ρ)

end Cert.KernelIdeal.WholeRun

end
-- ==== Proof.WeightedSum.lean ====
/-
  The weighted sum over the neighbour axis that both aggregation bodies compute, read at an index: for a block of gathered
  rows `x0 : [1000, 16, D]` and a block of weights `x1 : [1000, 16]`, the lane reduction over axis 1 of the product of
  `x0` with `x1` broadcast along the feature axis is, at (p, q), the sum over k of x0[p, k, q] * x1[p, k].
-/
import Idealize.ShloMosaic.PureOps.Ideal
import Idealize.ShloMosaic.PureOps.Ideal.Laws
import Idealize.ShloMosaic.Lib.ValueIdx
import Idealize.ShloMosaic.Lib.Pipeline.Value

noncomputable section

namespace Cert.WeightedSum

open Idealize.ShloMosaic Idealize.ShloMosaic.ValueIdx

/-- The weights block, given a trailing unit axis and broadcast along the feature axis, read at (p, k, q): the weight at (p, k). -/
theorem weights_bcast_apply {D : Nat} (x1 : FVec Ideal ⟨2, ![1000, 16]⟩ .f32)
    (h2 : (⟨2, ![1000, 16]⟩ : Shape).ShapeCasts ⟨2, ![1000, 16]⟩)
    (h3 : (⟨2, ![1000, 16]⟩ : Shape).ShapeCasts ⟨3, ![1000, 16, 1]⟩)
    (h4 : (⟨3, ![1000, 16, 1]⟩ : Shape).Broadcasts ⟨3, ![1000, 16, D]⟩)
    (p : Fin 1000) (k : Fin 16) (q : Fin D) :
    broadcastTo ⟨3, ![1000, 16, D]⟩ (shapeCast ⟨3, ![1000, 16, 1]⟩ (shapeCast ⟨2, ![1000, 16]⟩ x1 h2) h3) h4 (ix3 p k q) = x1 (ix2 p k) := by
  rw [broadcastTo_apply _ h4 (ix3 p k q) (ix3 p k 0) (by
    intro a
    match a with
    | ⟨0, _⟩ => rfl
    | ⟨1, _⟩ => rfl
    | ⟨2, _⟩ => rfl)]
  rw [shapeCast_apply _ h3 (ix3 p k 0) (ix2 p k) (by
    rw [Shape.rowMajor_val_two, Shape.rowMajor_val_three]
    show p.val * 16 + k.val = (p.val * 16 + k.val) * 1 + 0
    omega)]
  rw [shapeCast_self]

set_option backward.isDefEq.respectTransparency.types false in
/-- The source index of the lane reduction over axis 1 at result index (p, q) and dropped coordinate k is (p, k, q). -/
theorem lift_mid {D : Nat} (h : (⟨3, ![1000, 16, D]⟩ : Shape).Reduces [1] ⟨2, ![1000, D]⟩) (p : Fin 1000) (q : Fin D) (k : Fin 16) :
    h.lift (ix2 p q) k = ix3 p k q := by
  funext c
  apply Fin.ext
  rw [h.lift_val]
  unfold Shape.Reduces.liftVal
  match c with
  | ⟨0, _⟩ => rfl
  | ⟨1, _⟩ => rfl
  | ⟨2, _⟩ => rfl

set_option backward.isDefEq.respectTransparency.types false in
/-- THE WEIGHTED SUM at (p, q): the sum over the 16 neighbours of the gathered entry times the weight. -/
theorem wsum_apply {D : Nat} (x0 : FVec Ideal ⟨3, ![1000, 16, D]⟩ .bf16) (x1 : FVec Ideal ⟨2, ![1000, 16]⟩ .f32)
    (h1 : (⟨3, ![1000, 16, D]⟩ : Shape).ShapeCasts ⟨3, ![1000, 16, D]⟩) (hb : FTy.bits .bf16 < FTy.bits .f32)
    (h2 : (⟨2, ![1000, 16]⟩ : Shape).ShapeCasts ⟨2, ![1000, 16]⟩)
    (h3 : (⟨2, ![1000, 16]⟩ : Shape).ShapeCasts ⟨3, ![1000, 16, 1]⟩)
    (h4 : (⟨3, ![1000, 16, 1]⟩ : Shape).Broadcasts ⟨3, ![1000, 16, D]⟩)
    (hr : (⟨3, ![1000, 16, D]⟩ : Shape).Reduces [1] ⟨2, ![1000, D]⟩) (hφ : FKind.Formats .f32)
    (hacc : (0x00000000#32 : BitVec (FTy.f32).bits) = FKind.add.neutral .f32 hφ) (p : Fin 1000) (q : Fin D) :
    multiReduction .add [1] ⟨2, ![1000, D]⟩
        (mulf (extf .f32 (shapeCast ⟨3, ![1000, 16, D]⟩ x0 h1) hb)
          (broadcastTo ⟨3, ![1000, 16, D]⟩ (shapeCast ⟨3, ![1000, 16, 1]⟩ (shapeCast ⟨2, ![1000, 16]⟩ x1 h2) h3) h4))
        0x00000000#32 hr hφ hacc (ix2 p q)
      = ∑ k : Fin 16, x0 (ix3 p k q) * x1 (ix2 p k) := by
  refine (Ideal.multiReduction_add_single _ _ hr hφ hacc (ix2 p q)).trans ?_
  refine Finset.sum_congr rfl fun k _ => ?_
  rw [lift_mid hr p q k]
  show (shapeCast ⟨3, ![1000, 16, D]⟩ x0 h1) (ix3 p k q) * _ = _
  rw [shapeCast_self, weights_bcast_apply]

end Cert.WeightedSum

end
-- ==== Proof.Layers.lean ====
/-
  The mathematics of the two programs, index by index, over the extended reals.

  A node table `x` of 50000 rows is aggregated along 16 neighbour rows per node: entry (n, f) of the weighted neighbour sum
  is the sum over k of x[row n k, f] * w[n, k]. Layer one scales that sum by one sixteenth (the neighbour MEAN), multiplies
  by a weight matrix and applies the exponential linear unit; layer two takes the neighbour mean of layer one's rows and
  multiplies by a second weight matrix.
  One program multiplies by the second matrix BEFORE gathering the neighbour rows and taking their mean, and scales by the
  literal 1/16; the other gathers, takes the mean by DIVIDING by 16, and multiplies afterwards. On real entries the two
  agree: the matrix product is linear in its rows, so it commutes with the weighted mean of rows (sums exchanged, the
  common factor moved through). That exchange needs every entry to be a real number (the extended reals are not
  distributive at the infinities), which is where the inputs' finiteness is used; layer one's output is real because the
  exponential of a real is real.
-/
import Idealize.ShloMosaic.PureOps.Ideal
import Idealize.ShloMosaic.PureOps.Ideal.Laws
import Idealize.ShloMosaic.Lib.ValueIdx

noncomputable section

namespace Cert.GraphLayers

open Idealize.ShloMosaic Idealize.ShloMosaic.ValueIdx

/-- A rank-2 table of extended reals. -/
abbrev Tab (r c : Nat) : Type := (⟨2, ![r, c]⟩ : Shape).Idx → EReal

/-! ## The four float literals the programs spell -/

theorem lit_zero : Ideal.ofBits .f32 0x00000000#32 = 0 := by
  simp [Ideal.ofBits, Ideal.ieee]
theorem lit_one : Ideal.ofBits .f32 0x3F800000#32 = 1 := by
  simp [Ideal.ofBits, Ideal.ieee, -EReal.coe_mul]; norm_num
theorem lit_sixteenth : Ideal.ofBits .f32 0x3D800000#32 = ((1 / 16 : ℝ) : EReal) := by
  simp [Ideal.ofBits, Ideal.ieee, -EReal.coe_mul]; norm_num
theorem lit_sixteen : Ideal.ofBits .f32 0x41800000#32 = ((16 : ℝ) : EReal) := by
  simp [Ideal.ofBits, Ideal.ieee, -EReal.coe_mul]; norm_num

/-! ## Sums of reals are real -/

theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- Every entry is a real number. -/
def IsReal {α : Type} (x : α → EReal) : Prop := ∀ i, ∃ r : ℝ, x i = (r : EReal)

/-! ## The exponential linear unit, in the two spellings -/

/-- `v` above zero, `exp (min v 0) - 1` otherwise. -/
def eluMin (v : EReal) : EReal :=
  Scalar.select (Ideal.cmp .ogt v (Ideal.ofBits .f32 0x00000000#32)) v
    (Ideal.exp (min v (Ideal.ofBits .f32 0x00000000#32)) - Ideal.ofBits .f32 0x3F800000#32)

/-- `v` above zero, `1 * (exp (0 if v > 0 else v) - 1)` otherwise. -/
def eluWhere (v : EReal) : EReal :=
  Scalar.select (Ideal.cmp .ogt v (Ideal.ofBits .f32 0x00000000#32)) v
    (Ideal.ofBits .f32 0x3F800000#32 *
      (Ideal.exp (Scalar.select (Ideal.cmp .ogt v (Ideal.ofBits .f32 0x00000000#32)) (Ideal.ofBits .f32 0x00000000#32) v) - 1))

theorem eluMin_eq_eluWhere (v : EReal) : eluMin v = eluWhere v := by
  unfold eluMin eluWhere
  rw [lit_zero, lit_one]
  by_cases h : (0 : EReal) < v
  · have e : Ideal.cmp .ogt v 0 = 1#1 := by simp [Ideal.cmp, h]
    rw [e, select_one, select_one]
  · have e : Ideal.cmp .ogt v 0 = 0#1 := by simp [Ideal.cmp, h]
    rw [e, select_zero, select_zero, select_zero, one_mul, min_eq_left (not_lt.mp h)]

theorem eluMin_coe (r : ℝ) : ∃ s : ℝ, eluMin (r : EReal) = (s : EReal) := by
  unfold eluMin
  rw [lit_zero, lit_one]
  by_cases h : (0 : EReal) < (r : EReal)
  · have e : Ideal.cmp .ogt (r : EReal) 0 = 1#1 := by simp [Ideal.cmp, h]
    exact ⟨r, by rw [e, select_one]⟩
  · have e : Ideal.cmp .ogt (r : EReal) 0 = 0#1 := by simp [Ideal.cmp, h]
    refine ⟨Real.exp r - 1, ?_⟩
    rw [e, select_zero, min_eq_left (not_lt.mp h), Ideal.exp_coe, EReal.coe_sub, EReal.coe_one]

/-! ## The layers -/

/-- The row a start index names: read signed, clamped into the table. -/
def rowOf (si : IVec ⟨3, ![50000, 16, 1]⟩ 32) (n : Fin 50000) (k : Fin 16) : Fin 50000 :=
  ⟨min (si (ix3 n k 0)).toInt.toNat 49999, by omega⟩

/-- The weighted neighbour sum: entry (n, f) is the sum over the 16 neighbours of their row's entry times the weight. -/
def wsum {D : Nat} (x : Tab 50000 D) (row : Fin 50000 → Fin 16 → Fin 50000) (w : Tab 50000 16) (n : Fin 50000) (f : Fin D) : EReal :=
  ∑ k : Fin 16, x (ix2 (row n k) f) * w (ix2 n k)

/-- Layer one with the mean as a product by 1/16 and the unit spelt with a minimum. -/
def hidScaled (x : Tab 50000 128) (row : Fin 50000 → Fin 16 → Fin 50000) (w : Tab 50000 16) (W : Tab 128 128)
    (n : Fin 50000) (h : Fin 128) : EReal :=
  eluMin (∑ f : Fin 128, (wsum x row w n f * Ideal.ofBits .f32 0x3D800000#32) * W (ix2 f h))

/-- Layer one with the mean as a quotient by 16 and the unit spelt with a selection. -/
def hidDivided (x : Tab 50000 128) (row : Fin 50000 → Fin 16 → Fin 50000) (w : Tab 50000 16) (W : Tab 128 128)
    (n : Fin 50000) (h : Fin 128) : EReal :=
  eluWhere (∑ f : Fin 128, Ideal.div (wsum x row w n f) (Ideal.ofBits .f32 0x41800000#32) * W (ix2 f h))

/-- Rows times the second matrix. -/
def proj (hid : Fin 50000 → Fin 128 → EReal) (W : Tab 128 64) (n : Fin 50000) (c : Fin 64) : EReal :=
  ∑ f : Fin 128, hid n f * W (ix2 f c)

/-- Project first, then the neighbour mean (by 1/16). -/
def outProjFirst (hid : Fin 50000 → Fin 128 → EReal) (row : Fin 50000 → Fin 16 → Fin 50000) (w : Tab 50000 16) (W : Tab 128 64)
    (n : Fin 50000) (c : Fin 64) : EReal :=
  (∑ k : Fin 16, proj hid W (row n k) c * w (ix2 n k)) * Ideal.ofBits .f32 0x3D800000#32

/-- The neighbour mean (by /16) first, then project. -/
def outMeanFirst (hid : Fin 50000 → Fin 128 → EReal) (row : Fin 50000 → Fin 16 → Fin 50000) (w : Tab 50000 16) (W : Tab 128 64)
    (n : Fin 50000) (c : Fin 64) : EReal :=
  ∑ f : Fin 128, Ideal.div (∑ k : Fin 16, hid (row n k) f * w (ix2 n k)) (Ideal.ofBits .f32 0x41800000#32) * W (ix2 f c)

/-! ## Layer one: the two spellings are one function, and it is real on real inputs -/

theorem hidScaled_eq_hidDivided (x : Tab 50000 128) (row : Fin 50000 → Fin 16 → Fin 50000) (w : Tab 50000 16) (W : Tab 128 128)
    (n : Fin 50000) (h : Fin 128) : hidScaled x row w W n h = hidDivided x row w W n h := by
  unfold hidScaled hidDivided
  rw [eluMin_eq_eluWhere, lit_sixteen, lit_sixteenth]
  congr 1
  refine Finset.sum_congr rfl fun f _ => ?_
  rw [Ideal.div_coe (by norm_num : (16 : ℝ) ≠ 0)]

theorem wsum_real {D : Nat} (x : Tab 50000 D) (row : Fin 50000 → Fin 16 → Fin 50000) (w : Tab 50000 16)
    (hx : IsReal x) (hw : IsReal w) (n : Fin 50000) (f : Fin D) : ∃ r : ℝ, wsum x row w n f = (r : EReal) := by
  choose xr hxr using hx
  choose wr hwr using hw
  refine ⟨∑ k : Fin 16, xr (ix2 (row n k) f) * wr (ix2 n k), ?_⟩
  unfold wsum
  rw [coe_sum]
  refine Finset.sum_congr rfl fun k _ => ?_
  rw [hxr, hwr, EReal.coe_mul]

theorem hidScaled_real (x : Tab 50000 128) (row : Fin 50000 → Fin 16 → Fin 50000) (w : Tab 50000 16) (W : Tab 128 128)
    (hx : IsReal x) (hw : IsReal w) (hW : IsReal W) (n : Fin 50000) (h : Fin 128) :
    ∃ r : ℝ, hidScaled x row w W n h = (r : EReal) := by
  choose sr hsr using wsum_real x row w hx hw n
  choose Wr hWr using hW
  have e : (∑ f : Fin 128, (wsum x row w n f * Ideal.ofBits .f32 0x3D800000#32) * W (ix2 f h))
      = ((∑ f : Fin 128, (sr f * (1 / 16)) * Wr (ix2 f h) : ℝ) : EReal) := by
    rw [coe_sum, lit_sixteenth]
    refine Finset.sum_congr rfl fun f _ => ?_
    rw [hsr, hWr, EReal.coe_mul, EReal.coe_mul]
  unfold hidScaled
  rw [e]
  exact eluMin_coe _

/-! ## Layer two: projecting commutes with the weighted mean of rows, on real entries -/

theorem exchange (a : Fin 16 → Fin 128 → ℝ) (w : Fin 16 → ℝ) (W : Fin 128 → ℝ) :
    (∑ k : Fin 16, (∑ f : Fin 128, (a k f : EReal) * (W f : EReal)) * (w k : EReal)) * ((1 / 16 : ℝ) : EReal)
      = ∑ f : Fin 128, Ideal.div (∑ k : Fin 16, (a k f : EReal) * (w k : EReal)) ((16 : ℝ) : EReal) * (W f : EReal) := by
  have e1 : ∀ k : Fin 16, (∑ f : Fin 128, (a k f : EReal) * (W f : EReal)) = ((∑ f : Fin 128, a k f * W f : ℝ) : EReal) := fun k => by
    rw [coe_sum]; exact Finset.sum_congr rfl fun f _ => (EReal.coe_mul _ _).symm
  have e2 : ∀ f : Fin 128, (∑ k : Fin 16, (a k f : EReal) * (w k : EReal)) = ((∑ k : Fin 16, a k f * w k : ℝ) : EReal) := fun f => by
    rw [coe_sum]; exact Finset.sum_congr rfl fun k _ => (EReal.coe_mul _ _).symm
  have l : (∑ k : Fin 16, (∑ f : Fin 128, (a k f : EReal) * (W f : EReal)) * (w k : EReal)) * ((1 / 16 : ℝ) : EReal)
      = (((∑ k : Fin 16, (∑ f : Fin 128, a k f * W f) * w k) * (1 / 16) : ℝ) : EReal) := by
    rw [EReal.coe_mul, coe_sum]
    exact congrArg (· * ((1 / 16 : ℝ) : EReal)) (Finset.sum_congr rfl fun k _ => by rw [e1, EReal.coe_mul])
  have r : (∑ f : Fin 128, Ideal.div (∑ k : Fin 16, (a k f : EReal) * (w k : EReal)) ((16 : ℝ) : EReal) * (W f : EReal))
      = ((∑ f : Fin 128, ((∑ k : Fin 16, a k f * w k) * (1 / 16)) * W f : ℝ) : EReal) := by
    rw [coe_sum]
    refine Finset.sum_congr rfl fun f _ => ?_
    rw [Ideal.div_coe (by norm_num : (16 : ℝ) ≠ 0), e2, EReal.coe_mul, EReal.coe_mul]
  rw [l, r]
  congr 1
  simp only [Finset.sum_mul]
  rw [Finset.sum_comm]
  refine Finset.sum_congr rfl fun f _ => Finset.sum_congr rfl fun k _ => ?_
  ring

theorem outProjFirst_eq_outMeanFirst (hid : Fin 50000 → Fin 128 → EReal) (row : Fin 50000 → Fin 16 → Fin 50000)
    (w : Tab 50000 16) (W : Tab 128 64) (hh : ∀ n f, ∃ r : ℝ, hid n f = (r : EReal)) (hw : IsReal w) (hW : IsReal W)
    (n : Fin 50000) (c : Fin 64) : outProjFirst hid row w W n c = outMeanFirst hid row w W n c := by
  choose H hH using hh
  choose wr hwr using hw
  choose Wr hWr using hW
  unfold outProjFirst outMeanFirst proj
  rw [lit_sixteenth, lit_sixteen]
  simp only [hH, hwr, hWr]
  exact exchange (fun k f => H (row n k) f) (fun k => wr (ix2 n k)) (fun f => Wr (ix2 f c))

end Cert.GraphLayers

end
-- ==== Proof.HidRegion.lean ====
/-
  The first region (layer one): its output array after all write-backs, as one function of the arrays the region finds.
  Block t of the output holds rows [1000 t, 1000 t + 1000); entry (n, h) is the exponential linear unit of the sum over
  the 128 features f of (the weighted neighbour sum at (n, f), times one sixteenth) times the matrix entry (f, h). The
  fifty blocks tile the array.
-/
import proofs.«141793_j68109591380388_2_alg».proof.Proof.Gen.KernelIdeal.Frame
import proofs.«141793_j68109591380388_2_alg».proof.Proof.WeightedSum
import proofs.«141793_j68109591380388_2_alg».proof.Proof.Layers
import Idealize.ShloMosaic.Lib.Pipeline.Value

set_option maxRecDepth 16384

noncomputable section

namespace Cert.KernelIdeal.HidRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The dot's operand indices at output (p, q) and contraction coordinate f: (p, f) on the left, (f, q) on the right. -/
theorem lhs_idx (p : Fin 1000) (q : Fin 128) (f : Fin 128) :
    dot_S1000x128_S128x128_S1000x128_1_0_0_1_n_n.lhsIdx (ix2 p q)
      ((contrEquiv1 dot_S1000x128_S128x128_S1000x128_1_0_0_1_n_n 128 rfl rfl).symm f) = ix2 p f := by
  funext a
  apply Fin.ext
  match a with
  | ⟨0, _⟩ => rfl
  | ⟨1, _⟩ => rfl
theorem rhs_idx (p : Fin 1000) (q : Fin 128) (f : Fin 128) :
    dot_S1000x128_S128x128_S1000x128_1_0_0_1_n_n.rhsIdx (ix2 p q)
      ((contrEquiv1 dot_S1000x128_S128x128_S1000x128_1_0_0_1_n_n 128 rfl rfl).symm f) = ix2 f q := by
  funext a
  apply Fin.ext
  match a with
  | ⟨0, _⟩ => rfl
  | ⟨1, _⟩ => rfl

/-- The body's last operations — compare with zero, minimum with zero, exponential, minus one, select — are the
    exponential linear unit, entry by entry. -/
theorem unit_tail (v : FVec Ideal S1000x128 .f32) (j : S1000x128.Idx) :
    select (cmpf .ogt v (broadcast S1000x128 (Scalar.ofBits .f32 0x00000000#32))) v
        (subf (exp (minimumf v (broadcast S1000x128 (Scalar.ofBits .f32 0x00000000#32))))
          (broadcast S1000x128 (Scalar.ofBits .f32 0x3F800000#32))) j
      = Cert.GraphLayers.eluMin (v j) := rfl

/-- The body's stored value at (p, q). -/
theorem payload_apply (x0 : Vec Ideal S1000x16x128 .bf16) (x1 : Vec Ideal S1000x16 .f32) (x2 : Vec Ideal S128x128 .bf16)
    (p : Fin 1000) (q : Fin 128) :
    k0_pay1 x0 x1 x2 (ix2 p q) = Cert.GraphLayers.eluMin (∑ f : Fin 128,
      ((∑ k : Fin 16, x0 (ix3 p k f) * x1 (ix2 p k)) * Ideal.ofBits .f32 0x3D800000#32) * x2 (ix2 f q)) := by
  unfold k0_pay1
  refine (unit_tail _ (ix2 p q)).trans (congrArg Cert.GraphLayers.eluMin ?_)
  refine (Ideal.matmul_constant_zero_apply dot_S1000x128_S128x128_S1000x128_1_0_0_1_n_n none _ _ (ix2 p q)).trans ?_
  refine (Equiv.sum_comp (contrEquiv1 dot_S1000x128_S128x128_S1000x128_1_0_0_1_n_n 128 rfl rfl).symm _).symm.trans ?_
  refine Finset.sum_congr rfl fun f _ => ?_
  rw [lhs_idx, rhs_idx]
  refine congrArg₂ (· * ·)
    (congrArg (· * Ideal.ofBits .f32 0x3D800000#32) (Cert.WeightedSum.wsum_apply x0 x1 _ _ _ _ _ _ _ _ p f)) ?_
  show (shapeCast S128x128 x2 _) (ix2 f q) = _
  rw [shapeCast_self]

/-- The output array as one function of the gathered rows, the weights and the matrix. -/
def hidOf (A0 : S50000x16x128.Idx → EReal) (A1 : S50000x16.Idx → EReal) (A2 : S128x128.Idx → EReal) : S50000x128.Idx → EReal :=
  fun i => Cert.GraphLayers.eluMin (∑ f : Fin 128,
    ((∑ k : Fin 16, A0 (ix3 (i 0) k f) * A1 (ix2 (i 0) k)) * Ideal.ofBits .f32 0x3D800000#32) * A2 (ix2 f (i 1)))

/-- At one entry: if the blocks' entries are the arrays' entries of row `i 0` and the matrix block is the matrix, the
    stored value is the function's. -/
theorem point (x0 : Vec Ideal S1000x16x128 .bf16) (x1 : Vec Ideal S1000x16 .f32) (x2 : Vec Ideal S128x128 .bf16)
    (A0 : S50000x16x128.Idx → EReal) (A1 : S50000x16.Idx → EReal) (A2 : S128x128.Idx → EReal)
    (y : S1000x128.Idx) (i : S50000x128.Idx)
    (h0 : ∀ (k : Fin 16) (f : Fin 128), x0 (ix3 (y 0) k f) = A0 (ix3 (i 0) k f))
    (h1 : ∀ k : Fin 16, x1 (ix2 (y 0) k) = A1 (ix2 (i 0) k))
    (h2 : ∀ f : Fin 128, x2 (ix2 f (y 1)) = A2 (ix2 f (i 1))) :
    k0_pay1 x0 x1 x2 y = hidOf A0 A1 A2 i := by
  have e : k0_pay1 x0 x1 x2 y = k0_pay1 x0 x1 x2 (ix2 (y 0) (y 1)) := congrArg (k0_pay1 x0 x1 x2) (eq_ix2 y)
  refine e.trans ((payload_apply x0 x1 x2 (y 0) (y 1)).trans ?_)
  unfold hidOf
  refine congrArg Cert.GraphLayers.eluMin (Finset.sum_congr rfl fun f _ => ?_)
  rw [h2 f]
  refine congrArg (fun z => z * Ideal.ofBits .f32 0x3D800000#32 * A2 (ix2 f (i 1))) (Finset.sum_congr rfl fun k _ => ?_)
  rw [h0 k f, h1 k]

/-- The printed index maps, decided over the grid: the gathered rows' and the weights' blocks move with the output's
    block along the rows, which is the grid point; the matrix is one block. -/
theorem idx_facts : ∀ t : Fin cfg0.N, win0_0.index t (0 : Fin 3) = win0_3.index t (0 : Fin 2) ∧ win0_0.index t (1 : Fin 3) = 0
    ∧ win0_0.index t (2 : Fin 3) = 0
    ∧ win0_1.index t (0 : Fin 2) = win0_3.index t (0 : Fin 2) ∧ win0_1.index t (1 : Fin 2) = 0
    ∧ win0_2.index t (0 : Fin 2) = 0 ∧ win0_2.index t (1 : Fin 2) = win0_3.index t (1 : Fin 2)
    ∧ win0_3.index t (0 : Fin 2) = t.val ∧ win0_3.index t (1 : Fin 2) = 0 :=
  (by decide +kernel : ∀ t : Fin grid0.N, _)

/-- WHAT POINT `t` WRITES BACK is block `t` of the function of the arrays as the region finds them. -/
theorem flushed_eq (c : Dev nD) (t : Fin cfg0.N) :
    (dat0 V c).flushed 3 t = ((cfg0.win 3).blk t).view.read (Elt Ideal)
      (hidOf (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz2]
  simp only [View.ld_unit_zero (S := S1000x16x128) hz3, View.ld_unit_zero (S := S1000x16) hz2, View.ld_unit_zero (S := S128x128) hz2]
  obtain ⟨e0, e1, e2, e3, e4, e5, e6, e7, e8⟩ := idx_facts t
  funext j
  show k0_pay1 (iblk0 V c 0 t) (iblk0 V c 1 t) (iblk0 V c 2 t) j = hidOf _ _ _ (((cfg0.win 3).blk t).view.emb j)
  refine point _ _ _ _ _ _ j _ (fun k f => ?_) (fun k => ?_) (fun f => ?_)
  · show V c (Pipeline.arrRef spec0 0) (((cfg0.win 0).blk t).view.emb (ix3 (j 0) k f))
      = V c (Pipeline.arrRef spec0 0) (ix3 ((((cfg0.win 3).blk t).view.emb j) 0) k f)
    refine congrArg _ (funext fun a => Fin.ext ?_)
    match a with
    | ⟨0, _⟩ => show win0_0.index t (0 : Fin 3) * 1000 + 1 * (j 0).val = win0_3.index t (0 : Fin 2) * 1000 + 1 * (j 0).val; omega
    | ⟨1, _⟩ => show win0_0.index t (1 : Fin 3) * 16 + 1 * k.val = k.val; omega
    | ⟨2, _⟩ => show win0_0.index t (2 : Fin 3) * 128 + 1 * f.val = f.val; omega
  · show V c (Pipeline.arrRef spec0 1) (((cfg0.win 1).blk t).view.emb (ix2 (j 0) k))
      = V c (Pipeline.arrRef spec0 1) (ix2 ((((cfg0.win 3).blk t).view.emb j) 0) k)
    refine congrArg _ (funext fun a => Fin.ext ?_)
    match a with
    | ⟨0, _⟩ => show win0_1.index t (0 : Fin 2) * 1000 + 1 * (j 0).val = win0_3.index t (0 : Fin 2) * 1000 + 1 * (j 0).val; omega
    | ⟨1, _⟩ => show win0_1.index t (1 : Fin 2) * 16 + 1 * k.val = k.val; omega
  · show V c (Pipeline.arrRef spec0 2) (((cfg0.win 2).blk t).view.emb (ix2 f (j 1)))
      = V c (Pipeline.arrRef spec0 2) (ix2 f ((((cfg0.win 3).blk t).view.emb j) 1))
    refine congrArg _ (funext fun a => Fin.ext ?_)
    match a with
    | ⟨0, _⟩ => show win0_2.index t (0 : Fin 2) * 128 + 1 * f.val = f.val; omega
    | ⟨1, _⟩ => show win0_2.index t (1 : Fin 2) * 128 + 1 * (j 1).val = win0_3.index t (1 : Fin 2) * 128 + 1 * (j 1).val; omega

/-- An index of the array is in point `t`'s block iff each coordinate is in the block's range on its axis. -/
theorem mem_blk (t : Fin cfg0.N) (i : S50000x128.Idx) :
    i ∈ ((cfg0.win 3).blk t).view.set ↔ ∀ a : Fin 2, win0_3.index t a * S1000x128.size a ≤ (i a).val
      ∧ (i a).val < win0_3.index t a * S1000x128.size a + S1000x128.size a := by
  show i ∈ ((View.whole main_v11).slice (win0_3.rect t)).set ↔ _
  rw [View.set_slice_whole, Rect.mem_set_unit]
  exact Iff.rfl

/-- Every row lies in the block of the point that is its thousand. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have ht : (i 0).val / 1000 < cfg0.N := by show (i 0).val / 1000 < 50; omega
  obtain ⟨e0, e1, e2, e3, e4, e5, e6, e7, e8⟩ := idx_facts ⟨(i 0).val / 1000, ht⟩
  refine ⟨⟨(i 0).val / 1000, ht⟩, flush0_3 _, ?_⟩
  rw [mem_blk]
  intro a
  match a with
  | ⟨0, _⟩ =>
    show win0_3.index ⟨(i 0).val / 1000, ht⟩ (0 : Fin 2) * 1000 ≤ (i 0).val
      ∧ (i 0).val < win0_3.index ⟨(i 0).val / 1000, ht⟩ (0 : Fin 2) * 1000 + 1000
    rw [e7]; show (i 0).val / 1000 * 1000 ≤ (i 0).val ∧ (i 0).val < (i 0).val / 1000 * 1000 + 1000; omega
  | ⟨1, _⟩ =>
    show win0_3.index ⟨(i 0).val / 1000, ht⟩ (1 : Fin 2) * 128 ≤ (i 1).val
      ∧ (i 1).val < win0_3.index ⟨(i 0).val / 1000, ht⟩ (1 : Fin 2) * 128 + 128
    rw [e8]; omega

/-- THE ARRAY after the region: the function of the arrays the region finds, everywhere. -/
theorem final (c : Dev nD) :
    (dat0 V c).arrAt 3 cfg0.N
      = hidOf (V c (Pipeline.arrRef spec0 0)) (V c (Pipeline.arrRef spec0 1)) (V c (Pipeline.arrRef spec0 2)) :=
  (dat0 V c).arrAt_eq_of_cover 3 _ (fun t _ => flushed_eq V c t) cover

end Cert.KernelIdeal.HidRegion

end
-- ==== Proof.ProjRegion.lean ====
/-
  The middle region (the rows of layer one times the second weight matrix): its output array after all write-backs, as one
  function of the arrays the region finds. Block t of the output holds rows [2000 t, 2000 t + 2000); entry (n, c) is the
  sum over the 128 features f of the input row's entry (n, f) times the matrix entry (f, c) — the matrix unit's product
  into a zero accumulator, the changes of float format being the identity on the extended reals. The twenty-five blocks
  tile the array.
-/
import proofs.«141793_j68109591380388_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.ProjRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The dot's operand indices at output (p, q) and contraction coordinate f: (p, f) on the left, (f, q) on the right. -/
theorem lhs_idx (p : Fin 2000) (q : Fin 64) (f : Fin 128) :
    dot_S2000x128_S128x64_S2000x64_1_0_0_1_n_n.lhsIdx (ix2 p q)
      ((contrEquiv1 dot_S2000x128_S128x64_S2000x64_1_0_0_1_n_n 128 rfl rfl).symm f) = ix2 p f := by
  funext a
  apply Fin.ext
  match a with
  | ⟨0, _⟩ => rfl
  | ⟨1, _⟩ => rfl
theorem rhs_idx (p : Fin 2000) (q : Fin 64) (f : Fin 128) :
    dot_S2000x128_S128x64_S2000x64_1_0_0_1_n_n.rhsIdx (ix2 p q)
      ((contrEquiv1 dot_S2000x128_S128x64_S2000x64_1_0_0_1_n_n 128 rfl rfl).symm f) = ix2 f q := by
  funext a
  apply Fin.ext
  match a with
  | ⟨0, _⟩ => rfl
  | ⟨1, _⟩ => rfl

/-- The body's stored value at (p, q): the row times the matrix column. -/
theorem payload_apply (x0 : Vec Ideal S2000x128 .f32) (x1 : Vec Ideal S128x64 .bf16) (p : Fin 2000) (q : Fin 64) :
    k1_pay1 x0 x1 (ix2 p q) = ∑ f : Fin 128, x0 (ix2 p f) * x1 (ix2 f q) := by
  unfold k1_pay1
  refine (Ideal.matmul_constant_zero_apply dot_S2000x128_S128x64_S2000x64_1_0_0_1_n_n none _ _ (ix2 p q)).trans ?_
  refine (Equiv.sum_comp (contrEquiv1 dot_S2000x128_S128x64_S2000x64_1_0_0_1_n_n 128 rfl rfl).symm _).symm.trans ?_
  refine Finset.sum_congr rfl fun f _ => ?_
  rw [lhs_idx, rhs_idx]
  show (shapeCast S2000x128 x0 _) (ix2 p f) * (shapeCast S128x64 x1 _) (ix2 f q) = _
  rw [shapeCast_self, shapeCast_self]

/-- The output array as one function of the rows and the matrix. -/
def projOf (A0 : S50000x128.Idx → EReal) (A1 : S128x64.Idx → EReal) : S50000x64.Idx → EReal :=
  fun i => ∑ f : Fin 128, A0 (ix2 (i 0) f) * A1 (ix2 f (i 1))

/-- At one entry: if the row block's entries are the array's entries of row `i 0` and the matrix block is the matrix,
    the stored value is the function's. -/
theorem point (x0 : Vec Ideal S2000x128 .f32) (x1 : Vec Ideal S128x64 .bf16)
    (A0 : S50000x128.Idx → EReal) (A1 : S128x64.Idx → EReal) (y : S2000x64.Idx) (i : S50000x64.Idx)
    (h0 : ∀ f : Fin 128, x0 (ix2 (y 0) f) = A0 (ix2 (i 0) f))
    (h1 : ∀ f : Fin 128, x1 (ix2 f (y 1)) = A1 (ix2 f (i 1))) :
    k1_pay1 x0 x1 y = projOf A0 A1 i := by
  have e : k1_pay1 x0 x1 y = k1_pay1 x0 x1 (ix2 (y 0) (y 1)) := congrArg (k1_pay1 x0 x1) (eq_ix2 y)
  refine e.trans ((payload_apply x0 x1 (y 0) (y 1)).trans ?_)
  unfold projOf
  exact Finset.sum_congr rfl fun f _ => by rw [h0 f, h1 f]

/-- The printed index maps, decided over the grid: the row block moves with the output's block, which is the grid point;
    the matrix is one block. -/
theorem idx_facts : ∀ t : Fin cfg1.N, win1_0.index t (0 : Fin 2) = win1_2.index t (0 : Fin 2) ∧ win1_0.index t (1 : Fin 2) = 0
    ∧ win1_1.index t (0 : Fin 2) = 0 ∧ win1_1.index t (1 : Fin 2) = win1_2.index t (1 : Fin 2)
    ∧ win1_2.index t (0 : Fin 2) = t.val ∧ win1_2.index t (1 : Fin 2) = 0 :=
  (by decide +kernel : ∀ t : Fin grid1.N, _)

/-- WHAT POINT `t` WRITES BACK is block `t` of the function of the arrays as the region finds them. -/
theorem flushed_eq (c : Dev nD) (t : Fin cfg1.N) :
    (dat1 V c).flushed 2 t = ((cfg1.win 2).blk t).view.read (Elt Ideal)
      (projOf (V c (Pipeline.arrRef spec1 0)) (V c (Pipeline.arrRef spec1 1))) := by
  show (cfg1.win 2).cut (grid1.coords t) ((dat1 V c).after 2 t) = _
  rw [after1_2]
  unfold out1_2
  rw [View.canon_unit_zero hz2]
  simp only [View.ld_unit_zero (S := S2000x128) hz2, View.ld_unit_zero (S := S128x64) hz2]
  obtain ⟨e0, e1, e2, e3, e4, e5⟩ := idx_facts t
  funext j
  show k1_pay1 (iblk1 V c 0 t) (iblk1 V c 1 t) j = projOf _ _ (((cfg1.win 2).blk t).view.emb j)
  refine point _ _ _ _ j _ (fun f => ?_) (fun f => ?_)
  · show V c (Pipeline.arrRef spec1 0) (((cfg1.win 0).blk t).view.emb (ix2 (j 0) f))
      = V c (Pipeline.arrRef spec1 0) (ix2 ((((cfg1.win 2).blk t).view.emb j) 0) f)
    refine congrArg _ (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * f.val = f.val; omega
  · show V c (Pipeline.arrRef spec1 1) (((cfg1.win 1).blk t).view.emb (ix2 f (j 1)))
      = V c (Pipeline.arrRef spec1 1) (ix2 f ((((cfg1.win 2).blk t).view.emb j) 1))
    refine congrArg _ (funext fun a => Fin.ext ?_)
    match a with
    | ⟨0, _⟩ => show win1_1.index t (0 : Fin 2) * 128 + 1 * f.val = f.val; omega
    | ⟨1, _⟩ => show win1_1.index t (1 : Fin 2) * 64 + 1 * (j 1).val = win1_2.index t (1 : Fin 2) * 64 + 1 * (j 1).val; omega

/-- An index of the array is in point `t`'s block iff each coordinate is in the block's range on its axis. -/
theorem mem_blk (t : Fin cfg1.N) (i : S50000x64.Idx) :
    i ∈ ((cfg1.win 2).blk t).view.set ↔ ∀ a : Fin 2, win1_2.index t a * S2000x64.size a ≤ (i a).val
      ∧ (i a).val < win1_2.index t a * S2000x64.size a + S2000x64.size a := by
  show i ∈ ((View.whole main_v13).slice (win1_2.rect t)).set ↔ _
  rw [View.set_slice_whole, Rect.mem_set_unit]
  exact Iff.rfl

/-- Every row lies in the block of the point that is its two-thousand. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have ht : (i 0).val / 2000 < cfg1.N := by show (i 0).val / 2000 < 25; omega
  obtain ⟨e0, e1, e2, e3, e4, e5⟩ := idx_facts ⟨(i 0).val / 2000, ht⟩
  refine ⟨⟨(i 0).val / 2000, ht⟩, flush1_2 _, ?_⟩
  rw [mem_blk]
  intro a
  match a with
  | ⟨0, _⟩ =>
    show win1_2.index ⟨(i 0).val / 2000, ht⟩ (0 : Fin 2) * 2000 ≤ (i 0).val
      ∧ (i 0).val < win1_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, ht⟩ (1 : Fin 2) * 64 ≤ (i 1).val
      ∧ (i 1).val < win1_2.index ⟨(i 0).val / 2000, ht⟩ (1 : Fin 2) * 64 + 64
    rw [e5]; omega

/-- THE ARRAY after the region: the function of the arrays the region finds, everywhere. -/
theorem final (c : Dev nD) :
    (dat1 V c).arrAt 2 cfg1.N = projOf (V c (Pipeline.arrRef spec1 0)) (V c (Pipeline.arrRef spec1 1)) :=
  (dat1 V c).arrAt_eq_of_cover 2 _ (fun t _ => flushed_eq V c t) cover

end Cert.KernelIdeal.ProjRegion

end
-- ==== Proof.MeanRegion.lean ====
/-
  The last region (the neighbour mean of the projected rows): its output array after all write-backs, as one function of
  the arrays the region finds. Block t of the output holds rows [1000 t, 1000 t + 1000); entry (n, c) is the sum over the
  16 neighbours of the gathered entry (n, k, c) times the weight (n, k), times one sixteenth. The fifty blocks tile the
  array, so the array after the run is that function everywhere.
-/
import proofs.«141793_j68109591380388_2_alg».proof.Proof.Gen.KernelIdeal.Frame
import proofs.«141793_j68109591380388_2_alg».proof.Proof.WeightedSum
import Idealize.ShloMosaic.Lib.Pipeline.Value

set_option maxRecDepth 16384

noncomputable section

namespace Cert.KernelIdeal.MeanRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The body's stored value at (p, q): the weighted neighbour sum times one sixteenth. -/
theorem payload_apply (x0 : Vec Ideal S1000x16x64 .bf16) (x1 : Vec Ideal S1000x16 .f32) (p : Fin 1000) (q : Fin 64) :
    k2_pay1 x0 x1 (ix2 p q) = (∑ k : Fin 16, x0 (ix3 p k q) * x1 (ix2 p k)) * Ideal.ofBits .f32 0x3D800000#32 := by
  unfold k2_pay1
  exact congrArg (· * Ideal.ofBits .f32 0x3D800000#32) (Cert.WeightedSum.wsum_apply x0 x1 _ _ _ _ _ _ _ _ p q)

/-- The output array as one function of the gathered rows and the weights. -/
def meanOf (A0 : S50000x16x64.Idx → EReal) (A1 : S50000x16.Idx → EReal) : S50000x64.Idx → EReal :=
  fun i => (∑ k : Fin 16, A0 (ix3 (i 0) k (i 1)) * A1 (ix2 (i 0) k)) * Ideal.ofBits .f32 0x3D800000#32

set_option backward.isDefEq.respectTransparency.types false in
/-- At one entry: if the blocks' entries are the arrays' entries of row `i 0`, the stored value is the function's. -/
theorem point (x0 : Vec Ideal S1000x16x64 .bf16) (x1 : Vec Ideal S1000x16 .f32)
    (A0 : S50000x16x64.Idx → EReal) (A1 : S50000x16.Idx → EReal) (y : S1000x64.Idx) (i : S50000x64.Idx)
    (h0 : ∀ k : Fin 16, x0 (ix3 (y 0) k (y 1)) = A0 (ix3 (i 0) k (i 1)))
    (h1 : ∀ k : Fin 16, x1 (ix2 (y 0) k) = A1 (ix2 (i 0) k)) :
    k2_pay1 x0 x1 y = meanOf A0 A1 i := by
  have e : k2_pay1 x0 x1 y = k2_pay1 x0 x1 (ix2 (y 0) (y 1)) := congrArg (k2_pay1 x0 x1) (eq_ix2 y)
  refine e.trans ((payload_apply x0 x1 (y 0) (y 1)).trans ?_)
  unfold meanOf
  exact congrArg (· * Ideal.ofBits .f32 0x3D800000#32) (Finset.sum_congr rfl fun k _ => by rw [h0 k, h1 k])

/-- The printed index maps, decided over the grid: the gathered rows' and the weights' blocks move with the output's
    block along the rows, which is the grid point; no other axis is blocked. -/
theorem idx_facts : ∀ t : Fin cfg2.N, win2_0.index t (0 : Fin 3) = win2_2.index t (0 : Fin 2) ∧ win2_0.index t (1 : Fin 3) = 0
    ∧ win2_0.index t (2 : Fin 3) = win2_2.index t (1 : Fin 2)
    ∧ win2_1.index t (0 : Fin 2) = win2_2.index t (0 : Fin 2) ∧ win2_1.index t (1 : Fin 2) = 0
    ∧ win2_2.index t (0 : Fin 2) = t.val ∧ win2_2.index t (1 : Fin 2) = 0 :=
  (by decide +kernel : ∀ t : Fin grid2.N, _)

/-- WHAT POINT `t` WRITES BACK is block `t` of the function of the arrays as the region finds them. -/
theorem flushed_eq (c : Dev nD) (t : Fin cfg2.N) :
    (dat2 V c).flushed 2 t = ((cfg2.win 2).blk t).view.read (Elt Ideal)
      (meanOf (V c (Pipeline.arrRef spec2 0)) (V c (Pipeline.arrRef spec2 1))) := by
  show (cfg2.win 2).cut (grid2.coords t) ((dat2 V c).after 2 t) = _
  rw [after2_2]
  unfold out2_2
  rw [View.canon_unit_zero hz2]
  simp only [View.ld_unit_zero (S := S1000x16x64) hz3, View.ld_unit_zero (S := S1000x16) hz2]
  obtain ⟨e0, e1, e2, e3, e4, e5, e6⟩ := idx_facts t
  funext j
  show k2_pay1 (iblk2 V c 0 t) (iblk2 V c 1 t) j = meanOf _ _ (((cfg2.win 2).blk t).view.emb j)
  refine point _ _ _ _ j _ (fun k => ?_) (fun k => ?_)
  · show V c (Pipeline.arrRef spec2 0) (((cfg2.win 0).blk t).view.emb (ix3 (j 0) k (j 1)))
      = V c (Pipeline.arrRef spec2 0) (ix3 ((((cfg2.win 2).blk t).view.emb j) 0) k ((((cfg2.win 2).blk t).view.emb j) 1))
    refine congrArg _ (funext fun a => Fin.ext ?_)
    match a with
    | ⟨0, _⟩ => show win2_0.index t (0 : Fin 3) * 1000 + 1 * (j 0).val = win2_2.index t (0 : Fin 2) * 1000 + 1 * (j 0).val; omega
    | ⟨1, _⟩ => show win2_0.index t (1 : Fin 3) * 16 + 1 * k.val = k.val; omega
    | ⟨2, _⟩ => show win2_0.index t (2 : Fin 3) * 64 + 1 * (j 1).val = win2_2.index t (1 : Fin 2) * 64 + 1 * (j 1).val; omega
  · show V c (Pipeline.arrRef spec2 1) (((cfg2.win 1).blk t).view.emb (ix2 (j 0) k))
      = V c (Pipeline.arrRef spec2 1) (ix2 ((((cfg2.win 2).blk t).view.emb j) 0) k)
    refine congrArg _ (funext fun a => Fin.ext ?_)
    match a with
    | ⟨0, _⟩ => show win2_1.index t (0 : Fin 2) * 1000 + 1 * (j 0).val = win2_2.index t (0 : Fin 2) * 1000 + 1 * (j 0).val; omega
    | ⟨1, _⟩ => show win2_1.index t (1 : Fin 2) * 16 + 1 * k.val = k.val; omega

/-- An index of the array is in point `t`'s block iff each coordinate is in the block's range on its axis. -/
theorem mem_blk (t : Fin cfg2.N) (i : S50000x64.Idx) :
    i ∈ ((cfg2.win 2).blk t).view.set ↔ ∀ a : Fin 2, win2_2.index t a * S1000x64.size a ≤ (i a).val
      ∧ (i a).val < win2_2.index t a * S1000x64.size a + S1000x64.size a := by
  show i ∈ ((View.whole main_v23).slice (win2_2.rect t)).set ↔ _
  rw [View.set_slice_whole, Rect.mem_set_unit]
  exact Iff.rfl

/-- Every row lies in the block of the point that is its thousand. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have ht : (i 0).val / 1000 < cfg2.N := by show (i 0).val / 1000 < 50; omega
  obtain ⟨e0, e1, e2, e3, e4, e5, e6⟩ := idx_facts ⟨(i 0).val / 1000, ht⟩
  refine ⟨⟨(i 0).val / 1000, ht⟩, flush2_2 _, ?_⟩
  rw [mem_blk]
  intro a
  match a with
  | ⟨0, _⟩ =>
    show win2_2.index ⟨(i 0).val / 1000, ht⟩ (0 : Fin 2) * 1000 ≤ (i 0).val
      ∧ (i 0).val < win2_2.index ⟨(i 0).val / 1000, ht⟩ (0 : Fin 2) * 1000 + 1000
    rw [e5]; show (i 0).val / 1000 * 1000 ≤ (i 0).val ∧ (i 0).val < (i 0).val / 1000 * 1000 + 1000; omega
  | ⟨1, _⟩ =>
    show win2_2.index ⟨(i 0).val / 1000, ht⟩ (1 : Fin 2) * 64 ≤ (i 1).val
      ∧ (i 1).val < win2_2.index ⟨(i 0).val / 1000, ht⟩ (1 : Fin 2) * 64 + 64
    rw [e6]; omega

/-- THE ARRAY after the region: the function of the arrays the region finds, everywhere. -/
theorem final (c : Dev nD) :
    (dat2 V c).arrAt 2 cfg2.N = meanOf (V c (Pipeline.arrRef spec2 0)) (V c (Pipeline.arrRef spec2 1)) :=
  (dat2 V c).arrAt_eq_of_cover 2 _ (fun t _ => flushed_eq V c t) cover

end Cert.KernelIdeal.MeanRegion

end
-- ==== Proof.GatherRows.lean ====
/-
  A row gather read at an index. The operand is a table of 50000 rows and D columns, the start indices are one
  integer per (node, neighbour) pair, laid out as [50000, 16, 1], and the result has shape [50000, 16, D]: its entry
  (n, k, f) is the table's entry in column f of the row the start index at (n, k, 0) names, that integer read signed
  and clamped into [0, 49999]. On the row axis the operand index is the clamped start alone (the axis is collapsed,
  so it carries no offset); on the column axis the start is 0 (the start index map does not name it) and the offset
  is the result's last coordinate.
-/
import Idealize.ShloMosaic.PureOps.ShapeOps
import Idealize.ShloMosaic.Lib.ValueIdx
import proofs.«141793_j68109591380388_2_alg».proof.Proof.Layers

noncomputable section

open Idealize.ShloMosaic Idealize.ShloMosaic.ValueIdx

namespace Cert.GatherRows

/-- The gather read at (n, k, f), for any dimension numbers with these fields between these three shapes. -/
theorem gather_rows_apply {α : Type} {D : Nat}
    (d : GatherDims ⟨2, ![50000, D]⟩ ⟨3, ![50000, 16, 1]⟩ ⟨3, ![50000, 16, D]⟩)
    (hod : d.offsetDims = [2]) (hcd : d.collapsedSliceDims = [0]) (hob : d.operandBatchingDims = [])
    (hsm : d.startIndexMap = [0]) (hiv : d.indexVectorDim = 2) (hss : d.sliceSizes = ![1, D])
    (x : (⟨2, ![50000, D]⟩ : Shape).Idx → α) (si : IVec ⟨3, ![50000, 16, 1]⟩ 32)
    (n : Fin 50000) (k : Fin 16) (f : Fin D) :
    Host.gather d x si (ix3 n k f) = x (ix2 (Cert.GraphLayers.rowOf si n k) f) := by
  obtain ⟨od, cd, ob, sb, sm, iv, ss, wf⟩ := d
  dsimp only at hod hcd hob hsm hiv hss
  subst hod hcd hob hsm hiv hss
  unfold Host.gather
  congr 1
  funext a
  refine Fin.ext ?_
  match a with
  | ⟨0, _⟩ =>
    show GatherDims.start _ (ix3 n k f) si 0 + GatherDims.batchCoord _ (ix3 n k f) 0 + GatherDims.offCoord _ (ix3 n k f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (si _).toInt.toNat _ = min (si (ix3 n k 0)).toInt.toNat 49999
    refine congrArg₂ min (congrArg (fun z => (si z).toInt.toNat) ?_) rfl
    funext b
    refine Fin.ext ?_
    match b with
    | ⟨0, _⟩ => rfl
    | ⟨1, _⟩ => rfl
    | ⟨2, _⟩ => rfl
  | ⟨1, _⟩ =>
    show GatherDims.start _ (ix3 n k f) si 1 + GatherDims.batchCoord _ (ix3 n k f) 1 + GatherDims.offCoord _ (ix3 n k f) 1 = _
    rw [GatherDims.batchCoord_eq_zero _ _ _ List.not_mem_nil]
    have h10 : (1 : Fin 2) ∉ ([0] : List (Fin 2)) := by decide
    unfold GatherDims.start GatherDims.offCoord
    rw [dif_neg h10, dif_pos ((GatherDims.mem_sKept _ _).mpr ⟨h10, List.not_mem_nil⟩)]
    have hget : ∀ (i : Nat) (h : i < ([2] : List (Fin 3)).length), ([2] : List (Fin 3))[i]'h = 2 := by
      intro i h
      have h0 : i = 0 := by simpa using h
      subst h0; rfl
    rw [hget, Nat.zero_add]

end Cert.GatherRows

end
-- ==== Proof.KernelValue.lean ====
/-
  The idealized kernel program's result as one function of its arguments: the three regions composed through the host
  stretches between them. The last region takes the neighbour mean of the gathered projected rows; the gathered table is
  the middle region's output (rows of layer one times the second matrix); layer one's rows are the first region's output
  over the gathered input rows. A gather reads the table at the row its start index names; a change of float format is
  the identity on the extended reals.
-/
import proofs.«141793_j68109591380388_2_alg».proof.Proof.KernelRun
import proofs.«141793_j68109591380388_2_alg».proof.Proof.HidRegion
import proofs.«141793_j68109591380388_2_alg».proof.Proof.ProjRegion
import proofs.«141793_j68109591380388_2_alg».proof.Proof.MeanRegion
import proofs.«141793_j68109591380388_2_alg».proof.Proof.GatherRows
import proofs.«141793_j68109591380388_2_alg».proof.Proof.Layers

set_option maxRecDepth 16384

noncomputable section

namespace Cert.KernelIdeal.Composed

open Cert.KernelIdeal Cert.KernelIdeal.Gen Idealize.ShloMosaic Idealize.ShloMosaic.TcCoe Idealize.SL.Sem
open Idealize.ShloMosaic.ValueIdx Cert.GraphLayers

/-- The neighbour mean over a GATHERED table, at an entry: the table is read at the neighbour rows. -/
theorem mean_gather (T : S50000x64.Idx → EReal) (si : IVec S50000x16x1 32) (w : S50000x16.Idx → EReal)
    (n : Fin 50000) (c : Fin 64) :
    MeanRegion.meanOf (Host.gather gather_S50000x64_S50000x16x1_S50000x16x64_2_0_n_n_0_2_164 T si) w (ix2 n c)
      = (∑ k : Fin 16, T (ix2 (rowOf si n k) c) * w (ix2 n k)) * Ideal.ofBits .f32 0x3D800000#32 := by
  show (∑ k : Fin 16, Host.gather gather_S50000x64_S50000x16x1_S50000x16x64_2_0_n_n_0_2_164 T si (ix3 n k c) * w (ix2 n k))
    * Ideal.ofBits .f32 0x3D800000#32 = _
  refine congrArg (· * Ideal.ofBits .f32 0x3D800000#32) (Finset.sum_congr rfl fun k _ => ?_)
  rw [Cert.GatherRows.gather_rows_apply _ rfl rfl rfl rfl rfl rfl]

/-- Layer one over a GATHERED input table (both tables rounded to a narrower format, which is the identity here), at an
    entry: the layer of the specification. -/
theorem hid_gather (a0 : S50000x128.Idx → EReal) (si : IVec S50000x16x1 32) (w : S50000x16.Idx → EReal)
    (a7 : S128x128.Idx → EReal) (hb : FTy.bits .bf16 < FTy.bits .f32) (n : Fin 50000) (h : Fin 128) :
    HidRegion.hidOf (Host.gather gather_S50000x128_S50000x16x1_S50000x16x128_2_0_n_n_0_2_1128
        (truncf (F := Ideal) (φ := .f32) .bf16 a0 hb) si) w (truncf (F := Ideal) (φ := .f32) .bf16 a7 hb) (ix2 n h)
      = hidScaled a0 (rowOf si) w a7 n h := by
  unfold hidScaled wsum
  show eluMin (∑ f : Fin 128, ((∑ k : Fin 16, Host.gather gather_S50000x128_S50000x16x1_S50000x16x128_2_0_n_n_0_2_1128
      (truncf (F := Ideal) (φ := .f32) .bf16 a0 hb) si (ix3 n k f) * w (ix2 n k)) * Ideal.ofBits .f32 0x3D800000#32)
      * (truncf (F := Ideal) (φ := .f32) .bf16 a7 hb) (ix2 f h)) = _
  refine congrArg eluMin (Finset.sum_congr rfl fun f _ => ?_)
  refine congrArg₂ (· * ·) (congrArg (· * Ideal.ofBits .f32 0x3D800000#32) (Finset.sum_congr rfl fun k _ => ?_)) rfl
  rw [Cert.GatherRows.gather_rows_apply _ rfl rfl rfl rfl rfl rfl]
  rfl

/-- THE RESULT ARRAY at an entry, from what the host stretches leave in the regions' arrays. -/
theorem result_apply (m : (ℓ : Loc nD τ sig) → Buf (Elt Ideal) ℓ) (ρ : Dev nD → PrngReg) (c : Dev nD)
    (a0 : S50000x128.Idx → EReal) (a7 : S128x128.Idx → EReal) (a8 : S128x64.Idx → EReal)
    (si1 si2 : IVec S50000x16x1 32) (w1 w2 : S50000x16.Idx → EReal) (hb : FTy.bits .bf16 < FTy.bits .f32)
    (h9 : V1 m ρ c main_v9 = Host.gather gather_S50000x128_S50000x16x1_S50000x16x128_2_0_n_n_0_2_1128
      (truncf (F := Ideal) (φ := .f32) .bf16 a0 hb) si1)
    (h1 : V1 m ρ c main_v1 = w1) (h10 : V1 m ρ c main_v10 = truncf (F := Ideal) (φ := .f32) .bf16 a7 hb)
    (h11 : V3 m ρ c main_v11 = (dat0 (V1 m ρ) c).arrAt 3 cfg0.N)
    (h12 : V3 m ρ c main_v12 = truncf (F := Ideal) (φ := .f32) .bf16 a8 hb)
    (h22 : V5 m ρ c main_v22 = Host.gather gather_S50000x64_S50000x16x1_S50000x16x64_2_0_n_n_0_2_164
      ((dat1 (V3 m ρ) c).arrAt 2 cfg1.N) si2)
    (h15 : V5 m ρ c main_v15 = w2) (n : Fin 50000) (q : Fin 64) :
    (dat2 (V5 m ρ) c).arrAt 2 cfg2.N (ix2 n q)
      = outProjFirst (fun n' f => hidScaled a0 (rowOf si1) w1 a7 n' f) (rowOf si2) w2 a8 n q := by
  have e0 : V3 m ρ c main_v11 = HidRegion.hidOf (V1 m ρ c main_v9) (V1 m ρ c main_v1) (V1 m ρ c main_v10) :=
    h11.trans (HidRegion.final (V1 m ρ) c)
  have e1 : V5 m ρ c main_v22 = Host.gather gather_S50000x64_S50000x16x1_S50000x16x64_2_0_n_n_0_2_164
      (ProjRegion.projOf (V3 m ρ c main_v11) (V3 m ρ c main_v12)) si2 :=
    h22.trans (congrArg (fun T => Host.gather gather_S50000x64_S50000x16x1_S50000x16x64_2_0_n_n_0_2_164 T si2)
      (ProjRegion.final (V3 m ρ) c))
  rw [MeanRegion.final (V5 m ρ) c]
  show MeanRegion.meanOf (V5 m ρ c main_v22) (V5 m ρ c main_v15) (ix2 n q) = _
  rw [e1, h15, mean_gather]
  unfold outProjFirst proj
  refine congrArg (· * Ideal.ofBits .f32 0x3D800000#32) (Finset.sum_congr rfl fun k _ => congrArg (· * w2 (ix2 n k)) ?_)
  rw [e0, h12]
  show (∑ f : Fin 128, HidRegion.hidOf (V1 m ρ c main_v9) (V1 m ρ c main_v1) (V1 m ρ c main_v10) (ix2 (rowOf si2 n k) f)
    * (truncf (F := Ideal) (φ := .f32) .bf16 a8 hb) (ix2 f q)) = _
  refine Finset.sum_congr rfl fun f _ => congrArg₂ (· * ·) ?_ rfl
  rw [h9, h1, h10, hid_gather]

end Cert.KernelIdeal.Composed

end
-- ==== Proof.KernelStart.lean ====
/-
  The start indices of a neighbour gather, from the raw index table: column 0 (the node itself) dropped, a negative index
  wrapped once by the table's height, and a trailing unit axis added — the host operations the kernel program applies to
  each of its two index arguments, as one function.
-/
import proofs.«141793_j68109591380388_2_alg».proof.Proof.Gen.KernelIdeal

noncomputable section

namespace Cert.KernelIdeal.HostReads

open Cert.KernelIdeal Cert.KernelIdeal.Facts₀ Idealize.ShloMosaic

/-- The gather's start indices from the raw table. -/
def startIdx (raw : IVec S50000x17 32) : IVec S50000x16x1 32 :=
  broadcastInDim S50000x16x1 ![0, 1] bcast_S50000x16_S50000x16x1_0_1
    (select (cmpi .slt (extractStridedSlice S50000x16 ![0, 1] raw slices_S50000x17_S50000x16_0_1)
        (broadcastInDim S50000x16 ![] bcast_S_S50000x16 (constantI S_ 32 0#32)))
      (addi (extractStridedSlice S50000x16 ![0, 1] raw slices_S50000x17_S50000x16_0_1)
        (broadcastInDim S50000x16 ![] bcast_S_S50000x16 (constantI S_ 32 50000#32)))
      (extractStridedSlice S50000x16 ![0, 1] raw slices_S50000x17_S50000x16_0_1))

end Cert.KernelIdeal.HostReads

end
-- ==== Proof.KernelHost.lean ====
/-
  The host stretches of the program, read back. Between its three regions the program runs plain array
  operations: column slices of the neighbour tables, the wrap of negative neighbour indices (an index below zero
  has the row count added), the gathers of neighbour rows, and the narrowing of the float tables. Each buffer a region
  reads is, at the region's entry, the value of those operations at the launch contents of the arguments (or at what
  an earlier region left); every buffer no operation writes is what it was.
-/
import proofs.«141793_j68109591380388_2_alg».proof.Proof.Gen.KernelIdeal.Frame
import proofs.«141793_j68109591380388_2_alg».proof.Proof.Layers
import proofs.«141793_j68109591380388_2_alg».proof.Proof.KernelStart
import Idealize.ShloMosaic.Lib.StableHlo.Run
import Idealize.ShloMosaic.Lib.Pipeline.Value
import Idealize.ShloMosaic.Lib.ValueIdx

noncomputable section

namespace Cert.KernelIdeal.HostReads

open Idealize.ShloMosaic Idealize.ShloMosaic.TcCoe Idealize.SL.Sem
open Cert.KernelIdeal.Facts Cert.KernelIdeal.Gen

/-! ## Each stretch over any contents

Stated over a variable `Vv` for the buffer contents the stretch starts from, so that nothing about where those
contents came from is ever looked into. -/

section Stretch
variable (Vv : Valuation τ sig (Elt Ideal))

/-- After the first stretch, the gathered node rows. -/
theorem after0_v9 : @Eq (FVec Ideal S50000x16x128 .bf16) (StableHlo.after hostOps0 Vv (Proc.devRef .tc main_v9))
    (Host.gather gather_S50000x128_S50000x16x1_S50000x16x128_2_0_n_n_0_2_1128
      (truncf .bf16 (Vv (Proc.devRef .tc main_arg0) : FVec Ideal S50000x128 .f32) bitsLt_bf16_f32)
      (startIdx (Vv (Proc.devRef .tc main_arg1)))) := by
  after_results
  rfl

/-- After the first stretch, the first sixteen columns of the first weight table. -/
theorem after0_v1 : @Eq (FVec Ideal S50000x16 .f32) (StableHlo.after hostOps0 Vv (Proc.devRef .tc main_v1))
    (extractStridedSlice S50000x16 ![0, 1] (Vv (Proc.devRef .tc main_arg3) : FVec Ideal S50000x17 .f32)
      slices_S50000x17_S50000x16_0_1) := by
  after_results

/-- After the first stretch, the first weight matrix narrowed. -/
theorem after0_v10 : @Eq (FVec Ideal S128x128 .bf16) (StableHlo.after hostOps0 Vv (Proc.devRef .tc main_v10))
    (truncf .bf16 (Vv (Proc.devRef .tc main_arg7) : FVec Ideal S128x128 .f32) bitsLt_bf16_f32) := by
  after_results

/-- The second stretch leaves region 0's output array alone. -/
theorem after1_v11 : StableHlo.after hostOps1 Vv (Proc.devRef .tc main_v11) = Vv (Proc.devRef .tc main_v11) := by
  after_results

/-- After the second stretch, the second weight matrix narrowed. -/
theorem after1_v12 : @Eq (FVec Ideal S128x64 .bf16) (StableHlo.after hostOps1 Vv (Proc.devRef .tc main_v12))
    (truncf .bf16 (Vv (Proc.devRef .tc main_arg8) : FVec Ideal S128x64 .f32) bitsLt_bf16_f32) := by
  after_results

/-- After the third stretch, the gathered rows of region 1's output. -/
theorem after2_v22 : @Eq (FVec Ideal S50000x16x64 .bf16) (StableHlo.after hostOps2 Vv (Proc.devRef .tc main_v22))
    (Host.gather gather_S50000x64_S50000x16x1_S50000x16x64_2_0_n_n_0_2_164
      (Vv (Proc.devRef .tc main_v13) : FVec Ideal S50000x64 .bf16) (startIdx (Vv (Proc.devRef .tc main_arg4)))) := by
  after_results
  rfl

/-- After the third stretch, the first sixteen columns of the second weight table. -/
theorem after2_v15 : @Eq (FVec Ideal S50000x16 .f32) (StableHlo.after hostOps2 Vv (Proc.devRef .tc main_v15))
    (extractStridedSlice S50000x16 ![0, 1] (Vv (Proc.devRef .tc main_arg6) : FVec Ideal S50000x17 .f32)
      slices_S50000x17_S50000x16_0_1) := by
  after_results

end Stretch

variable (m : (ℓ : Loc nD τ sig) → Buf (Elt Ideal) ℓ) (ρ : Dev nD → PrngReg) (c : Dev nD)

/-! ## Before region 0 -/

/-- Region 0's first window: the rows of the narrowed node table that the wrapped neighbour indices name. -/
theorem V1_v9 : @Eq (FVec Ideal S50000x16x128 .bf16) (V1 m ρ c main_v9)
    (Host.gather gather_S50000x128_S50000x16x1_S50000x16x128_2_0_n_n_0_2_1128
      (truncf .bf16 (m ((c : Thread nD τ).loc main_arg0) : FVec Ideal S50000x128 .f32) bitsLt_bf16_f32)
      (startIdx (m ((c : Thread nD τ).loc main_arg1)))) :=
  after0_v9 (W0 m ρ c)

/-- Region 0's second window: the first sixteen columns of the first weight table, as launched. -/
theorem V1_v1 : @Eq (FVec Ideal S50000x16 .f32) (V1 m ρ c main_v1)
    (extractStridedSlice S50000x16 ![0, 1] (m ((c : Thread nD τ).loc main_arg3) : FVec Ideal S50000x17 .f32)
      slices_S50000x17_S50000x16_0_1) :=
  after0_v1 (W0 m ρ c)

/-- Region 0's third window: the first weight matrix, narrowed. -/
theorem V1_v10 : @Eq (FVec Ideal S128x128 .bf16) (V1 m ρ c main_v10)
    (truncf .bf16 (m ((c : Thread nD τ).loc main_arg7) : FVec Ideal S128x128 .f32) bitsLt_bf16_f32) :=
  after0_v10 (W0 m ρ c)

/-! ## Between region 0 and region 1 -/

/-- Argument 8 is as launched when region 0 is left: no operation before it and no window of region 0 writes it. -/
theorem W2_main_arg8 : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg8) := rfl

/-- Argument 4 is as launched when region 0 is left: no operation before it and no window of region 0 writes it. -/
theorem W2_main_arg4 : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl

/-- Argument 6 is as launched when region 0 is left: no operation before it and no window of region 0 writes it. -/
theorem W2_main_arg6 : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg6) := rfl

/-- Region 1's first window holds what region 0 left in its output array. -/
theorem V3_v11 : V3 m ρ c main_v11 = (dat0 (V1 m ρ) c).arrAt 3 cfg0.N :=
  (after1_v11 (W2 m ρ c)).trans (W2_arr m ρ c 3)

/-- Region 1's second window: the second weight matrix, narrowed. -/
theorem V3_v12 : @Eq (FVec Ideal S128x64 .bf16) (V3 m ρ c main_v12)
    (truncf .bf16 (m ((c : Thread nD τ).loc main_arg8) : FVec Ideal S128x64 .f32) bitsLt_bf16_f32) :=
  (after1_v12 (W2 m ρ c)).trans (by rw [W2_main_arg8])

/-! ## Between region 1 and region 2 -/

/-- Argument 4 is as launched when region 1 is left. -/
theorem W4_main_arg4 : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := W2_main_arg4 m ρ c

/-- Argument 6 is as launched when region 1 is left. -/
theorem W4_main_arg6 : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg6) := W2_main_arg6 m ρ c

/-- Region 2's first window: the rows of region 1's output that the wrapped second neighbour indices name. -/
theorem V5_v22 : @Eq (FVec Ideal S50000x16x64 .bf16) (V5 m ρ c main_v22)
    (Host.gather gather_S50000x64_S50000x16x1_S50000x16x64_2_0_n_n_0_2_164
      ((dat1 (V3 m ρ) c).arrAt 2 cfg1.N) (startIdx (m ((c : Thread nD τ).loc main_arg4)))) := by
  have e13 : W4 m ρ c (Proc.devRef .tc main_v13) = (dat1 (V3 m ρ) c).arrAt 2 cfg1.N := W4_arr m ρ c 2
  refine (after2_v22 (W4 m ρ c)).trans ?_
  rw [e13, W4_main_arg4]

/-- Region 2's second window: the first sixteen columns of the second weight table, as launched. -/
theorem V5_v15 : @Eq (FVec Ideal S50000x16 .f32) (V5 m ρ c main_v15)
    (extractStridedSlice S50000x16 ![0, 1] (m ((c : Thread nD τ).loc main_arg6) : FVec Ideal S50000x17 .f32)
      slices_S50000x17_S50000x16_0_1) :=
  (after2_v15 (W4 m ρ c)).trans (by rw [W4_main_arg6])

end Cert.KernelIdeal.HostReads

end
-- ==== Proof.RefRun.lean ====
/- The reference program's run.

   @main is a straight line of 157 host operations once the calls of its module-local functions are unfolded
   (each leaky-relu call is seven operations, the elu call fifteen). Only 45 of them reach the returned value:
   two rounds of "gather sixteen neighbour rows, weight them, average them, multiply by a matrix", with an elu
   between the rounds. The rest computes a second value that is never returned; it still runs, so it is listed,
   but nothing is stated about it.

   The list is cut into six windows. For each window: the buffers it writes, the fact that any other buffer keeps
   its contents through it, and the composed term of each buffer that a later window (or the post) still reads. -/
import proofs.«141793_j68109591380388_2_alg».proof.Proof.Gen.ReferenceIdeal
import Idealize.ShloMosaic.Lib.StableHlo.Run
import Idealize.ShloMosaic.Lib.Pipeline.Frame

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The returned value as a function of the argument arrays -/

/-- Columns 1 … 16 of a neighbour-index table, a negative entry wrapped by adding the row count 50000, as a
    [50000, 16, 1] table of start indices: `where(i < 0, i + 50000, i)` on the slice, then a trailing unit axis. -/
def startIdx (a : (⟨S50000x17, .i32⟩ : BufTy).Contents (Elt F)) : (⟨S50000x16x1, .i32⟩ : BufTy).Contents (Elt F) :=
  broadcastInDim S50000x16x1 ![0, 1] bcast_S50000x16_S50000x16x1_0_1
    (select
      (cmpi .slt (extractStridedSlice S50000x16 ![0, 1] a slices_S50000x17_S50000x16_0_1)
        (broadcastInDim S50000x16 ![] bcast_S_S50000x16 (constantI S_ 32 0#32)))
      (addi (extractStridedSlice S50000x16 ![0, 1] a slices_S50000x17_S50000x16_0_1)
        (broadcastInDim S50000x16 ![] bcast_S_S50000x16 (constantI S_ 32 50000#32)))
      (extractStridedSlice S50000x16 ![0, 1] a slices_S50000x17_S50000x16_0_1))

/-- Columns 1 … 16 of a weight table, repeated along a trailing axis of 128: entry (n, k, f) is w (n, k + 1). -/
def weights (w : (⟨S50000x17, .f32⟩ : BufTy).Contents (Elt F)) : (⟨S50000x16x128, .f32⟩ : BufTy).Contents (Elt F) :=
  broadcastInDim S50000x16x128 ![0, 1, 2] bcast_S50000x16x1_S50000x16x128_0_1_2
    (broadcastInDim S50000x16x1 ![0, 1] bcast_S50000x16_S50000x16x1_0_1
      (extractStridedSlice S50000x16 ![0, 1] w slices_S50000x17_S50000x16_0_1))

/-- The sixteen neighbour rows of each node gathered from a [50000, 128] table. -/
def neighbours (t : (⟨S50000x128, .f32⟩ : BufTy).Contents (Elt F)) (idx : (⟨S50000x17, .i32⟩ : BufTy).Contents (Elt F)) :
    (⟨S50000x16x128, .f32⟩ : BufTy).Contents (Elt F) :=
  Host.gather gather_S50000x128_S50000x16x1_S50000x16x128_2_0_n_n_0_2_1128 t (startIdx idx)

/-- The weighted mean of the sixteen neighbour rows: the weighted rows summed over the neighbour axis from 0, divided by 16. -/
def nbrMean (t : (⟨S50000x128, .f32⟩ : BufTy).Contents (Elt F)) (idx : (⟨S50000x17, .i32⟩ : BufTy).Contents (Elt F))
    (w : (⟨S50000x17, .f32⟩ : BufTy).Contents (Elt F)) : (⟨S50000x128, .f32⟩ : BufTy).Contents (Elt F) :=
  Host.divf
    (Host.reduceAdd (mulf (neighbours t idx) (weights w)) (constant S_ .f32 0x00000000#32)
      reducesTo_S50000x16x128_S50000x128_d1 h_S_)
    (broadcastInDim S50000x128 ![] bcast_S_S50000x128 (constant S_ .f32 0x41800000#32))

/-- elu, as the program spells it: `where(x > 0, x, 1 * expm1(where(x > 0, 0, x)))`. -/
def elu (x : (⟨S50000x128, .f32⟩ : BufTy).Contents (Elt F)) : (⟨S50000x128, .f32⟩ : BufTy).Contents (Elt F) :=
  select (cmpf .ogt x (broadcastInDim S50000x128 ![] bcast_S_S50000x128 (constant S_ .f32 0x00000000#32))) x
    (mulf (broadcastInDim S50000x128 ![] bcast_S_S50000x128 (constant S_ .f32 0x3F800000#32))
      (Host.expm1
        (select (cmpf .ogt x (broadcastInDim S50000x128 ![] bcast_S_S50000x128 (constant S_ .f32 0x00000000#32)))
          (broadcastInDim S50000x128 ![] bcast_S_S50000x128 (id (constant S_ .f32 0x00000000#32))) x)))

/-- The hidden layer: the weighted neighbour mean of the features times the first matrix, through elu. -/
def hidden (a0 : (⟨S50000x128, .f32⟩ : BufTy).Contents (Elt F)) (a1 : (⟨S50000x17, .i32⟩ : BufTy).Contents (Elt F)) (a3 : (⟨S50000x17, .f32⟩ : BufTy).Contents (Elt F))
    (a7 : (⟨S128x128, .f32⟩ : BufTy).Contents (Elt F)) : (⟨S50000x128, .f32⟩ : BufTy).Contents (Elt F) :=
  elu (Host.dotGeneral dot_S50000x128_S128x128_S50000x128_1_0_0_1_n_n none (nbrMean a0 a1 a3) a7)

/-- The value @main returns: the weighted neighbour mean of the hidden layer times the second matrix. -/
def refOut (a0 : (⟨S50000x128, .f32⟩ : BufTy).Contents (Elt F)) (a1 : (⟨S50000x17, .i32⟩ : BufTy).Contents (Elt F)) (a3 : (⟨S50000x17, .f32⟩ : BufTy).Contents (Elt F))
    (a4 : (⟨S50000x17, .i32⟩ : BufTy).Contents (Elt F)) (a6 : (⟨S50000x17, .f32⟩ : BufTy).Contents (Elt F)) (a7 : (⟨S128x128, .f32⟩ : BufTy).Contents (Elt F))
    (a8 : (⟨S128x64, .f32⟩ : BufTy).Contents (Elt F)) : (⟨S50000x64, .f32⟩ : BufTy).Contents (Elt F) :=
  Host.dotGeneral dot_S50000x128_S128x64_S50000x64_1_0_0_1_n_n none (nbrMean (hidden a0 a1 a3 a7) a4 a6) a8

/-! ## The operations -/

/-- Operations 1 … 32 of 157: the first round's gather (operations 1 … 10), then the start of the unreturned value through its first leaky-relu. -/
abbrev ops0 : List (HloOp τ sig (Elt F)) :=
  [ unary main_arg1 main_v0 ((extractStridedSlice S50000x16 ![0, 1] · slices_S50000x17_S50000x16_0_1) : (⟨S50000x17, .i32⟩ : BufTy).Contents (Elt F) → (⟨S50000x16, .i32⟩ : BufTy).Contents (Elt F)),
    nullary main_c (constantI S_ 32 0#32),
    unary main_c main_v1 (broadcastInDim S50000x16 ![] bcast_S_S50000x16 : (⟨S_, .i32⟩ : BufTy).Contents (Elt F) → (⟨S50000x16, .i32⟩ : BufTy).Contents (Elt F)),
    binary main_v0 main_v1 main_v2 (cmpi .slt : (⟨S50000x16, .i32⟩ : BufTy).Contents (Elt F) → (⟨S50000x16, .i32⟩ : BufTy).Contents (Elt F) → (⟨S50000x16, .i1⟩ : BufTy).Contents (Elt F)),
    nullary main_c_0 (constantI S_ 32 50000#32),
    unary main_c_0 main_v3 (broadcastInDim S50000x16 ![] bcast_S_S50000x16 : (⟨S_, .i32⟩ : BufTy).Contents (Elt F) → (⟨S50000x16, .i32⟩ : BufTy).Contents (Elt F)),
    binary main_v0 main_v3 main_v4 (addi : (⟨S50000x16, .i32⟩ : BufTy).Contents (Elt F) → (⟨S50000x16, .i32⟩ : BufTy).Contents (Elt F) → (⟨S50000x16, .i32⟩ : BufTy).Contents (Elt F)),
    ternary main_v2 main_v4 main_v0 main_v5 (select : (⟨S50000x16, .i1⟩ : BufTy).Contents (Elt F) → (⟨S50000x16, .i32⟩ : BufTy).Contents (Elt F) → (⟨S50000x16, .i32⟩ : BufTy).Contents (Elt F) → (⟨S50000x16, .i32⟩ : BufTy).Contents (Elt F)),
    unary main_v5 main_v6 (broadcastInDim S50000x16x1 ![0, 1] bcast_S50000x16_S50000x16x1_0_1 : (⟨S50000x16, .i32⟩ : BufTy).Contents (Elt F) → (⟨S50000x16x1, .i32⟩ : BufTy).Contents (Elt F)),
    binary main_arg0 main_v6 main_v7 ((fun x i => Host.gather gather_S50000x128_S50000x16x1_S50000x16x128_2_0_n_n_0_2_1128 x i) : (⟨S50000x128, .f32⟩ : BufTy).Contents (Elt F) → (⟨S50000x16x1, .i32⟩ : BufTy).Contents (Elt F) → (⟨S50000x16x128, .f32⟩ : BufTy).Contents (Elt F)),
    unary main_arg2 main_v8 ((extractStridedSlice S50000x16 ![0, 1] · slices_S50000x17_S50000x16_0_1) : (⟨S50000x17, .f32⟩ : BufTy).Contents (Elt F) → (⟨S50000x16, .f32⟩ : BufTy).Contents (Elt F)),
    unary main_v8 main_v9 (broadcastInDim S50000x16x1 ![0, 1] bcast_S50000x16_S50000x16x1_0_1 : (⟨S50000x16, .f32⟩ : BufTy).Contents (Elt F) → (⟨S50000x16x1, .f32⟩ : BufTy).Contents (Elt F)),
    unary main_v9 main_v10 (broadcastInDim S50000x16x128 ![0, 1, 2] bcast_S50000x16x1_S50000x16x128_0_1_2 : (⟨S50000x16x1, .f32⟩ : BufTy).Contents (Elt F) → (⟨S50000x16x128, .f32⟩ : BufTy).Contents (Elt F)),
    binary main_v7 main_v10 main_v11 (mulf : (⟨S50000x16x128, .f32⟩ : BufTy).Contents (Elt F) → (⟨S50000x16x128, .f32⟩ : BufTy).Contents (Elt F) → (⟨S50000x16x128, .f32⟩ : BufTy).Contents (Elt F)),
    nullary main_cst (constant S_ .f32 0x00000000#32),
    binary main_v11 main_cst main_v12 ((fun x v => Host.reduceAdd x v reducesTo_S50000x16x128_S50000x128_d1 h_S_) : (⟨S50000x16x128, .f32⟩ : BufTy).Contents (Elt F) → (⟨S_, .f32⟩ : BufTy).Contents (Elt F) → (⟨S50000x128, .f32⟩ : BufTy).Contents (Elt F)),
    nullary main_cst_1 (constant S_ .f32 0x41800000#32),
    unary main_cst_1 main_v13 (broadcastInDim S50000x128 ![] bcast_S_S50000x128 : (⟨S_, .f32⟩ : BufTy).Contents (Elt F) → (⟨S50000x128, .f32⟩ : BufTy).Contents (Elt F)),
    binary main_v12 main_v13 main_v14 (Host.divf : (⟨S50000x128, .f32⟩ : BufTy).Contents (Elt F) → (⟨S50000x128, .f32⟩ : BufTy).Contents (Elt F) → (⟨S50000x128, .f32⟩ : BufTy).Contents (Elt F)),
    binary main_v14 main_arg10 main_v15 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v15 main_v16 (broadcastInDim S50000x1x128 ![0, 2] bcast_S50000x128_S50000x1x128_0_2 : (⟨S50000x128, .f32⟩ : BufTy).Contents (Elt F) → (⟨S50000x1x128, .f32⟩ : BufTy).Contents (Elt F)),
    binary main_v7 main_arg9 main_v17 ((fun l r => Host.dotGeneral dot_S50000x16x128_S128x128_S50000x16x128_2_0_01_1_n_n none l r) : (⟨S50000x16x128, .f32⟩ : BufTy).Contents (Elt F) → (⟨S128x128, .f32⟩ : BufTy).Contents (Elt F) → (⟨S50000x16x128, .f32⟩ : BufTy).Contents (Elt F)),
    unary main_v16 main_v18 (broadcastInDim S50000x16x128 ![0, 1, 2] bcast_S50000x1x128_S50000x16x128_0_1_2 : (⟨S50000x1x128, .f32⟩ : BufTy).Contents (Elt F) → (⟨S50000x16x128, .f32⟩ : BufTy).Contents (Elt F)),
    binary main_v17 main_v18 main_v19 (addf : (⟨S50000x16x128, .f32⟩ : BufTy).Contents (Elt F) → (⟨S50000x16x128, .f32⟩ : BufTy).Contents (Elt F) → (⟨S50000x16x128, .f32⟩ : BufTy).Contents (Elt F)),
    nullary main_cst_2 (constant S_ .f32 0x3E4CCCCD#32),
    TRef.nullary (TRef.of (T := ⟨S_, .f32⟩) main_call0_cst) (constant S_ .f32 0x00000000#32),
    TRef.unary (TRef.of (T := ⟨S_, .f32⟩) main_call0_cst) (TRef.of (T := ⟨S50000x16x128, .f32⟩) main_call0_v0) (broadcastInDim S50000x16x128 ![] bcast_S_S50000x16x128),
    TRef.binary (TRef.of (T := ⟨S50000x16x128, .f32⟩) main_v19) (TRef.of (T := ⟨S50000x16x128, .f32⟩) main_call0_v0) (TRef.of (T := ⟨S50000x16x128, .i1⟩) main_call0_v1) (cmpf .oge),
    TRef.unary (TRef.of (T := ⟨S_, .f32⟩) main_cst_2) (TRef.of (T := ⟨S_, .f32⟩) main_call0_v2) id,
    TRef.unary (TRef.of (T := ⟨S_, .f32⟩) main_call0_v2) (TRef.of (T := ⟨S50000x16x128, .f32⟩) main_call0_v3) (broadcastInDim S50000x16x128 ![] bcast_S_S50000x16x128),
    TRef.binary (TRef.of (T := ⟨S50000x16x128, .f32⟩) main_call0_v3) (TRef.of (T := ⟨S50000x16x128, .f32⟩) main_v19) (TRef.of (T := ⟨S50000x16x128, .f32⟩) main_call0_v4) mulf,
    TRef.ternary (TRef.of (T := ⟨S50000x16x128, .i1⟩) main_call0_v1) (TRef.of (T := ⟨S50000x16x128, .f32⟩) main_v19) (TRef.of (T := ⟨S50000x16x128, .f32⟩) main_call0_v4) (TRef.of (T := ⟨S50000x16x128, .f32⟩) main_v20) select ]

/-- Operations 33 … 61 of 157: the unreturned value's first half, to its mean. -/
abbrev ops1 : List (HloOp τ sig (Elt F)) :=
  [ nullary main_cst_3 (constant S_ .f32 0x3F800000#32),
    unary main_cst_3 main_v21 (broadcastInDim S50000x16x128 ![] bcast_S_S50000x16x128 : (⟨S_, .f32⟩ : BufTy).Contents (Elt F) → (⟨S50000x16x128, .f32⟩ : BufTy).Contents (Elt F)),
    binary main_v20 main_v21 main_v22 (addf : (⟨S50000x16x128, .f32⟩ : BufTy).Contents (Elt F) → (⟨S50000x16x128, .f32⟩ : BufTy).Contents (Elt F) → (⟨S50000x16x128, .f32⟩ : BufTy).Contents (Elt F)),
    binary main_v14 main_arg12 main_v23 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v23 main_v24 (broadcastInDim S50000x1x128 ![0, 2] bcast_S50000x128_S50000x1x128_0_2 : (⟨S50000x128, .f32⟩ : BufTy).Contents (Elt F) → (⟨S50000x1x128, .f32⟩ : BufTy).Contents (Elt F)),
    binary main_v7 main_arg11 main_v25 ((fun l r => Host.dotGeneral dot_S50000x16x128_S128x128_S50000x16x128_2_0_01_1_n_n none l r) : (⟨S50000x16x128, .f32⟩ : BufTy).Contents (Elt F) → (⟨S128x128, .f32⟩ : BufTy).Contents (Elt F) → (⟨S50000x16x128, .f32⟩ : BufTy).Contents (Elt F)),
    unary main_v24 main_v26 (broadcastInDim S50000x16x128 ![0, 1, 2] bcast_S50000x1x128_S50000x16x128_0_1_2 : (⟨S50000x1x128, .f32⟩ : BufTy).Contents (Elt F) → (⟨S50000x16x128, .f32⟩ : BufTy).Contents (Elt F)),
    binary main_v25 main_v26 main_v27 (addf : (⟨S50000x16x128, .f32⟩ : BufTy).Contents (Elt F) → (⟨S50000x16x128, .f32⟩ : BufTy).Contents (Elt F) → (⟨S50000x16x128, .f32⟩ : BufTy).Contents (Elt F)),
    nullary main_cst_4 (constant S_ .f32 0x3E4CCCCD#32),
    TRef.nullary (TRef.of (T := ⟨S_, .f32⟩) main_call1_cst) (constant S_ .f32 0x00000000#32),
    TRef.unary (TRef.of (T := ⟨S_, .f32⟩) main_call1_cst) (TRef.of (T := ⟨S50000x16x128, .f32⟩) main_call1_v0) (broadcastInDim S50000x16x128 ![] bcast_S_S50000x16x128),
    TRef.binary (TRef.of (T := ⟨S50000x16x128, .f32⟩) main_v27) (TRef.of (T := ⟨S50000x16x128, .f32⟩) main_call1_v0) (TRef.of (T := ⟨S50000x16x128, .i1⟩) main_call1_v1) (cmpf .oge),
    TRef.unary (TRef.of (T := ⟨S_, .f32⟩) main_cst_4) (TRef.of (T := ⟨S_, .f32⟩) main_call1_v2) id,
    TRef.unary (TRef.of (T := ⟨S_, .f32⟩) main_call1_v2) (TRef.of (T := ⟨S50000x16x128, .f32⟩) main_call1_v3) (broadcastInDim S50000x16x128 ![] bcast_S_S50000x16x128),
    TRef.binary (TRef.of (T := ⟨S50000x16x128, .f32⟩) main_call1_v3) (TRef.of (T := ⟨S50000x16x128, .f32⟩) main_v27) (TRef.of (T := ⟨S50000x16x128, .f32⟩) main_call1_v4) mulf,
    TRef.ternary (TRef.of (T := ⟨S50000x16x128, .i1⟩) main_call1_v1) (TRef.of (T := ⟨S50000x16x128, .f32⟩) main_v27) (TRef.of (T := ⟨S50000x16x128, .f32⟩) main_call1_v4) (TRef.of (T := ⟨S50000x16x128, .f32⟩) main_v28) select,
    unary main_arg13 main_v29 (broadcastInDim S1x1x128 ![2] bcast_S128_S1x1x128_2 : (⟨S128, .f32⟩ : BufTy).Contents (Elt F) → (⟨S1x1x128, .f32⟩ : BufTy).Contents (Elt F)),
    unary main_v29 main_v30 (broadcastInDim S50000x16x128 ![0, 1, 2] bcast_S1x1x128_S50000x16x128_0_1_2 : (⟨S1x1x128, .f32⟩ : BufTy).Contents (Elt F) → (⟨S50000x16x128, .f32⟩ : BufTy).Contents (Elt F)),
    binary main_v22 main_v30 main_v31 (mulf : (⟨S50000x16x128, .f32⟩ : BufTy).Contents (Elt F) → (⟨S50000x16x128, .f32⟩ : BufTy).Contents (Elt F) → (⟨S50000x16x128, .f32⟩ : BufTy).Contents (Elt F)),
    binary main_v31 main_v28 main_v32 (addf : (⟨S50000x16x128, .f32⟩ : BufTy).Contents (Elt F) → (⟨S50000x16x128, .f32⟩ : BufTy).Contents (Elt F) → (⟨S50000x16x128, .f32⟩ : BufTy).Contents (Elt F)),
    binary main_v7 main_v32 main_v33 (addf : (⟨S50000x16x128, .f32⟩ : BufTy).Contents (Elt F) → (⟨S50000x16x128, .f32⟩ : BufTy).Contents (Elt F) → (⟨S50000x16x128, .f32⟩ : BufTy).Contents (Elt F)),
    unary main_v14 main_v34 (broadcastInDim S50000x1x128 ![0, 2] bcast_S50000x128_S50000x1x128_0_2 : (⟨S50000x128, .f32⟩ : BufTy).Contents (Elt F) → (⟨S50000x1x128, .f32⟩ : BufTy).Contents (Elt F)),
    unary main_v34 main_v35 (broadcastInDim S50000x16x128 ![0, 1, 2] bcast_S50000x1x128_S50000x16x128_0_1_2 : (⟨S50000x1x128, .f32⟩ : BufTy).Contents (Elt F) → (⟨S50000x16x128, .f32⟩ : BufTy).Contents (Elt F)),
    binary main_v33 main_v35 main_v36 (subf : (⟨S50000x16x128, .f32⟩ : BufTy).Contents (Elt F) → (⟨S50000x16x128, .f32⟩ : BufTy).Contents (Elt F) → (⟨S50000x16x128, .f32⟩ : BufTy).Contents (Elt F)),
    nullary main_cst_5 (constant S_ .f32 0x00000000#32),
    binary main_v36 main_cst_5 main_v37 ((fun x v => Host.reduceAdd x v reducesTo_S50000x16x128_S50000x128_d1 h_S_) : (⟨S50000x16x128, .f32⟩ : BufTy).Contents (Elt F) → (⟨S_, .f32⟩ : BufTy).Contents (Elt F) → (⟨S50000x128, .f32⟩ : BufTy).Contents (Elt F)),
    nullary main_cst_6 (constant S_ .f32 0x41800000#32),
    unary main_cst_6 main_v38 (broadcastInDim S50000x128 ![] bcast_S_S50000x128 : (⟨S_, .f32⟩ : BufTy).Contents (Elt F) → (⟨S50000x128, .f32⟩ : BufTy).Contents (Elt F)),
    binary main_v37 main_v38 main_v39 (Host.divf : (⟨S50000x128, .f32⟩ : BufTy).Contents (Elt F) → (⟨S50000x128, .f32⟩ : BufTy).Contents (Elt F) → (⟨S50000x128, .f32⟩ : BufTy).Contents (Elt F)) ]

/-- Operations 62 … 86 of 157: the first round's weighted mean, the first matrix product and the elu call. -/
abbrev ops2 : List (HloOp τ sig (Elt F)) :=
  [ unary main_arg3 main_v40 ((extractStridedSlice S50000x16 ![0, 1] · slices_S50000x17_S50000x16_0_1) : (⟨S50000x17, .f32⟩ : BufTy).Contents (Elt F) → (⟨S50000x16, .f32⟩ : BufTy).Contents (Elt F)),
    unary main_v40 main_v41 (broadcastInDim S50000x16x1 ![0, 1] bcast_S50000x16_S50000x16x1_0_1 : (⟨S50000x16, .f32⟩ : BufTy).Contents (Elt F) → (⟨S50000x16x1, .f32⟩ : BufTy).Contents (Elt F)),
    unary main_v41 main_v42 (broadcastInDim S50000x16x128 ![0, 1, 2] bcast_S50000x16x1_S50000x16x128_0_1_2 : (⟨S50000x16x1, .f32⟩ : BufTy).Contents (Elt F) → (⟨S50000x16x128, .f32⟩ : BufTy).Contents (Elt F)),
    binary main_v7 main_v42 main_v43 (mulf : (⟨S50000x16x128, .f32⟩ : BufTy).Contents (Elt F) → (⟨S50000x16x128, .f32⟩ : BufTy).Contents (Elt F) → (⟨S50000x16x128, .f32⟩ : BufTy).Contents (Elt F)),
    nullary main_cst_7 (constant S_ .f32 0x00000000#32),
    binary main_v43 main_cst_7 main_v44 ((fun x v => Host.reduceAdd x v reducesTo_S50000x16x128_S50000x128_d1 h_S_) : (⟨S50000x16x128, .f32⟩ : BufTy).Contents (Elt F) → (⟨S_, .f32⟩ : BufTy).Contents (Elt F) → (⟨S50000x128, .f32⟩ : BufTy).Contents (Elt F)),
    nullary main_cst_8 (constant S_ .f32 0x41800000#32),
    unary main_cst_8 main_v45 (broadcastInDim S50000x128 ![] bcast_S_S50000x128 : (⟨S_, .f32⟩ : BufTy).Contents (Elt F) → (⟨S50000x128, .f32⟩ : BufTy).Contents (Elt F)),
    binary main_v44 main_v45 main_v46 (Host.divf : (⟨S50000x128, .f32⟩ : BufTy).Contents (Elt F) → (⟨S50000x128, .f32⟩ : BufTy).Contents (Elt F) → (⟨S50000x128, .f32⟩ : BufTy).Contents (Elt F)),
    binary main_v46 main_arg7 main_v47 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v47) (TRef.of (T := ⟨S50000x128, .f32⟩) main_call2_v0) (TRef.of (T := ⟨S50000x128, .i1⟩) main_call2_v1) (cmpf .ogt),
    TRef.nullary (TRef.of (T := ⟨S_, .f32⟩) main_call2_cst_0) (constant S_ .f32 0x00000000#32),
    TRef.unary (TRef.of (T := ⟨S_, .f32⟩) main_call2_cst_0) (TRef.of (T := ⟨S50000x128, .f32⟩) main_call2_v2) (broadcastInDim S50000x128 ![] bcast_S_S50000x128),
    TRef.binary (TRef.of (T := ⟨S50000x128, .f32⟩) main_v47) (TRef.of (T := ⟨S50000x128, .f32⟩) main_call2_v2) (TRef.of (T := ⟨S50000x128, .i1⟩) main_call2_v3) (cmpf .ogt),
    TRef.nullary (TRef.of (T := ⟨S_, .f32⟩) main_call2_cst_1) (constant S_ .f32 0x00000000#32),
    TRef.unary (TRef.of (T := ⟨S_, .f32⟩) main_call2_cst_1) (TRef.of (T := ⟨S_, .f32⟩) main_call2_call0_v0) id,
    TRef.unary (TRef.of (T := ⟨S_, .f32⟩) main_call2_call0_v0) (TRef.of (T := ⟨S50000x128, .f32⟩) main_call2_call0_v1) (broadcastInDim S50000x128 ![] bcast_S_S50000x128),
    TRef.ternary (TRef.of (T := ⟨S50000x128, .i1⟩) main_call2_v3) (TRef.of (T := ⟨S50000x128, .f32⟩) main_call2_call0_v1) (TRef.of (T := ⟨S50000x128, .f32⟩) main_v47) (TRef.of (T := ⟨S50000x128, .f32⟩) main_call2_v4) select,
    TRef.unary (TRef.of (T := ⟨S50000x128, .f32⟩) main_call2_v4) (TRef.of (T := ⟨S50000x128, .f32⟩) main_call2_v5) Host.expm1,
    TRef.nullary (TRef.of (T := ⟨S_, .f32⟩) main_call2_cst_2) (constant S_ .f32 0x3F800000#32),
    TRef.unary (TRef.of (T := ⟨S_, .f32⟩) main_call2_cst_2) (TRef.of (T := ⟨S50000x128, .f32⟩) main_call2_v6) (broadcastInDim S50000x128 ![] bcast_S_S50000x128),
    TRef.binary (TRef.of (T := ⟨S50000x128, .f32⟩) main_call2_v6) (TRef.of (T := ⟨S50000x128, .f32⟩) main_call2_v5) (TRef.of (T := ⟨S50000x128, .f32⟩) main_call2_v7) mulf,
    TRef.ternary (TRef.of (T := ⟨S50000x128, .i1⟩) main_call2_v1) (TRef.of (T := ⟨S50000x128, .f32⟩) main_v47) (TRef.of (T := ⟨S50000x128, .f32⟩) main_call2_v7) (TRef.of (T := ⟨S50000x128, .f32⟩) main_v48) select ]

/-- Operations 87 … 118 of 157: the second round's gather (its first ten operations), then the start of the unreturned value's second half. -/
abbrev ops3 : List (HloOp τ sig (Elt F)) :=
  [ unary main_arg4 main_v49 ((extractStridedSlice S50000x16 ![0, 1] · slices_S50000x17_S50000x16_0_1) : (⟨S50000x17, .i32⟩ : BufTy).Contents (Elt F) → (⟨S50000x16, .i32⟩ : BufTy).Contents (Elt F)),
    nullary main_c_9 (constantI S_ 32 0#32),
    unary main_c_9 main_v50 (broadcastInDim S50000x16 ![] bcast_S_S50000x16 : (⟨S_, .i32⟩ : BufTy).Contents (Elt F) → (⟨S50000x16, .i32⟩ : BufTy).Contents (Elt F)),
    binary main_v49 main_v50 main_v51 (cmpi .slt : (⟨S50000x16, .i32⟩ : BufTy).Contents (Elt F) → (⟨S50000x16, .i32⟩ : BufTy).Contents (Elt F) → (⟨S50000x16, .i1⟩ : BufTy).Contents (Elt F)),
    nullary main_c_10 (constantI S_ 32 50000#32),
    unary main_c_10 main_v52 (broadcastInDim S50000x16 ![] bcast_S_S50000x16 : (⟨S_, .i32⟩ : BufTy).Contents (Elt F) → (⟨S50000x16, .i32⟩ : BufTy).Contents (Elt F)),
    binary main_v49 main_v52 main_v53 (addi : (⟨S50000x16, .i32⟩ : BufTy).Contents (Elt F) → (⟨S50000x16, .i32⟩ : BufTy).Contents (Elt F) → (⟨S50000x16, .i32⟩ : BufTy).Contents (Elt F)),
    ternary main_v51 main_v53 main_v49 main_v54 (select : (⟨S50000x16, .i1⟩ : BufTy).Contents (Elt F) → (⟨S50000x16, .i32⟩ : BufTy).Contents (Elt F) → (⟨S50000x16, .i32⟩ : BufTy).Contents (Elt F) → (⟨S50000x16, .i32⟩ : BufTy).Contents (Elt F)),
    unary main_v54 main_v55 (broadcastInDim S50000x16x1 ![0, 1] bcast_S50000x16_S50000x16x1_0_1 : (⟨S50000x16, .i32⟩ : BufTy).Contents (Elt F) → (⟨S50000x16x1, .i32⟩ : BufTy).Contents (Elt F)),
    binary main_v48 main_v55 main_v56 ((fun x i => Host.gather gather_S50000x128_S50000x16x1_S50000x16x128_2_0_n_n_0_2_1128 x i) : (⟨S50000x128, .f32⟩ : BufTy).Contents (Elt F) → (⟨S50000x16x1, .i32⟩ : BufTy).Contents (Elt F) → (⟨S50000x16x128, .f32⟩ : BufTy).Contents (Elt F)),
    unary main_arg5 main_v57 ((extractStridedSlice S50000x16 ![0, 1] · slices_S50000x17_S50000x16_0_1) : (⟨S50000x17, .f32⟩ : BufTy).Contents (Elt F) → (⟨S50000x16, .f32⟩ : BufTy).Contents (Elt F)),
    unary main_v57 main_v58 (broadcastInDim S50000x16x1 ![0, 1] bcast_S50000x16_S50000x16x1_0_1 : (⟨S50000x16, .f32⟩ : BufTy).Contents (Elt F) → (⟨S50000x16x1, .f32⟩ : BufTy).Contents (Elt F)),
    unary main_v58 main_v59 (broadcastInDim S50000x16x128 ![0, 1, 2] bcast_S50000x16x1_S50000x16x128_0_1_2 : (⟨S50000x16x1, .f32⟩ : BufTy).Contents (Elt F) → (⟨S50000x16x128, .f32⟩ : BufTy).Contents (Elt F)),
    binary main_v56 main_v59 main_v60 (mulf : (⟨S50000x16x128, .f32⟩ : BufTy).Contents (Elt F) → (⟨S50000x16x128, .f32⟩ : BufTy).Contents (Elt F) → (⟨S50000x16x128, .f32⟩ : BufTy).Contents (Elt F)),
    nullary main_cst_11 (constant S_ .f32 0x00000000#32),
    binary main_v60 main_cst_11 main_v61 ((fun x v => Host.reduceAdd x v reducesTo_S50000x16x128_S50000x128_d1 h_S_) : (⟨S50000x16x128, .f32⟩ : BufTy).Contents (Elt F) → (⟨S_, .f32⟩ : BufTy).Contents (Elt F) → (⟨S50000x128, .f32⟩ : BufTy).Contents (Elt F)),
    nullary main_cst_12 (constant S_ .f32 0x41800000#32),
    unary main_cst_12 main_v62 (broadcastInDim S50000x128 ![] bcast_S_S50000x128 : (⟨S_, .f32⟩ : BufTy).Contents (Elt F) → (⟨S50000x128, .f32⟩ : BufTy).Contents (Elt F)),
    binary main_v61 main_v62 main_v63 (Host.divf : (⟨S50000x128, .f32⟩ : BufTy).Contents (Elt F) → (⟨S50000x128, .f32⟩ : BufTy).Contents (Elt F) → (⟨S50000x128, .f32⟩ : BufTy).Contents (Elt F)),
    binary main_v63 main_arg15 main_v64 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v64 main_v65 (broadcastInDim S50000x1x128 ![0, 2] bcast_S50000x128_S50000x1x128_0_2 : (⟨S50000x128, .f32⟩ : BufTy).Contents (Elt F) → (⟨S50000x1x128, .f32⟩ : BufTy).Contents (Elt F)),
    binary main_v56 main_arg14 main_v66 ((fun l r => Host.dotGeneral dot_S50000x16x128_S128x128_S50000x16x128_2_0_01_1_n_n none l r) : (⟨S50000x16x128, .f32⟩ : BufTy).Contents (Elt F) → (⟨S128x128, .f32⟩ : BufTy).Contents (Elt F) → (⟨S50000x16x128, .f32⟩ : BufTy).Contents (Elt F)),
    unary main_v65 main_v67 (broadcastInDim S50000x16x128 ![0, 1, 2] bcast_S50000x1x128_S50000x16x128_0_1_2 : (⟨S50000x1x128, .f32⟩ : BufTy).Contents (Elt F) → (⟨S50000x16x128, .f32⟩ : BufTy).Contents (Elt F)),
    binary main_v66 main_v67 main_v68 (addf : (⟨S50000x16x128, .f32⟩ : BufTy).Contents (Elt F) → (⟨S50000x16x128, .f32⟩ : BufTy).Contents (Elt F) → (⟨S50000x16x128, .f32⟩ : BufTy).Contents (Elt F)),
    nullary main_cst_13 (constant S_ .f32 0x3E4CCCCD#32),
    TRef.nullary (TRef.of (T := ⟨S_, .f32⟩) main_call3_cst) (constant S_ .f32 0x00000000#32),
    TRef.unary (TRef.of (T := ⟨S_, .f32⟩) main_call3_cst) (TRef.of (T := ⟨S50000x16x128, .f32⟩) main_call3_v0) (broadcastInDim S50000x16x128 ![] bcast_S_S50000x16x128),
    TRef.binary (TRef.of (T := ⟨S50000x16x128, .f32⟩) main_v68) (TRef.of (T := ⟨S50000x16x128, .f32⟩) main_call3_v0) (TRef.of (T := ⟨S50000x16x128, .i1⟩) main_call3_v1) (cmpf .oge),
    TRef.unary (TRef.of (T := ⟨S_, .f32⟩) main_cst_13) (TRef.of (T := ⟨S_, .f32⟩) main_call3_v2) id,
    TRef.unary (TRef.of (T := ⟨S_, .f32⟩) main_call3_v2) (TRef.of (T := ⟨S50000x16x128, .f32⟩) main_call3_v3) (broadcastInDim S50000x16x128 ![] bcast_S_S50000x16x128),
    TRef.binary (TRef.of (T := ⟨S50000x16x128, .f32⟩) main_call3_v3) (TRef.of (T := ⟨S50000x16x128, .f32⟩) main_v68) (TRef.of (T := ⟨S50000x16x128, .f32⟩) main_call3_v4) mulf,
    TRef.ternary (TRef.of (T := ⟨S50000x16x128, .i1⟩) main_call3_v1) (TRef.of (T := ⟨S50000x16x128, .f32⟩) main_v68) (TRef.of (T := ⟨S50000x16x128, .f32⟩) main_call3_v4) (TRef.of (T := ⟨S50000x16x128, .f32⟩) main_v69) select ]

/-- Operations 119 … 147 of 157: the unreturned value's second half, to its mean. -/
abbrev ops4 : List (HloOp τ sig (Elt F)) :=
  [ nullary main_cst_14 (constant S_ .f32 0x3F800000#32),
    unary main_cst_14 main_v70 (broadcastInDim S50000x16x128 ![] bcast_S_S50000x16x128 : (⟨S_, .f32⟩ : BufTy).Contents (Elt F) → (⟨S50000x16x128, .f32⟩ : BufTy).Contents (Elt F)),
    binary main_v69 main_v70 main_v71 (addf : (⟨S50000x16x128, .f32⟩ : BufTy).Contents (Elt F) → (⟨S50000x16x128, .f32⟩ : BufTy).Contents (Elt F) → (⟨S50000x16x128, .f32⟩ : BufTy).Contents (Elt F)),
    binary main_v63 main_arg17 main_v72 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v72 main_v73 (broadcastInDim S50000x1x128 ![0, 2] bcast_S50000x128_S50000x1x128_0_2 : (⟨S50000x128, .f32⟩ : BufTy).Contents (Elt F) → (⟨S50000x1x128, .f32⟩ : BufTy).Contents (Elt F)),
    binary main_v56 main_arg16 main_v74 ((fun l r => Host.dotGeneral dot_S50000x16x128_S128x128_S50000x16x128_2_0_01_1_n_n none l r) : (⟨S50000x16x128, .f32⟩ : BufTy).Contents (Elt F) → (⟨S128x128, .f32⟩ : BufTy).Contents (Elt F) → (⟨S50000x16x128, .f32⟩ : BufTy).Contents (Elt F)),
    unary main_v73 main_v75 (broadcastInDim S50000x16x128 ![0, 1, 2] bcast_S50000x1x128_S50000x16x128_0_1_2 : (⟨S50000x1x128, .f32⟩ : BufTy).Contents (Elt F) → (⟨S50000x16x128, .f32⟩ : BufTy).Contents (Elt F)),
    binary main_v74 main_v75 main_v76 (addf : (⟨S50000x16x128, .f32⟩ : BufTy).Contents (Elt F) → (⟨S50000x16x128, .f32⟩ : BufTy).Contents (Elt F) → (⟨S50000x16x128, .f32⟩ : BufTy).Contents (Elt F)),
    nullary main_cst_15 (constant S_ .f32 0x3E4CCCCD#32),
    TRef.nullary (TRef.of (T := ⟨S_, .f32⟩) main_call4_cst) (constant S_ .f32 0x00000000#32),
    TRef.unary (TRef.of (T := ⟨S_, .f32⟩) main_call4_cst) (TRef.of (T := ⟨S50000x16x128, .f32⟩) main_call4_v0) (broadcastInDim S50000x16x128 ![] bcast_S_S50000x16x128),
    TRef.binary (TRef.of (T := ⟨S50000x16x128, .f32⟩) main_v76) (TRef.of (T := ⟨S50000x16x128, .f32⟩) main_call4_v0) (TRef.of (T := ⟨S50000x16x128, .i1⟩) main_call4_v1) (cmpf .oge),
    TRef.unary (TRef.of (T := ⟨S_, .f32⟩) main_cst_15) (TRef.of (T := ⟨S_, .f32⟩) main_call4_v2) id,
    TRef.unary (TRef.of (T := ⟨S_, .f32⟩) main_call4_v2) (TRef.of (T := ⟨S50000x16x128, .f32⟩) main_call4_v3) (broadcastInDim S50000x16x128 ![] bcast_S_S50000x16x128),
    TRef.binary (TRef.of (T := ⟨S50000x16x128, .f32⟩) main_call4_v3) (TRef.of (T := ⟨S50000x16x128, .f32⟩) main_v76) (TRef.of (T := ⟨S50000x16x128, .f32⟩) main_call4_v4) mulf,
    TRef.ternary (TRef.of (T := ⟨S50000x16x128, .i1⟩) main_call4_v1) (TRef.of (T := ⟨S50000x16x128, .f32⟩) main_v76) (TRef.of (T := ⟨S50000x16x128, .f32⟩) main_call4_v4) (TRef.of (T := ⟨S50000x16x128, .f32⟩) main_v77) select,
    unary main_arg18 main_v78 (broadcastInDim S1x1x128 ![2] bcast_S128_S1x1x128_2 : (⟨S128, .f32⟩ : BufTy).Contents (Elt F) → (⟨S1x1x128, .f32⟩ : BufTy).Contents (Elt F)),
    unary main_v78 main_v79 (broadcastInDim S50000x16x128 ![0, 1, 2] bcast_S1x1x128_S50000x16x128_0_1_2 : (⟨S1x1x128, .f32⟩ : BufTy).Contents (Elt F) → (⟨S50000x16x128, .f32⟩ : BufTy).Contents (Elt F)),
    binary main_v71 main_v79 main_v80 (mulf : (⟨S50000x16x128, .f32⟩ : BufTy).Contents (Elt F) → (⟨S50000x16x128, .f32⟩ : BufTy).Contents (Elt F) → (⟨S50000x16x128, .f32⟩ : BufTy).Contents (Elt F)),
    binary main_v80 main_v77 main_v81 (addf : (⟨S50000x16x128, .f32⟩ : BufTy).Contents (Elt F) → (⟨S50000x16x128, .f32⟩ : BufTy).Contents (Elt F) → (⟨S50000x16x128, .f32⟩ : BufTy).Contents (Elt F)),
    binary main_v56 main_v81 main_v82 (addf : (⟨S50000x16x128, .f32⟩ : BufTy).Contents (Elt F) → (⟨S50000x16x128, .f32⟩ : BufTy).Contents (Elt F) → (⟨S50000x16x128, .f32⟩ : BufTy).Contents (Elt F)),
    unary main_v63 main_v83 (broadcastInDim S50000x1x128 ![0, 2] bcast_S50000x128_S50000x1x128_0_2 : (⟨S50000x128, .f32⟩ : BufTy).Contents (Elt F) → (⟨S50000x1x128, .f32⟩ : BufTy).Contents (Elt F)),
    unary main_v83 main_v84 (broadcastInDim S50000x16x128 ![0, 1, 2] bcast_S50000x1x128_S50000x16x128_0_1_2 : (⟨S50000x1x128, .f32⟩ : BufTy).Contents (Elt F) → (⟨S50000x16x128, .f32⟩ : BufTy).Contents (Elt F)),
    binary main_v82 main_v84 main_v85 (subf : (⟨S50000x16x128, .f32⟩ : BufTy).Contents (Elt F) → (⟨S50000x16x128, .f32⟩ : BufTy).Contents (Elt F) → (⟨S50000x16x128, .f32⟩ : BufTy).Contents (Elt F)),
    nullary main_cst_16 (constant S_ .f32 0x00000000#32),
    binary main_v85 main_cst_16 main_v86 ((fun x v => Host.reduceAdd x v reducesTo_S50000x16x128_S50000x128_d1 h_S_) : (⟨S50000x16x128, .f32⟩ : BufTy).Contents (Elt F) → (⟨S_, .f32⟩ : BufTy).Contents (Elt F) → (⟨S50000x128, .f32⟩ : BufTy).Contents (Elt F)),
    nullary main_cst_17 (constant S_ .f32 0x41800000#32),
    unary main_cst_17 main_v87 (broadcastInDim S50000x128 ![] bcast_S_S50000x128 : (⟨S_, .f32⟩ : BufTy).Contents (Elt F) → (⟨S50000x128, .f32⟩ : BufTy).Contents (Elt F)),
    binary main_v86 main_v87 main_v88 (Host.divf : (⟨S50000x128, .f32⟩ : BufTy).Contents (Elt F) → (⟨S50000x128, .f32⟩ : BufTy).Contents (Elt F) → (⟨S50000x128, .f32⟩ : BufTy).Contents (Elt F)) ]

/-- Operations 148 … 157 of 157: the second round's weighted mean and the second matrix product. -/
abbrev ops5 : List (HloOp τ sig (Elt F)) :=
  [ unary main_arg6 main_v89 ((extractStridedSlice S50000x16 ![0, 1] · slices_S50000x17_S50000x16_0_1) : (⟨S50000x17, .f32⟩ : BufTy).Contents (Elt F) → (⟨S50000x16, .f32⟩ : BufTy).Contents (Elt F)),
    unary main_v89 main_v90 (broadcastInDim S50000x16x1 ![0, 1] bcast_S50000x16_S50000x16x1_0_1 : (⟨S50000x16, .f32⟩ : BufTy).Contents (Elt F) → (⟨S50000x16x1, .f32⟩ : BufTy).Contents (Elt F)),
    unary main_v90 main_v91 (broadcastInDim S50000x16x128 ![0, 1, 2] bcast_S50000x16x1_S50000x16x128_0_1_2 : (⟨S50000x16x1, .f32⟩ : BufTy).Contents (Elt F) → (⟨S50000x16x128, .f32⟩ : BufTy).Contents (Elt F)),
    binary main_v56 main_v91 main_v92 (mulf : (⟨S50000x16x128, .f32⟩ : BufTy).Contents (Elt F) → (⟨S50000x16x128, .f32⟩ : BufTy).Contents (Elt F) → (⟨S50000x16x128, .f32⟩ : BufTy).Contents (Elt F)),
    nullary main_cst_18 (constant S_ .f32 0x00000000#32),
    binary main_v92 main_cst_18 main_v93 ((fun x v => Host.reduceAdd x v reducesTo_S50000x16x128_S50000x128_d1 h_S_) : (⟨S50000x16x128, .f32⟩ : BufTy).Contents (Elt F) → (⟨S_, .f32⟩ : BufTy).Contents (Elt F) → (⟨S50000x128, .f32⟩ : BufTy).Contents (Elt F)),
    nullary main_cst_19 (constant S_ .f32 0x41800000#32),
    unary main_cst_19 main_v94 (broadcastInDim S50000x128 ![] bcast_S_S50000x128 : (⟨S_, .f32⟩ : BufTy).Contents (Elt F) → (⟨S50000x128, .f32⟩ : BufTy).Contents (Elt F)),
    binary main_v93 main_v94 main_v95 (Host.divf : (⟨S50000x128, .f32⟩ : BufTy).Contents (Elt F) → (⟨S50000x128, .f32⟩ : BufTy).Contents (Elt F) → (⟨S50000x128, .f32⟩ : BufTy).Contents (Elt F)),
    binary main_v95 main_arg8 main_v96 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) ]

/-- @main's 157 operations in order, a called function's operations standing in its call's place. -/
abbrev ops : List (HloOp τ sig (Elt F)) := ops0 ++ (ops1 ++ (ops2 ++ (ops3 ++ (ops4 ++ ops5))))

/-! ## @main is that line -/

set_option maxRecDepth 8192 in
set_option maxHeartbeats 4000000 in
/-- Statements 1 … 60: the called functions' definitions unfolded at their calls and sequencing re-associated, both sides are
    one chain of the same eighty-six steps. -/
theorem main_part0_eq (c : Dev nD) : main_part0 (F := F) c = seq (ops0 ++ (ops1 ++ ops2)) := by
  simp only [main_part0, fn_leaky_relu.body, fn_where.body, fn_elu.body, fn_where_0.body, fn_where_1.body, bind_assoc, pure_bind]
  rfl

set_option maxRecDepth 8192 in
set_option maxHeartbeats 4000000 in
/-- Statements 61 … 120, likewise: seventy-one steps. -/
theorem main_part1_eq (c : Dev nD) : main_part1 (F := F) c = seq (ops3 ++ (ops4 ++ ops5)) := by
  simp only [main_part1, fn_leaky_relu.body, fn_where.body, bind_assoc, pure_bind]
  rfl

/-- @main runs its two halves in turn, and two lines run in turn are their concatenation run as one. -/
theorem main_eq (c : Dev nD) : main (F := F) c = seq ops := by
  have h : (ops : List (HloOp τ sig (Elt F))) = (ops0 ++ (ops1 ++ ops2)) ++ (ops3 ++ (ops4 ++ ops5)) := by
    simp only [ops, List.append_assoc]
  rw [h, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., binary_bufs_sub .., nullary_bufs_sub .., binary_bufs_sub .., nullary_bufs_sub .., unary_bufs_sub .., binary_bufs_sub .., binary_bufs_sub .., unary_bufs_sub .., binary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
set_option maxRecDepth 8192 in
theorem ops1_sub : (ops1 : List (HloOp τ sig (Elt F))).Forall fun op => op.bufs ⊆ tcRefs τ sig :=
  ⟨nullary_bufs_sub .., unary_bufs_sub .., binary_bufs_sub .., binary_bufs_sub .., unary_bufs_sub .., binary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., unary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub ..⟩
set_option maxRecDepth 8192 in
theorem ops2_sub : (ops2 : List (HloOp τ sig (Elt F))).Forall fun op => op.bufs ⊆ tcRefs τ sig :=
  ⟨unary_bufs_sub .., unary_bufs_sub .., unary_bufs_sub .., binary_bufs_sub .., nullary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
set_option maxRecDepth 8192 in
theorem ops3_sub : (ops3 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., binary_bufs_sub .., nullary_bufs_sub .., binary_bufs_sub .., nullary_bufs_sub .., unary_bufs_sub .., binary_bufs_sub .., binary_bufs_sub .., unary_bufs_sub .., binary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
set_option maxRecDepth 8192 in
theorem ops4_sub : (ops4 : List (HloOp τ sig (Elt F))).Forall fun op => op.bufs ⊆ tcRefs τ sig :=
  ⟨nullary_bufs_sub .., unary_bufs_sub .., binary_bufs_sub .., binary_bufs_sub .., unary_bufs_sub .., binary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., unary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub ..⟩
set_option maxRecDepth 8192 in
theorem ops5_sub : (ops5 : List (HloOp τ sig (Elt F))).Forall fun op => op.bufs ⊆ tcRefs τ sig :=
  ⟨unary_bufs_sub .., unary_bufs_sub .., unary_bufs_sub .., binary_bufs_sub .., nullary_bufs_sub .., binary_bufs_sub .., nullary_bufs_sub .., unary_bufs_sub .., binary_bufs_sub .., binary_bufs_sub ..⟩
/-- Every operation names TensorCore buffers only. -/
theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h]

/-! ## The contents window by window -/

/-- The device's buffer contents before the first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl
theorem val0_main_arg12 (V0 : Valuation τ sig (Elt F)) : val0 V0 (no_index (Proc.devRef .tc main_arg12)) = V0 (Proc.devRef .tc main_arg12) := rfl
theorem val0_main_arg13 (V0 : Valuation τ sig (Elt F)) : val0 V0 (no_index (Proc.devRef .tc main_arg13)) = V0 (Proc.devRef .tc main_arg13) := rfl
theorem val0_main_arg14 (V0 : Valuation τ sig (Elt F)) : val0 V0 (no_index (Proc.devRef .tc main_arg14)) = V0 (Proc.devRef .tc main_arg14) := rfl
theorem val0_main_arg15 (V0 : Valuation τ sig (Elt F)) : val0 V0 (no_index (Proc.devRef .tc main_arg15)) = V0 (Proc.devRef .tc main_arg15) := rfl
theorem val0_main_arg16 (V0 : Valuation τ sig (Elt F)) : val0 V0 (no_index (Proc.devRef .tc main_arg16)) = V0 (Proc.devRef .tc main_arg16) := rfl
theorem val0_main_arg17 (V0 : Valuation τ sig (Elt F)) : val0 V0 (no_index (Proc.devRef .tc main_arg17)) = V0 (Proc.devRef .tc main_arg17) := rfl
theorem val0_main_arg18 (V0 : Valuation τ sig (Elt F)) : val0 V0 (no_index (Proc.devRef .tc main_arg18)) = V0 (Proc.devRef .tc main_arg18) := rfl

/-- The device's buffer contents after the first 1 window. -/
def val1 (V0 : Valuation τ sig (Elt F)) : Valuation τ sig (Elt F) := after ops0 (val0 V0)
/-- The buffers that window 1's operations write. -/
abbrev ops0_W : List (Ref sig .tc) := [main_v0, main_c, main_v1, main_v2, main_c_0, main_v3, main_v4, main_v5, main_v6, main_v7, main_v8, main_v9, main_v10, main_v11, main_cst, main_v12, main_cst_1, main_v13, main_v14, main_v15, main_v16, main_v17, main_v18, main_v19, main_cst_2, main_call0_cst, main_call0_v0, main_call0_v1, main_call0_v2, main_call0_v3, main_call0_v4, main_v20]
set_option maxRecDepth 8192 in
theorem ops0_writes : (ops0 : List (HloOp τ sig (Elt F))).Forall fun op => op.writes ⊆ (ops0_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that window 1 does not write keeps its contents through it. -/
theorem val1_keep (V0 : Valuation τ sig (Elt F)) (r : Ref sig .tc) (h : r ∉ ops0_W) :
    val1 V0 (Proc.devRef .tc r) = val0 V0 (Proc.devRef .tc r) :=
  after_of_writes_sub ops0 _ ops0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
theorem val1_main_arg10 (V0 : Valuation τ sig (Elt F)) : val1 V0 (no_index (Proc.devRef .tc main_arg10)) = V0 (Proc.devRef .tc main_arg10) :=
  (val1_keep V0 main_arg10 (by decide)).trans (val0_main_arg10 V0)
theorem val1_main_arg11 (V0 : Valuation τ sig (Elt F)) : val1 V0 (no_index (Proc.devRef .tc main_arg11)) = V0 (Proc.devRef .tc main_arg11) :=
  (val1_keep V0 main_arg11 (by decide)).trans (val0_main_arg11 V0)
theorem val1_main_arg12 (V0 : Valuation τ sig (Elt F)) : val1 V0 (no_index (Proc.devRef .tc main_arg12)) = V0 (Proc.devRef .tc main_arg12) :=
  (val1_keep V0 main_arg12 (by decide)).trans (val0_main_arg12 V0)
theorem val1_main_arg13 (V0 : Valuation τ sig (Elt F)) : val1 V0 (no_index (Proc.devRef .tc main_arg13)) = V0 (Proc.devRef .tc main_arg13) :=
  (val1_keep V0 main_arg13 (by decide)).trans (val0_main_arg13 V0)
theorem val1_main_arg14 (V0 : Valuation τ sig (Elt F)) : val1 V0 (no_index (Proc.devRef .tc main_arg14)) = V0 (Proc.devRef .tc main_arg14) :=
  (val1_keep V0 main_arg14 (by decide)).trans (val0_main_arg14 V0)
theorem val1_main_arg15 (V0 : Valuation τ sig (Elt F)) : val1 V0 (no_index (Proc.devRef .tc main_arg15)) = V0 (Proc.devRef .tc main_arg15) :=
  (val1_keep V0 main_arg15 (by decide)).trans (val0_main_arg15 V0)
theorem val1_main_arg16 (V0 : Valuation τ sig (Elt F)) : val1 V0 (no_index (Proc.devRef .tc main_arg16)) = V0 (Proc.devRef .tc main_arg16) :=
  (val1_keep V0 main_arg16 (by decide)).trans (val0_main_arg16 V0)
theorem val1_main_arg17 (V0 : Valuation τ sig (Elt F)) : val1 V0 (no_index (Proc.devRef .tc main_arg17)) = V0 (Proc.devRef .tc main_arg17) :=
  (val1_keep V0 main_arg17 (by decide)).trans (val0_main_arg17 V0)
theorem val1_main_arg18 (V0 : Valuation τ sig (Elt F)) : val1 V0 (no_index (Proc.devRef .tc main_arg18)) = V0 (Proc.devRef .tc main_arg18) :=
  (val1_keep V0 main_arg18 (by decide)).trans (val0_main_arg18 V0)
set_option maxRecDepth 8192 in
set_option maxHeartbeats 4000000 in
/-- The first round's neighbour rows: the window's operations composed, each earlier buffer at its own term. -/
theorem val1_main_v7 (V0 : Valuation τ sig (Elt F)) : val1 V0 (no_index (Proc.devRef .tc main_v7)) = neighbours (V0 (Proc.devRef .tc main_arg0)) (V0 (Proc.devRef .tc main_arg1)) := by
  unfold val1
  simp only [ops0]
  after_results_simp
  simp only [val0_main_arg0, val0_main_arg1] <;> rfl

/-- The device's buffer contents after the first 2 windows. -/
def val2 (V0 : Valuation τ sig (Elt F)) : Valuation τ sig (Elt F) := after ops1 (val1 V0)
/-- The buffers that window 2's operations write. -/
abbrev ops1_W : List (Ref sig .tc) := [main_cst_3, main_v21, main_v22, main_v23, main_v24, main_v25, main_v26, main_v27, main_cst_4, main_call1_cst, main_call1_v0, main_call1_v1, main_call1_v2, main_call1_v3, main_call1_v4, main_v28, main_v29, main_v30, main_v31, main_v32, main_v33, main_v34, main_v35, main_v36, main_cst_5, main_v37, main_cst_6, main_v38, main_v39]
set_option maxRecDepth 8192 in
theorem ops1_writes : (ops1 : List (HloOp τ sig (Elt F))).Forall fun op => op.writes ⊆ (ops1_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that window 2 does not write keeps its contents through it. -/
theorem val2_keep (V0 : Valuation τ sig (Elt F)) (r : Ref sig .tc) (h : r ∉ ops1_W) :
    val2 V0 (Proc.devRef .tc r) = val1 V0 (Proc.devRef .tc r) :=
  after_of_writes_sub ops1 _ ops1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val2_main_arg11 (V0 : Valuation τ sig (Elt F)) : val2 V0 (no_index (Proc.devRef .tc main_arg11)) = V0 (Proc.devRef .tc main_arg11) :=
  (val2_keep V0 main_arg11 (by decide)).trans (val1_main_arg11 V0)
theorem val2_main_arg12 (V0 : Valuation τ sig (Elt F)) : val2 V0 (no_index (Proc.devRef .tc main_arg12)) = V0 (Proc.devRef .tc main_arg12) :=
  (val2_keep V0 main_arg12 (by decide)).trans (val1_main_arg12 V0)
theorem val2_main_arg13 (V0 : Valuation τ sig (Elt F)) : val2 V0 (no_index (Proc.devRef .tc main_arg13)) = V0 (Proc.devRef .tc main_arg13) :=
  (val2_keep V0 main_arg13 (by decide)).trans (val1_main_arg13 V0)
theorem val2_main_arg14 (V0 : Valuation τ sig (Elt F)) : val2 V0 (no_index (Proc.devRef .tc main_arg14)) = V0 (Proc.devRef .tc main_arg14) :=
  (val2_keep V0 main_arg14 (by decide)).trans (val1_main_arg14 V0)
theorem val2_main_arg15 (V0 : Valuation τ sig (Elt F)) : val2 V0 (no_index (Proc.devRef .tc main_arg15)) = V0 (Proc.devRef .tc main_arg15) :=
  (val2_keep V0 main_arg15 (by decide)).trans (val1_main_arg15 V0)
theorem val2_main_arg16 (V0 : Valuation τ sig (Elt F)) : val2 V0 (no_index (Proc.devRef .tc main_arg16)) = V0 (Proc.devRef .tc main_arg16) :=
  (val2_keep V0 main_arg16 (by decide)).trans (val1_main_arg16 V0)
theorem val2_main_arg17 (V0 : Valuation τ sig (Elt F)) : val2 V0 (no_index (Proc.devRef .tc main_arg17)) = V0 (Proc.devRef .tc main_arg17) :=
  (val2_keep V0 main_arg17 (by decide)).trans (val1_main_arg17 V0)
theorem val2_main_arg18 (V0 : Valuation τ sig (Elt F)) : val2 V0 (no_index (Proc.devRef .tc main_arg18)) = V0 (Proc.devRef .tc main_arg18) :=
  (val2_keep V0 main_arg18 (by decide)).trans (val1_main_arg18 V0)
theorem val2_main_v7 (V0 : Valuation τ sig (Elt F)) : val2 V0 (no_index (Proc.devRef .tc main_v7)) = neighbours (V0 (Proc.devRef .tc main_arg0)) (V0 (Proc.devRef .tc main_arg1)) :=
  (val2_keep V0 main_v7 (by decide)).trans (val1_main_v7 V0)

/-- The device's buffer contents after the first 3 windows. -/
def val3 (V0 : Valuation τ sig (Elt F)) : Valuation τ sig (Elt F) := after ops2 (val2 V0)
/-- The buffers that window 3's operations write. -/
abbrev ops2_W : List (Ref sig .tc) := [main_v40, main_v41, main_v42, main_v43, main_cst_7, main_v44, main_cst_8, main_v45, main_v46, main_v47, main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v48]
set_option maxRecDepth 8192 in
theorem ops2_writes : (ops2 : List (HloOp τ sig (Elt F))).Forall fun op => op.writes ⊆ (ops2_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that window 3 does not write keeps its contents through it. -/
theorem val3_keep (V0 : Valuation τ sig (Elt F)) (r : Ref sig .tc) (h : r ∉ ops2_W) :
    val3 V0 (Proc.devRef .tc r) = val2 V0 (Proc.devRef .tc r) :=
  after_of_writes_sub ops2 _ ops2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_main_arg11 V0)
theorem val3_main_arg12 (V0 : Valuation τ sig (Elt F)) : val3 V0 (no_index (Proc.devRef .tc main_arg12)) = V0 (Proc.devRef .tc main_arg12) :=
  (val3_keep V0 main_arg12 (by decide)).trans (val2_main_arg12 V0)
theorem val3_main_arg13 (V0 : Valuation τ sig (Elt F)) : val3 V0 (no_index (Proc.devRef .tc main_arg13)) = V0 (Proc.devRef .tc main_arg13) :=
  (val3_keep V0 main_arg13 (by decide)).trans (val2_main_arg13 V0)
theorem val3_main_arg14 (V0 : Valuation τ sig (Elt F)) : val3 V0 (no_index (Proc.devRef .tc main_arg14)) = V0 (Proc.devRef .tc main_arg14) :=
  (val3_keep V0 main_arg14 (by decide)).trans (val2_main_arg14 V0)
theorem val3_main_arg15 (V0 : Valuation τ sig (Elt F)) : val3 V0 (no_index (Proc.devRef .tc main_arg15)) = V0 (Proc.devRef .tc main_arg15) :=
  (val3_keep V0 main_arg15 (by decide)).trans (val2_main_arg15 V0)
theorem val3_main_arg16 (V0 : Valuation τ sig (Elt F)) : val3 V0 (no_index (Proc.devRef .tc main_arg16)) = V0 (Proc.devRef .tc main_arg16) :=
  (val3_keep V0 main_arg16 (by decide)).trans (val2_main_arg16 V0)
theorem val3_main_arg17 (V0 : Valuation τ sig (Elt F)) : val3 V0 (no_index (Proc.devRef .tc main_arg17)) = V0 (Proc.devRef .tc main_arg17) :=
  (val3_keep V0 main_arg17 (by decide)).trans (val2_main_arg17 V0)
theorem val3_main_arg18 (V0 : Valuation τ sig (Elt F)) : val3 V0 (no_index (Proc.devRef .tc main_arg18)) = V0 (Proc.devRef .tc main_arg18) :=
  (val3_keep V0 main_arg18 (by decide)).trans (val2_main_arg18 V0)
set_option maxRecDepth 8192 in
set_option maxHeartbeats 4000000 in
/-- The hidden layer: the window's operations composed, each earlier buffer at its own term. -/
theorem val3_main_v48 (V0 : Valuation τ sig (Elt F)) : val3 V0 (no_index (Proc.devRef .tc main_v48)) = hidden (V0 (Proc.devRef .tc main_arg0)) (V0 (Proc.devRef .tc main_arg1)) (V0 (Proc.devRef .tc main_arg3)) (V0 (Proc.devRef .tc main_arg7)) := by
  unfold val3
  simp only [ops2]
  after_results_simp
  simp only [val2_main_v7, val2_main_arg3, val2_main_arg7] <;> rfl

/-- The device's buffer contents after the first 4 windows. -/
def val4 (V0 : Valuation τ sig (Elt F)) : Valuation τ sig (Elt F) := after ops3 (val3 V0)
/-- The buffers that window 4's operations write. -/
abbrev ops3_W : List (Ref sig .tc) := [main_v49, main_c_9, main_v50, main_v51, main_c_10, main_v52, main_v53, main_v54, main_v55, main_v56, main_v57, main_v58, main_v59, main_v60, main_cst_11, main_v61, main_cst_12, main_v62, main_v63, main_v64, main_v65, main_v66, main_v67, main_v68, main_cst_13, main_call3_cst, main_call3_v0, main_call3_v1, main_call3_v2, main_call3_v3, main_call3_v4, main_v69]
set_option maxRecDepth 8192 in
theorem ops3_writes : (ops3 : List (HloOp τ sig (Elt F))).Forall fun op => op.writes ⊆ (ops3_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that window 4 does not write keeps its contents through it. -/
theorem val4_keep (V0 : Valuation τ sig (Elt F)) (r : Ref sig .tc) (h : r ∉ ops3_W) :
    val4 V0 (Proc.devRef .tc r) = val3 V0 (Proc.devRef .tc r) :=
  after_of_writes_sub ops3 _ ops3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
theorem val4_main_arg11 (V0 : Valuation τ sig (Elt F)) : val4 V0 (no_index (Proc.devRef .tc main_arg11)) = V0 (Proc.devRef .tc main_arg11) :=
  (val4_keep V0 main_arg11 (by decide)).trans (val3_main_arg11 V0)
theorem val4_main_arg12 (V0 : Valuation τ sig (Elt F)) : val4 V0 (no_index (Proc.devRef .tc main_arg12)) = V0 (Proc.devRef .tc main_arg12) :=
  (val4_keep V0 main_arg12 (by decide)).trans (val3_main_arg12 V0)
theorem val4_main_arg13 (V0 : Valuation τ sig (Elt F)) : val4 V0 (no_index (Proc.devRef .tc main_arg13)) = V0 (Proc.devRef .tc main_arg13) :=
  (val4_keep V0 main_arg13 (by decide)).trans (val3_main_arg13 V0)
theorem val4_main_arg14 (V0 : Valuation τ sig (Elt F)) : val4 V0 (no_index (Proc.devRef .tc main_arg14)) = V0 (Proc.devRef .tc main_arg14) :=
  (val4_keep V0 main_arg14 (by decide)).trans (val3_main_arg14 V0)
theorem val4_main_arg15 (V0 : Valuation τ sig (Elt F)) : val4 V0 (no_index (Proc.devRef .tc main_arg15)) = V0 (Proc.devRef .tc main_arg15) :=
  (val4_keep V0 main_arg15 (by decide)).trans (val3_main_arg15 V0)
theorem val4_main_arg16 (V0 : Valuation τ sig (Elt F)) : val4 V0 (no_index (Proc.devRef .tc main_arg16)) = V0 (Proc.devRef .tc main_arg16) :=
  (val4_keep V0 main_arg16 (by decide)).trans (val3_main_arg16 V0)
theorem val4_main_arg17 (V0 : Valuation τ sig (Elt F)) : val4 V0 (no_index (Proc.devRef .tc main_arg17)) = V0 (Proc.devRef .tc main_arg17) :=
  (val4_keep V0 main_arg17 (by decide)).trans (val3_main_arg17 V0)
theorem val4_main_arg18 (V0 : Valuation τ sig (Elt F)) : val4 V0 (no_index (Proc.devRef .tc main_arg18)) = V0 (Proc.devRef .tc main_arg18) :=
  (val4_keep V0 main_arg18 (by decide)).trans (val3_main_arg18 V0)
set_option maxRecDepth 8192 in
set_option maxHeartbeats 4000000 in
/-- The second round's neighbour rows, gathered from the hidden layer: the window's operations composed, each earlier buffer at its own term. -/
theorem val4_main_v56 (V0 : Valuation τ sig (Elt F)) : val4 V0 (no_index (Proc.devRef .tc main_v56)) = neighbours (hidden (V0 (Proc.devRef .tc main_arg0)) (V0 (Proc.devRef .tc main_arg1)) (V0 (Proc.devRef .tc main_arg3)) (V0 (Proc.devRef .tc main_arg7))) (V0 (Proc.devRef .tc main_arg4)) := by
  unfold val4
  simp only [ops3]
  after_results_simp
  simp only [val3_main_v48, val3_main_arg4] <;> rfl

/-- The device's buffer contents after the first 5 windows. -/
def val5 (V0 : Valuation τ sig (Elt F)) : Valuation τ sig (Elt F) := after ops4 (val4 V0)
/-- The buffers that window 5's operations write. -/
abbrev ops4_W : List (Ref sig .tc) := [main_cst_14, main_v70, main_v71, main_v72, main_v73, main_v74, main_v75, main_v76, main_cst_15, main_call4_cst, main_call4_v0, main_call4_v1, main_call4_v2, main_call4_v3, main_call4_v4, main_v77, main_v78, main_v79, main_v80, main_v81, main_v82, main_v83, main_v84, main_v85, main_cst_16, main_v86, main_cst_17, main_v87, main_v88]
set_option maxRecDepth 8192 in
theorem ops4_writes : (ops4 : List (HloOp τ sig (Elt F))).Forall fun op => op.writes ⊆ (ops4_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that window 5 does not write keeps its contents through it. -/
theorem val5_keep (V0 : Valuation τ sig (Elt F)) (r : Ref sig .tc) (h : r ∉ ops4_W) :
    val5 V0 (Proc.devRef .tc r) = val4 V0 (Proc.devRef .tc r) :=
  after_of_writes_sub ops4 _ ops4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
theorem val5_main_arg9 (V0 : Valuation τ sig (Elt F)) : val5 V0 (no_index (Proc.devRef .tc main_arg9)) = V0 (Proc.devRef .tc main_arg9) :=
  (val5_keep V0 main_arg9 (by decide)).trans (val4_main_arg9 V0)
theorem val5_main_arg10 (V0 : Valuation τ sig (Elt F)) : val5 V0 (no_index (Proc.devRef .tc main_arg10)) = V0 (Proc.devRef .tc main_arg10) :=
  (val5_keep V0 main_arg10 (by decide)).trans (val4_main_arg10 V0)
theorem val5_main_arg11 (V0 : Valuation τ sig (Elt F)) : val5 V0 (no_index (Proc.devRef .tc main_arg11)) = V0 (Proc.devRef .tc main_arg11) :=
  (val5_keep V0 main_arg11 (by decide)).trans (val4_main_arg11 V0)
theorem val5_main_arg12 (V0 : Valuation τ sig (Elt F)) : val5 V0 (no_index (Proc.devRef .tc main_arg12)) = V0 (Proc.devRef .tc main_arg12) :=
  (val5_keep V0 main_arg12 (by decide)).trans (val4_main_arg12 V0)
theorem val5_main_arg13 (V0 : Valuation τ sig (Elt F)) : val5 V0 (no_index (Proc.devRef .tc main_arg13)) = V0 (Proc.devRef .tc main_arg13) :=
  (val5_keep V0 main_arg13 (by decide)).trans (val4_main_arg13 V0)
theorem val5_main_arg14 (V0 : Valuation τ sig (Elt F)) : val5 V0 (no_index (Proc.devRef .tc main_arg14)) = V0 (Proc.devRef .tc main_arg14) :=
  (val5_keep V0 main_arg14 (by decide)).trans (val4_main_arg14 V0)
theorem val5_main_arg15 (V0 : Valuation τ sig (Elt F)) : val5 V0 (no_index (Proc.devRef .tc main_arg15)) = V0 (Proc.devRef .tc main_arg15) :=
  (val5_keep V0 main_arg15 (by decide)).trans (val4_main_arg15 V0)
theorem val5_main_arg16 (V0 : Valuation τ sig (Elt F)) : val5 V0 (no_index (Proc.devRef .tc main_arg16)) = V0 (Proc.devRef .tc main_arg16) :=
  (val5_keep V0 main_arg16 (by decide)).trans (val4_main_arg16 V0)
theorem val5_main_arg17 (V0 : Valuation τ sig (Elt F)) : val5 V0 (no_index (Proc.devRef .tc main_arg17)) = V0 (Proc.devRef .tc main_arg17) :=
  (val5_keep V0 main_arg17 (by decide)).trans (val4_main_arg17 V0)
theorem val5_main_arg18 (V0 : Valuation τ sig (Elt F)) : val5 V0 (no_index (Proc.devRef .tc main_arg18)) = V0 (Proc.devRef .tc main_arg18) :=
  (val5_keep V0 main_arg18 (by decide)).trans (val4_main_arg18 V0)
theorem val5_main_v56 (V0 : Valuation τ sig (Elt F)) : val5 V0 (no_index (Proc.devRef .tc main_v56)) = neighbours (hidden (V0 (Proc.devRef .tc main_arg0)) (V0 (Proc.devRef .tc main_arg1)) (V0 (Proc.devRef .tc main_arg3)) (V0 (Proc.devRef .tc main_arg7))) (V0 (Proc.devRef .tc main_arg4)) :=
  (val5_keep V0 main_v56 (by decide)).trans (val4_main_v56 V0)

/-- The device's buffer contents after the first 6 windows. -/
def val6 (V0 : Valuation τ sig (Elt F)) : Valuation τ sig (Elt F) := after ops5 (val5 V0)
/-- The buffers that window 6's operations write. -/
abbrev ops5_W : List (Ref sig .tc) := [main_v89, main_v90, main_v91, main_v92, main_cst_18, main_v93, main_cst_19, main_v94, main_v95, main_v96]
set_option maxRecDepth 8192 in
theorem ops5_writes : (ops5 : List (HloOp τ sig (Elt F))).Forall fun op => op.writes ⊆ (ops5_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that window 6 does not write keeps its contents through it. -/
theorem val6_keep (V0 : Valuation τ sig (Elt F)) (r : Ref sig .tc) (h : r ∉ ops5_W) :
    val6 V0 (Proc.devRef .tc r) = val5 V0 (Proc.devRef .tc r) :=
  after_of_writes_sub ops5 _ ops5_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_arg8 (V0 : Valuation τ sig (Elt F)) : val6 V0 (no_index (Proc.devRef .tc main_arg8)) = V0 (Proc.devRef .tc main_arg8) :=
  (val6_keep V0 main_arg8 (by decide)).trans (val5_main_arg8 V0)
theorem val6_main_arg9 (V0 : Valuation τ sig (Elt F)) : val6 V0 (no_index (Proc.devRef .tc main_arg9)) = V0 (Proc.devRef .tc main_arg9) :=
  (val6_keep V0 main_arg9 (by decide)).trans (val5_main_arg9 V0)
theorem val6_main_arg10 (V0 : Valuation τ sig (Elt F)) : val6 V0 (no_index (Proc.devRef .tc main_arg10)) = V0 (Proc.devRef .tc main_arg10) :=
  (val6_keep V0 main_arg10 (by decide)).trans (val5_main_arg10 V0)
theorem val6_main_arg11 (V0 : Valuation τ sig (Elt F)) : val6 V0 (no_index (Proc.devRef .tc main_arg11)) = V0 (Proc.devRef .tc main_arg11) :=
  (val6_keep V0 main_arg11 (by decide)).trans (val5_main_arg11 V0)
theorem val6_main_arg12 (V0 : Valuation τ sig (Elt F)) : val6 V0 (no_index (Proc.devRef .tc main_arg12)) = V0 (Proc.devRef .tc main_arg12) :=
  (val6_keep V0 main_arg12 (by decide)).trans (val5_main_arg12 V0)
theorem val6_main_arg13 (V0 : Valuation τ sig (Elt F)) : val6 V0 (no_index (Proc.devRef .tc main_arg13)) = V0 (Proc.devRef .tc main_arg13) :=
  (val6_keep V0 main_arg13 (by decide)).trans (val5_main_arg13 V0)
theorem val6_main_arg14 (V0 : Valuation τ sig (Elt F)) : val6 V0 (no_index (Proc.devRef .tc main_arg14)) = V0 (Proc.devRef .tc main_arg14) :=
  (val6_keep V0 main_arg14 (by decide)).trans (val5_main_arg14 V0)
theorem val6_main_arg15 (V0 : Valuation τ sig (Elt F)) : val6 V0 (no_index (Proc.devRef .tc main_arg15)) = V0 (Proc.devRef .tc main_arg15) :=
  (val6_keep V0 main_arg15 (by decide)).trans (val5_main_arg15 V0)
theorem val6_main_arg16 (V0 : Valuation τ sig (Elt F)) : val6 V0 (no_index (Proc.devRef .tc main_arg16)) = V0 (Proc.devRef .tc main_arg16) :=
  (val6_keep V0 main_arg16 (by decide)).trans (val5_main_arg16 V0)
theorem val6_main_arg17 (V0 : Valuation τ sig (Elt F)) : val6 V0 (no_index (Proc.devRef .tc main_arg17)) = V0 (Proc.devRef .tc main_arg17) :=
  (val6_keep V0 main_arg17 (by decide)).trans (val5_main_arg17 V0)
theorem val6_main_arg18 (V0 : Valuation τ sig (Elt F)) : val6 V0 (no_index (Proc.devRef .tc main_arg18)) = V0 (Proc.devRef .tc main_arg18) :=
  (val6_keep V0 main_arg18 (by decide)).trans (val5_main_arg18 V0)
set_option maxRecDepth 8192 in
set_option maxHeartbeats 4000000 in
/-- The returned value: the window's operations composed, each earlier buffer at its own term. -/
theorem val6_main_v96 (V0 : Valuation τ sig (Elt F)) : val6 V0 (no_index (Proc.devRef .tc main_v96)) = refOut (V0 (Proc.devRef .tc main_arg0)) (V0 (Proc.devRef .tc main_arg1)) (V0 (Proc.devRef .tc main_arg3)) (V0 (Proc.devRef .tc main_arg4)) (V0 (Proc.devRef .tc main_arg6)) (V0 (Proc.devRef .tc main_arg7)) (V0 (Proc.devRef .tc main_arg8)) := by
  unfold val6
  simp only [ops5]
  after_results_simp
  simp only [val5_main_v56, val5_main_arg6, val5_main_arg8] <;> rfl

/-- The whole line's fold is the windows' folds in turn. -/
theorem after_ops (V0 : Valuation τ sig (Elt F)) : after ops V0 = val6 V0 := by
  simp only [ops, after_append]
  rfl

/-! ## The run -/

/-- On every device, for any float values, from any memory with zero counters: every weakly fair execution of @main terminates
    with the returned buffer at `refOut` of the arguments' launch contents and the nineteen arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v96) = refOut (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_v96).trans (by simp only [after_ops]; exact val6_main_v96 (launchContents m c)),
      (h c main_arg0).trans (by simp only [after_ops]; exact val6_main_arg0 (launchContents m c)),
      (h c main_arg1).trans (by simp only [after_ops]; exact val6_main_arg1 (launchContents m c)),
      (h c main_arg2).trans (by simp only [after_ops]; exact val6_main_arg2 (launchContents m c)),
      (h c main_arg3).trans (by simp only [after_ops]; exact val6_main_arg3 (launchContents m c)),
      (h c main_arg4).trans (by simp only [after_ops]; exact val6_main_arg4 (launchContents m c)),
      (h c main_arg5).trans (by simp only [after_ops]; exact val6_main_arg5 (launchContents m c)),
      (h c main_arg6).trans (by simp only [after_ops]; exact val6_main_arg6 (launchContents m c)),
      (h c main_arg7).trans (by simp only [after_ops]; exact val6_main_arg7 (launchContents m c)),
      (h c main_arg8).trans (by simp only [after_ops]; exact val6_main_arg8 (launchContents m c)),
      (h c main_arg9).trans (by simp only [after_ops]; exact val6_main_arg9 (launchContents m c)),
      (h c main_arg10).trans (by simp only [after_ops]; exact val6_main_arg10 (launchContents m c)),
      (h c main_arg11).trans (by simp only [after_ops]; exact val6_main_arg11 (launchContents m c)),
      (h c main_arg12).trans (by simp only [after_ops]; exact val6_main_arg12 (launchContents m c)),
      (h c main_arg13).trans (by simp only [after_ops]; exact val6_main_arg13 (launchContents m c)),
      (h c main_arg14).trans (by simp only [after_ops]; exact val6_main_arg14 (launchContents m c)),
      (h c main_arg15).trans (by simp only [after_ops]; exact val6_main_arg15 (launchContents m c)),
      (h c main_arg16).trans (by simp only [after_ops]; exact val6_main_arg16 (launchContents m c)),
      (h c main_arg17).trans (by simp only [after_ops]; exact val6_main_arg17 (launchContents m c)),
      (h c main_arg18).trans (by simp only [after_ops]; exact val6_main_arg18 (launchContents m c))⟩)
    (run_seq scopedRefs_eq scopedSems_eq defs main (fun _ => ops) main_eq (fun _ => ops_sub) m ρ)

end Cert.ReferenceIdeal.RefRun

end
-- ==== Proof.RefRead.lean ====
/- The reference's returned value read at an index (n, c), over the extended reals: every operation of its composed
   term replaced by what it is at one index — a gather of rows by the row it names, a broadcast or a slice by the operand's
   index it reads, the sum over the neighbour axis and the two matrix products by finite sums, the division and the
   exponential linear unit entry by entry — until the term is the nested sum `outMeanFirst` of `hidDivided`. -/
import proofs.«141793_j68109591380388_2_alg».proof.Proof.RefRun
import proofs.«141793_j68109591380388_2_alg».proof.Proof.Layers
import proofs.«141793_j68109591380388_2_alg».proof.Proof.GatherRows
import Idealize.ShloMosaic.PureOps.Ideal.Laws
import Idealize.ShloMosaic.Lib.ValueIdx
import Idealize.ShloMosaic.Lib.Pipeline.Value

noncomputable section

namespace Cert.ReferenceIdeal.RefRead

open Cert.ReferenceIdeal Cert.ReferenceIdeal.Gen Cert.ReferenceIdeal.RefRun Cert.GraphLayers Idealize.ShloMosaic Idealize.ShloMosaic.ValueIdx

/-! ### The pointwise and layout pieces -/

/-- The unit entry by entry. -/
theorem elu_apply (x : (⟨S50000x128, .f32⟩ : BufTy).Contents (Elt Ideal)) (i : S50000x128.Idx) : elu (F := Ideal) x i = eluWhere (x i) := rfl

/-- The repeated weights at (n, k, f) are the sliced table at (n, k). -/
theorem weights_apply (w : (⟨S50000x17, .f32⟩ : BufTy).Contents (Elt Ideal)) (n : Fin 50000) (k : Fin 16) (f : Fin 128) :
    weights (F := Ideal) w (ix3 n k f) = (extractStridedSlice S50000x16 ![0, 1] w slices_S50000x17_S50000x16_0_1) (ix2 n k) := by
  unfold weights
  rw [broadcastInDim_apply _ _ _ (ix3 n k f) (ix3 n k (0 : Fin 1)) (fun a => by
      match a with
      | ⟨0, _⟩ => rfl
      | ⟨1, _⟩ => rfl
      | ⟨2, _⟩ => rfl),
    broadcastInDim_apply _ _ _ (ix3 n k (0 : Fin 1)) (ix2 n k) (fun a => by
      match a with
      | ⟨0, _⟩ => rfl
      | ⟨1, _⟩ => rfl)]

/-- The gathered rows at (n, k, f): the table at the row the start index names, column f. -/
theorem neighbours_apply (t : (⟨S50000x128, .f32⟩ : BufTy).Contents (Elt Ideal)) (idx : (⟨S50000x17, .i32⟩ : BufTy).Contents (Elt Ideal)) (n : Fin 50000) (k : Fin 16)
    (f : Fin 128) : neighbours (F := Ideal) t idx (ix3 n k f) = t (ix2 (rowOf (startIdx idx) n k) f) :=
  Cert.GatherRows.gather_rows_apply _ rfl rfl rfl rfl rfl rfl t (startIdx idx) n k f

/-- The weighted neighbour mean at (n, f): the sum over the sixteen neighbours, divided by 16. -/
theorem nbrMean_apply (t : (⟨S50000x128, .f32⟩ : BufTy).Contents (Elt Ideal)) (idx : (⟨S50000x17, .i32⟩ : BufTy).Contents (Elt Ideal)) (w : (⟨S50000x17, .f32⟩ : BufTy).Contents (Elt Ideal))
    (n : Fin 50000) (f : Fin 128) :
    nbrMean (F := Ideal) t idx w (ix2 n f)
      = Ideal.div (∑ k : Fin 16, t (ix2 (rowOf (startIdx idx) n k) f) * (extractStridedSlice S50000x16 ![0, 1] w slices_S50000x17_S50000x16_0_1) (ix2 n k))
          (Ideal.ofBits .f32 0x41800000#32) := by
  unfold nbrMean
  show Ideal.div (Host.reduceAdd (F := Ideal) (mulf (neighbours t idx) (weights w)) (constant S_ .f32 0x00000000#32)
      reducesTo_S50000x16x128_S50000x128_d1 h_S_ (ix2 n f)) (Ideal.ofBits .f32 0x41800000#32) = _
  refine congrArg (fun z => Ideal.div z (Ideal.ofBits .f32 0x41800000#32)) ?_
  simp only [Host.reduceAdd, Ideal.hostReduceAdd_def]
  rw [Ideal.hostReduceAdd_single reducesTo_S50000x16x128_S50000x128_d1 (by decide)]
  show Ideal.ofBits .f32 0x00000000#32 + _ = _
  rw [lit_zero, zero_add]
  refine Finset.sum_congr rfl fun (k : Fin 16) _ => ?_
  have e : (Shape.Reduces.lift (by decide : S50000x16x128.Reduces [1] S50000x128) (ix2 n f) k) = ix3 n k f :=
    funext fun a => Fin.ext (by
      match a with
      | ⟨0, _⟩ => rfl
      | ⟨1, _⟩ => rfl
      | ⟨2, _⟩ => rfl)
  rw [e]
  show neighbours t idx (ix3 n k f) * weights w (ix3 n k f) = _
  rw [neighbours_apply, weights_apply]

/-! ### The product by the 128 × 128 matrix at an index -/

theorem dotA_lhs_0 (i : S50000x128.Idx) (q : dot_S50000x128_S128x128_S50000x128_1_0_0_1_n_n.contr.Idx) : (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem dotA_lhs_1 (i : S50000x128.Idx) (q : dot_S50000x128_S128x128_S50000x128_1_0_0_1_n_n.contr.Idx) : (dot_S50000x128_S128x128_S50000x128_1_0_0_1_n_n.lhsIdx i q 1).val = (q ⟨0, by decide⟩).val :=
  dot_S50000x128_S128x128_S50000x128_1_0_0_1_n_n.lhsIdx_val_of_single rfl i q
theorem dotA_rhs_0 (i : S50000x128.Idx) (q : dot_S50000x128_S128x128_S50000x128_1_0_0_1_n_n.contr.Idx) : (dot_S50000x128_S128x128_S50000x128_1_0_0_1_n_n.rhsIdx i q 0).val = (q ⟨0, by decide⟩).val :=
  dot_S50000x128_S128x128_S50000x128_1_0_0_1_n_n.rhsIdx_val_of_single rfl i q
theorem dotA_rhs_1 (i : S50000x128.Idx) (q : dot_S50000x128_S128x128_S50000x128_1_0_0_1_n_n.contr.Idx) : (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- Entry (n, c) of rows times the matrix: the sum over the 128 contracted coordinates. -/
theorem dotA_apply (l : FVec Ideal S50000x128 .f32) (r : FVec Ideal S128x128 .f32) (n : Fin 50000) (c : Fin 128) :
    Host.dotGeneral (F := Ideal) dot_S50000x128_S128x128_S50000x128_1_0_0_1_n_n none l r (ix2 n c) = ∑ f : Fin 128, l (ix2 n f) * r (ix2 f c) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 n c) ((contrEquiv1 dot_S50000x128_S128x128_S50000x128_1_0_0_1_n_n 128 rfl rfl).symm k) = ix2 n k := funext fun a => Fin.ext (by
    match a with
    | ⟨0, _⟩ => exact dotA_lhs_0 _ _
    | ⟨1, _⟩ => exact (dotA_lhs_1 _ _).trans hk)
  have er : dot_S50000x128_S128x128_S50000x128_1_0_0_1_n_n.rhsIdx (ix2 n c) ((contrEquiv1 dot_S50000x128_S128x128_S50000x128_1_0_0_1_n_n 128 rfl rfl).symm k) = ix2 k c := funext fun a => Fin.ext (by
    match a with
    | ⟨0, _⟩ => exact (dotA_rhs_0 _ _).trans hk
    | ⟨1, _⟩ => exact dotA_rhs_1 _ _)
  rw [el, er]

/-! ### The product by the 128 × 64 matrix at an index -/

theorem dotB_lhs_0 (i : S50000x64.Idx) (q : dot_S50000x128_S128x64_S50000x64_1_0_0_1_n_n.contr.Idx) : (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem dotB_lhs_1 (i : S50000x64.Idx) (q : dot_S50000x128_S128x64_S50000x64_1_0_0_1_n_n.contr.Idx) : (dot_S50000x128_S128x64_S50000x64_1_0_0_1_n_n.lhsIdx i q 1).val = (q ⟨0, by decide⟩).val :=
  dot_S50000x128_S128x64_S50000x64_1_0_0_1_n_n.lhsIdx_val_of_single rfl i q
theorem dotB_rhs_0 (i : S50000x64.Idx) (q : dot_S50000x128_S128x64_S50000x64_1_0_0_1_n_n.contr.Idx) : (dot_S50000x128_S128x64_S50000x64_1_0_0_1_n_n.rhsIdx i q 0).val = (q ⟨0, by decide⟩).val :=
  dot_S50000x128_S128x64_S50000x64_1_0_0_1_n_n.rhsIdx_val_of_single rfl i q
theorem dotB_rhs_1 (i : S50000x64.Idx) (q : dot_S50000x128_S128x64_S50000x64_1_0_0_1_n_n.contr.Idx) : (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- Entry (n, c) of rows times the matrix: the sum over the 128 contracted coordinates. -/
theorem dotB_apply (l : FVec Ideal S50000x128 .f32) (r : FVec Ideal S128x64 .f32) (n : Fin 50000) (c : Fin 64) :
    Host.dotGeneral (F := Ideal) dot_S50000x128_S128x64_S50000x64_1_0_0_1_n_n none l r (ix2 n c) = ∑ f : Fin 128, l (ix2 n f) * r (ix2 f c) := by
  simp only [Host.dotGeneral]
  rw [Ideal.dotGeneral_apply, ← Equiv.sum_comp (contrEquiv1 dot_S50000x128_S128x64_S50000x64_1_0_0_1_n_n 128 rfl rfl).symm]
  refine Finset.sum_congr rfl fun k _ => ?_
  have hk := contrEquiv1_symm_val dot_S50000x128_S128x64_S50000x64_1_0_0_1_n_n 128 rfl rfl k
  have el : dot_S50000x128_S128x64_S50000x64_1_0_0_1_n_n.lhsIdx (ix2 n c) ((contrEquiv1 dot_S50000x128_S128x64_S50000x64_1_0_0_1_n_n 128 rfl rfl).symm k) = ix2 n k := funext fun a => Fin.ext (by
    match a with
    | ⟨0, _⟩ => exact dotB_lhs_0 _ _
    | ⟨1, _⟩ => exact (dotB_lhs_1 _ _).trans hk)
  have er : dot_S50000x128_S128x64_S50000x64_1_0_0_1_n_n.rhsIdx (ix2 n c) ((contrEquiv1 dot_S50000x128_S128x64_S50000x64_1_0_0_1_n_n 128 rfl rfl).symm k) = ix2 k c := funext fun a => Fin.ext (by
    match a with
    | ⟨0, _⟩ => exact (dotB_rhs_0 _ _).trans hk
    | ⟨1, _⟩ => exact dotB_rhs_1 _ _)
  rw [el, er]

/-! ### The two layers -/

/-- The hidden layer at (n, h). -/
theorem hidden_apply (a0 : (⟨S50000x128, .f32⟩ : BufTy).Contents (Elt Ideal)) (a1 : (⟨S50000x17, .i32⟩ : BufTy).Contents (Elt Ideal)) (a3 : (⟨S50000x17, .f32⟩ : BufTy).Contents (Elt Ideal))
    (a7 : (⟨S128x128, .f32⟩ : BufTy).Contents (Elt Ideal)) (n : Fin 50000) (h : Fin 128) :
    RefRun.hidden (F := Ideal) a0 a1 a3 a7 (ix2 n h) = hidDivided a0 (rowOf (startIdx a1)) (extractStridedSlice S50000x16 ![0, 1] a3 slices_S50000x17_S50000x16_0_1) a7 n h := by
  unfold RefRun.hidden hidDivided wsum
  rw [elu_apply, dotA_apply]
  refine congrArg eluWhere (Finset.sum_congr rfl fun f _ => ?_)
  rw [nbrMean_apply]

/-- The returned value at (n, c). -/
theorem refOut_apply (a0 : (⟨S50000x128, .f32⟩ : BufTy).Contents (Elt Ideal)) (a1 : (⟨S50000x17, .i32⟩ : BufTy).Contents (Elt Ideal)) (a3 : (⟨S50000x17, .f32⟩ : BufTy).Contents (Elt Ideal))
    (a4 : (⟨S50000x17, .i32⟩ : BufTy).Contents (Elt Ideal)) (a6 : (⟨S50000x17, .f32⟩ : BufTy).Contents (Elt Ideal)) (a7 : (⟨S128x128, .f32⟩ : BufTy).Contents (Elt Ideal))
    (a8 : (⟨S128x64, .f32⟩ : BufTy).Contents (Elt Ideal)) (n : Fin 50000) (c : Fin 64) :
    refOut (F := Ideal) a0 a1 a3 a4 a6 a7 a8 (ix2 n c)
      = outMeanFirst (fun n' f => hidDivided a0 (rowOf (startIdx a1)) (extractStridedSlice S50000x16 ![0, 1] a3 slices_S50000x17_S50000x16_0_1) a7 n' f)
          (rowOf (startIdx a4)) (extractStridedSlice S50000x16 ![0, 1] a6 slices_S50000x17_S50000x16_0_1) a8 n c := by
  unfold refOut outMeanFirst
  rw [dotB_apply]
  refine Finset.sum_congr rfl fun f _ => ?_
  rw [nbrMean_apply]
  simp only [hidden_apply]

end Cert.ReferenceIdeal.RefRead

end
-- ==== Proof.FiniteInputs.lean ====
/-
  Finiteness of the float inputs, read back from the printed precondition. The precondition is the
  conjunction, over the float arguments, of "every entry x has |x| < +∞": each conjunct is a reduction
  by `and` (from the constant 1) of the elementwise comparison of |x| against the splat of the pattern
  0x7F800000, which at the extended reals denotes ⊤. An extended real whose absolute value max x (-x)
  lies strictly below ⊤ is neither ⊤ nor ⊥, hence a real number.
-/
import proofs.«141793_j68109591380388_2_alg».proof.Pre_finite_inputs
import Idealize.ShloMosaic.PureOps.Ideal
import Idealize.ShloMosaic.Lib.ReduceAll
import Idealize.ShloMosaic.Lib.ValueIdx

noncomputable section

open Idealize.ShloMosaic

namespace Cert.FiniteInputs

open Cert.Pre_finite_inputs

/-- A shape of rank 0 has exactly one index. -/
instance subsingleton_idx : Subsingleton S_.Idx := ⟨fun a b => funext fun d => d.elim0⟩

/-- One value: if |x| < +∞ holds (the comparison answers 1) then x is a real number. -/
theorem real_of_abs_lt_top (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  induction x using EReal.rec with
  | bot => simp [Ideal.cmp] at h
  | coe r => exact ⟨r, rfl⟩
  | top => simp [Ideal.cmp] at h

/-- One array: if the reduction by `and` of the entrywise test |x| < +∞ answers 1, every entry is a real number. -/
theorem all_real {s : Shape} {axes : List (Fin s.rank)} (x : FVec Ideal s .f32)
    (hb : S_.BroadcastsInDim s (![] : Fin 0 → Fin s.rank)) (hr : s.ReducesTo axes S_) (h0 : 0 < S_.numel)
    (init : IVec S_ 1) (j : S_.Idx)
    (h : Host.reduce IntOp.andi
          (cmpf .olt (Host.absf x) (broadcastInDim s ![] hb (constant S_ .f32 0x7F800000#32))) init hr h0 j = 1#1)
    (i : s.Idx) : ∃ r : ℝ, x i = (r : EReal) :=
  real_of_abs_lt_top (x i) (Host.reduce_andi_all _ init hr h0 j h i)

/-- A conjunction of two one-bit arrays that answers 1 at an index: both answer 1 there. -/
theorem andi_at {s : Shape} (x y : IVec s 1) (i : s.Idx) (h : andi x y i = 1#1) : x i = 1#1 ∧ y i = 1#1 :=
  IntOp.andi_eq_one.1 h

/-- The precondition gives: every entry of arguments 0, 3, 6, 7 and 8 is a real number. -/
theorem real_of_pre [Cert.Pre_finite_inputs.Facts] (a0 : FVec Ideal S50000x128 .f32) (a1 : IVec S50000x17 32) (a2 : FVec Ideal S50000x17 .f32) (a3 : FVec Ideal S50000x17 .f32) (a4 : IVec S50000x17 32) (a5 : FVec Ideal S50000x17 .f32) (a6 : FVec Ideal S50000x17 .f32) (a7 : FVec Ideal S128x128 .f32) (a8 : FVec Ideal S128x64 .f32) (a9 : FVec Ideal S128x128 .f32) (a10 : FVec Ideal S128x128 .f32) (a11 : FVec Ideal S128x128 .f32) (a12 : FVec Ideal S128x128 .f32) (a13 : FVec Ideal S128 .f32) (a14 : FVec Ideal S128x128 .f32) (a15 : FVec Ideal S128x128 .f32) (a16 : FVec Ideal S128x128 .f32) (a17 : FVec Ideal S128x128 .f32) (a18 : FVec Ideal S128 .f32)
    (h : Cert.Pre_finite_inputs.fn (F := Ideal) a0 a1 a2 a3 a4 a5 a6 a7 a8 a9 a10 a11 a12 a13 a14 a15 a16 a17 a18 = (fun _ => 1#1)) :
    (∀ i, ∃ r : ℝ, a0 i = (r : EReal)) ∧ (∀ i, ∃ r : ℝ, a3 i = (r : EReal)) ∧ (∀ i, ∃ r : ℝ, a6 i = (r : EReal))
      ∧ (∀ i, ∃ r : ℝ, a7 i = (r : EReal)) ∧ (∀ i, ∃ r : ℝ, a8 i = (r : EReal)) := by
  have h83 := congrFun h ValueIdx.ix0
  dsimp only [fn, fn_part1, fn_part2, fn_part3, fn_part4] at h83
  -- the conjunction is nested to the left: the last conjunct is outermost
  have h78 := (andi_at _ _ _ h83).1
  have h73 := (andi_at _ _ _ h78).1
  have h68 := (andi_at _ _ _ h73).1
  have h63 := (andi_at _ _ _ h68).1
  have h58 := (andi_at _ _ _ h63).1
  have h53 := (andi_at _ _ _ h58).1
  have h48 := (andi_at _ _ _ h53).1
  have h43 := (andi_at _ _ _ h48).1
  have h38 := (andi_at _ _ _ h43).1
  have h33 := (andi_at _ _ _ h38).1
  obtain ⟨h28, h32⟩ := andi_at _ _ _ h33
  obtain ⟨h23, h27⟩ := andi_at _ _ _ h28
  obtain ⟨h18, h22⟩ := andi_at _ _ _ h23
  have h13 := (andi_at _ _ _ h18).1
  obtain ⟨h8, h12⟩ := andi_at _ _ _ h13
  have h3 := (andi_at _ _ _ h8).1
  exact ⟨all_real a0 _ _ _ _ _ h3, all_real a3 _ _ _ _ _ h12, all_real a6 _ _ _ _ _ h22,
    all_real a7 _ _ _ _ _ h27, all_real a8 _ _ _ _ _ h32⟩

end Cert.FiniteInputs

end
-- ==== Proof.Bridge.lean ====
/- Two small facts joining the two programs' index-by-index readings: the two spellings of the two-layer aggregation agree
   on real inputs, and a slice of a table of reals is a table of reals. -/
import proofs.«141793_j68109591380388_2_alg».proof.Proof.Layers
import Idealize.ShloMosaic.PureOps.ShapeOps
import Idealize.ShloMosaic.Lib.ValueIdx

noncomputable section

namespace Cert.Bridge

open Idealize.ShloMosaic Idealize.ShloMosaic.ValueIdx Cert.GraphLayers

/-- Project-then-average over the layer spelt with a product by 1/16 and a minimum equals average-then-project over the
    layer spelt with a quotient by 16 and a selection: layer one's two spellings are one function, its entries are real
    on real inputs, and on real entries the projection commutes with the weighted mean of rows. -/
theorem spec_eq (x : Tab 50000 128) (row1 row2 : Fin 50000 → Fin 16 → Fin 50000) (w1 w2 : Tab 50000 16)
    (W1 : Tab 128 128) (W2 : Tab 128 64) (hx : IsReal x) (hw1 : IsReal w1) (hW1 : IsReal W1) (hw2 : IsReal w2)
    (hW2 : IsReal W2) (n : Fin 50000) (c : Fin 64) :
    outProjFirst (fun n' f => hidScaled x row1 w1 W1 n' f) row2 w2 W2 n c
      = outMeanFirst (fun n' f => hidDivided x row1 w1 W1 n' f) row2 w2 W2 n c := by
  have hh : ∀ n' f, ∃ r : ℝ, (fun n' f => hidScaled x row1 w1 W1 n' f) n' f = (r : EReal) :=
    fun n' f => hidScaled_real x row1 w1 W1 hx hw1 hW1 n' f
  rw [outProjFirst_eq_outMeanFirst _ row2 w2 W2 hh hw2 hW2 n c]
  have e : (fun n' f => hidScaled x row1 w1 W1 n' f) = (fun n' f => hidDivided x row1 w1 W1 n' f) :=
    funext fun n' => funext fun f => hidScaled_eq_hidDivided x row1 w1 W1 n' f
  rw [e]

/-- A slice reads each of its entries from one entry of the table: real when the table's entries are. -/
theorem slice_real {S T : Shape} (off : Fin S.rank → Nat) (a : S.Idx → EReal) (h : S.Slices off T)
    (ha : ∀ i, ∃ r : ℝ, a i = (r : EReal)) : IsReal (extractStridedSlice T off a h) :=
  fun _ => ha _

end Cert.Bridge

end
-- ==== Proof.lean ====
/-
  The certificate of a two-layer neighbour-aggregation network: a kernel program of three pipelined regions against a
  plain reference, equal as extended reals on finite inputs.

  Both programs gather, for each of 50000 nodes, 16 neighbour rows of a table (the start indices read signed, negative ones
  wrapped once by the table's height, then clamped into the table), weight them, and take their mean. Layer one multiplies
  the mean by a 128 x 128 matrix and applies the exponential linear unit; layer two takes the neighbour mean of layer one's
  rows and multiplies by a 128 x 64 matrix. The kernel program multiplies layer one's rows by the second matrix BEFORE
  gathering them (so that narrower rows are gathered) and writes the mean as a product with 1/16; the reference gathers
  first, divides by 16, and multiplies last. A product with 1/16 is a quotient by 16 on every extended real, the two
  spellings of the exponential linear unit are one function, and the exchange of the matrix product with the weighted mean
  of rows is linearity — valid where every entry is a real number, which the precondition (every float input finite)
  and the exponential's realness on reals give.

  The kernel program's run and result: Proof/KernelRun.lean (the run with every buffer named), Proof/HidRegion.lean,
  Proof/ProjRegion.lean, Proof/MeanRegion.lean (each region's output array as one function of the arrays it finds),
  Proof/KernelStart.lean and Proof/KernelHost.lean (the host stretches between the regions), Proof/KernelValue.lean (their
  composition). The reference's run and result: Proof/RefRun.lean, Proof/RefRead.lean. The mathematics: Proof/Layers.lean,
  Proof/Bridge.lean; a gather read at an index: Proof/GatherRows.lean; the inputs' finiteness: Proof/FiniteInputs.lean.
-/
import proofs.«141793_j68109591380388_2_alg».proof.Defs
import proofs.«141793_j68109591380388_2_alg».proof.Proof.Gen.Kernel
import proofs.«141793_j68109591380388_2_alg».proof.Proof.Gen.Kernel.Frame
import proofs.«141793_j68109591380388_2_alg».proof.Proof.Gen.KernelIdeal
import proofs.«141793_j68109591380388_2_alg».proof.Proof.Gen.KernelIdeal.Frame
import proofs.«141793_j68109591380388_2_alg».proof.Proof.Gen.ReferenceIdeal
import proofs.«141793_j68109591380388_2_alg».proof.Proof.Gen.Pre_finite_inputs
import proofs.«141793_j68109591380388_2_alg».proof.Proof.KernelValue
import proofs.«141793_j68109591380388_2_alg».proof.Proof.KernelHost
import proofs.«141793_j68109591380388_2_alg».proof.Proof.RefRun
import proofs.«141793_j68109591380388_2_alg».proof.Proof.RefRead
import proofs.«141793_j68109591380388_2_alg».proof.Proof.FiniteInputs
import proofs.«141793_j68109591380388_2_alg».proof.Proof.Bridge
import proofs.«141793_j68109591380388_2_alg».proof.Proof.Layers
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx Cert.GraphLayers

theorem frame_kernel : Cert.frame_Kernel := fun m ρ _ => Cert.Kernel.Gen.frame m ρ
theorem frame_kernelIdeal : Cert.frame_KernelIdeal := fun m ρ _ => Cert.KernelIdeal.Gen.frame m ρ
/-- The reference's frame is its run with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- On finite inputs the kernel program's result array is the reference's function of the same arguments: entry by entry,
    the composed regions give "project, then the neighbour mean", the reference's operations give "the neighbour mean, then
    project", and the two agree on real entries. -/
theorem kernel_result_eq (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    (Cert.KernelIdeal.Gen.dat2 (Cert.KernelIdeal.Gen.V5 m ρ) c).arrAt 2 Cert.KernelIdeal.cfg2.N
      = Cert.ReferenceIdeal.RefRun.refOut (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8)) := by
  have H := Cert.FiniteInputs.real_of_pre _ _ _ _ _ _ _ _ _ _ _ _ _ _ _ _ _ _ _ (hpre c)
  funext i
  obtain ⟨n, q, rfl⟩ : ∃ (n : Fin 50000) (q : Fin 64), i = ix2 n q := ⟨i 0, i 1, eq_ix2 i⟩
  rw [Cert.KernelIdeal.Composed.result_apply m ρ c _ _ _ _ _ _ _ _
    (Cert.KernelIdeal.HostReads.V1_v9 m ρ c) (Cert.KernelIdeal.HostReads.V1_v1 m ρ c) (Cert.KernelIdeal.HostReads.V1_v10 m ρ c)
    (Cert.KernelIdeal.HostReads.V3_v11 m ρ c) (Cert.KernelIdeal.HostReads.V3_v12 m ρ c)
    (Cert.KernelIdeal.HostReads.V5_v22 m ρ c) (Cert.KernelIdeal.HostReads.V5_v15 m ρ c) n q]
  rw [Cert.ReferenceIdeal.RefRead.refOut_apply]
  exact Cert.Bridge.spec_eq _ _ _ _ _ _ _ H.1 (Cert.Bridge.slice_real _ _ _ H.2.1) H.2.2.2.1
    (Cert.Bridge.slice_real _ _ _ H.2.2.1) H.2.2.2.2 n q

theorem algebraic : Cert.algebraic_KernelIdeal_ReferenceIdeal := by
  intro m ρ m' ρ' hpre hagree
  refine ⟨fun c => Cert.ReferenceIdeal.RefRun.refOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (kernel_result_eq m ρ hpre c), (h c).2⟩)
      (Cert.KernelIdeal.WholeRun.run_result (F := Ideal) m ρ)
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2.2.1, (hagree c).2.2.2.2.1, (hagree c).2.2.2.2.2.2.1,
      (hagree c).2.2.2.2.2.2.2.1, (hagree c).2.2.2.2.2.2.2.2.1]

theorem claim : Cert.Claim := ⟨Cert.Kernel.Gen.facts, Cert.KernelIdeal.Gen.facts, Cert.ReferenceIdeal.Gen.facts,
  Cert.Pre_finite_inputs.Gen.facts, frame_kernel, frame_kernelIdeal, frame_reference, trivial, algebraic⟩

end Cert.Proof

end
